-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S32768x256 : Shape := ⟨2, ![32768, 256]⟩
abbrev S256x256 : Shape := ⟨2, ![256, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S32768x256 : S_.BroadcastsInDim S32768x256 (![] : Fin 0 → Fin S32768x256.rank)
  reducesTo_S32768x256_S_d0_1 : S32768x256.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S4096x256 .f32) (main_arg1 : FVec F S32768x256 .f32) (main_arg2 : FVec F S256x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S32768x256 .f32 := Host.absf main_arg1
  let main_cst_0 : FVec F S_ .f32 := constant S_ .f32 0x7F800000#32
  let main_v5 : FVec F S32768x256 .f32 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S4096x256 : Shape := ⟨2, ![4096, 256]⟩
abbrev S32768x256 : Shape := ⟨2, ![32768, 256]⟩
abbrev S256x256 : Shape := ⟨2, ![256, 256]⟩
abbrev S1x32768 : Shape := ⟨2, ![1, 32768]⟩
abbrev S1x256 : Shape := ⟨2, ![1, 256]⟩
abbrev S1x1 : Shape := ⟨2, ![1, 1]⟩
abbrev S1x4096 : Shape := ⟨2, ![1, 4096]⟩
abbrev S4096 : Shape := ⟨1, ![4096]⟩
abbrev S4096x1 : Shape := ⟨2, ![4096, 1]⟩
abbrev S1 : Shape := ⟨1, ![1]⟩
abbrev S256 : Shape := ⟨1, ![256]⟩
abbrev S1024x256 : Shape := ⟨2, ![1024, 256]⟩
abbrev S1024x1 : Shape := ⟨2, ![1024, 1]⟩
abbrev S1024 : Shape := ⟨1, ![1024]⟩
abbrev S4096x32768 : Shape := ⟨2, ![4096, 32768]⟩
abbrev S2048x256 : Shape := ⟨2, ![2048, 256]⟩
abbrev S1x2048 : Shape := ⟨2, ![1, 2048]⟩
abbrev S1024x2048 : Shape := ⟨2, ![1024, 2048]⟩

abbrev nBuf : Space → Nat
  | .hbm => 10
  | .vmem => 30
  | .smem => 0
  | _ => 0

abbrev bufTy : (tb : Table) → Fin (tcTables nBuf tb) → BufTy
  | .hbm, ⟨0, _⟩ => ⟨S4096x256, .f32⟩
  | .hbm, ⟨1, _⟩ => ⟨S32768x256, .f32⟩
  | .hbm, ⟨2, _⟩ => ⟨S256x256, .f32⟩
  | .hbm, ⟨3, _⟩ => ⟨S32768x256, .bf16⟩
  | .hbm, ⟨4, _⟩ => ⟨S1x32768, .f32⟩
  | .hbm, ⟨5, _⟩ => ⟨S1x256, .f32⟩
  | .hbm, ⟨6, _⟩ => ⟨S1x1, .f32⟩
  | .hbm, ⟨7, _⟩ => ⟨S4096x256, .bf16⟩
  | .hbm, ⟨8, _⟩ => ⟨S4096x1, .f32⟩
  | .hbm, ⟨9, _⟩ => ⟨S4096x32768, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S4096x256, .bf16⟩
  | .local _ .vmem, ⟨4, _⟩ => ⟨S4096x256, .bf16⟩
  | .local _ .vmem, ⟨5, _⟩ => ⟨S1x4096, .f32⟩
  | .local _ .vmem, ⟨6, _⟩ => ⟨S1x4096, .f32⟩
  | .local _ .vmem, ⟨7, _⟩ => ⟨S1x256, .f32⟩
  | .local _ .vmem, ⟨8, _⟩ => ⟨S1x1, .f32⟩
  | .local _ .vmem, ⟨9, _⟩ => ⟨S1x256, .f32⟩
  | .local _ .vmem, ⟨10, _⟩ => ⟨S1x1, .f32⟩
  | .local _ .vmem, ⟨11, _⟩ => ⟨S1024x256, .f32⟩
  | .local _ .vmem, ⟨12, _⟩ => ⟨S1024x256, .f32⟩
  | .local _ .vmem, ⟨13, _⟩ => ⟨S256x256, .f32⟩
  | .local _ .vmem, ⟨14, _⟩ => ⟨S1x256, .f32⟩
  | .local _ .vmem, ⟨15, _⟩ => ⟨S1024x256, .bf16⟩
  | .local _ .vmem, ⟨16, _⟩ => ⟨S1024x256, .bf16⟩
  | .local _ .vmem, ⟨17, _⟩ => ⟨S1024x1, .f32⟩
  | .local _ .vmem, ⟨18, _⟩ => ⟨S1024x1, .f32⟩
  | .local _ .vmem, ⟨19, _⟩ => ⟨S1024x256, .bf16⟩
  | .local _ .vmem, ⟨20, _⟩ => ⟨S1024x256, .bf16⟩
  | .local _ .vmem, ⟨21, _⟩ => ⟨S2048x256, .bf16⟩
  | .local _ .vmem, ⟨22, _⟩ => ⟨S2048x256, .bf16⟩
  | .local _ .vmem, ⟨23, _⟩ => ⟨S1x2048, .f32⟩
  | .local _ .vmem, ⟨24, _⟩ => ⟨S1x2048, .f32⟩
  | .local _ .vmem, ⟨25, _⟩ => ⟨S1x1, .f32⟩
  | .local _ .vmem, ⟨26, _⟩ => ⟨S1024x1, .f32⟩
  | .local _ .vmem, ⟨27, _⟩ => ⟨S1024x1, .f32⟩
  | .local _ .vmem, ⟨28, _⟩ => ⟨S1024x2048, .f32⟩
  | .local _ .vmem, ⟨29, _⟩ => ⟨S1024x2048, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v38 : BitVec 1 := Scalar.cmpi .eq arg0 c7_i32
  let v39 : BitVec 32 := Scalar.extui v38
  let c0_i32_19 : BitVec 32 := 0#32
  let v40 : BitVec 1 := Scalar.cmpi .ne v39 c0_i32_19
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![4, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1024x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1024x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  reduces_S4096x256_S4096 : S4096x256.Reduces [1] S4096
  shapeCasts_S4096_S4096x1 : S4096.ShapeCasts S4096x1
  broadcasts_S4096x1_S4096x256 : S4096x1.Broadcasts S4096x256
  bitsLt_bf16_f32 : FTy.bits .bf16 < FTy.bits .f32
  packedbf16_S4096x256_S4096x256_0_0 : (Rect.unit (s := S4096x256) ![0, 0] S4096x256.size inb_S4096x256_S4096x256_0_0).PackedRows (EltTy.packing .bf16)
  transposes_S4096x1_p1_0_S1x4096 : S4096x1.Transposes [1, 0] S1x4096
  inb_S1x4096_S1x4096_0_0 : ∀ a, (![0, 0] : Fin 2 → Nat) a + S1x4096.size a ≤ S1x4096.size a
  h_S1x4096 : 0 < S1x4096.numel
  reduces_S4096x1_S1 : S4096x1.Reduces [0] S1
  shapeCasts_S1_S1x1 : S1.ShapeCasts S1x1
  broadcasts_S1x1_S4096x1 : S1x1.Broadcasts S4096x1
  reduces_S4096x256_S256 : S4096x256.Reduces [0] S256
  shapeCasts_S256_S1x256 : S256.ShapeCasts S1x256
  broadcasts_S1x1_S1x256 : S1x1.Broadcasts S1x256
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  packedbf16_S1024x256_S1024x256_0_0 : (Rect.unit (s := S1024x256) ![0, 0] S1024x256.size inb_S1024x256_S1024x256_0_0).PackedRows (EltTy.packing .bf16)
  broadcasts_S1x256_S1024x256 : S1x256.Broadcasts S1024x256
  inb_S1024x1_S1024x1_0_0 : ∀ a, (![0, 0] : Fin 2 → Nat) a + S1024x1.size a ≤ S1024x1.size a
  h_S1024x1 : 0 < S1024x1.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inpos_S1x1_p0_0 : ∀ a, (![0, 0] : Fin 2 → Nat) a < S1x1.size a
  shapeCasts_S1024x1_S1024x1 : S1024x1.ShapeCasts S1024x1
  broadcasts_S1024x1_S1024x2048 : S1024x1.Broadcasts S1024x2048
  inb_S1024x2048_S1024x2048_0_0 : ∀ a, (![0, 0] : Fin 2 → Nat) a + S1024x2048.size a ≤ S1024x2048.size a
  h_S1024x2048 : 0 < S1024x2048.numel
  dot_S4096x256_S256x256_S4096x256_1_0_0_1_n_n_wf : DotDims.WF S4096x256 S256x256 S4096x256 [1] [0] [0] [1] [] []
  dot_S1024x256_S256x256_S1024x256_1_0_0_1_n_n_wf : DotDims.WF S1024x256 S256x256 S1024x256 [1] [0] [0] [1] [] []
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S32768x256.size a
  hwx0_0 : ∀ i : grid0.Coords, EltTy.bits .f32 = 32 ∨ (Rect.block (s := S32768x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S32768x256.size a
  hwx0_2 : ∀ i : grid0.Coords, EltTy.bits .bf16 = 32 ∨ (Rect.block (s := S32768x256) S4096x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x32768.size a
  hwx0_3 : ∀ i : grid0.Coords, EltTy.bits .f32 = 32 ∨ (Rect.block (s := S1x32768) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S4096x256.size a
  hwx1_0 : ∀ i : grid1.Coords, EltTy.bits .f32 = 32 ∨ (Rect.block (s := S4096x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S4096x256.size a
  hwx1_3 : ∀ i : grid1.Coords, EltTy.bits .bf16 = 32 ∨ (Rect.block (s := S4096x256) S1024x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S4096x1.size a
  hwx1_4 : ∀ i : grid1.Coords, EltTy.bits .f32 = 32 ∨ (Rect.block (s := S4096x1) S1024x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S4096x256.size a
  hwx2_0 : ∀ i : grid2.Coords, EltTy.bits .bf16 = 32 ∨ (Rect.block (s := S4096x256) S1024x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S32768x256.size a
  hwx2_1 : ∀ i : grid2.Coords, EltTy.bits .bf16 = 32 ∨ (Rect.block (s := S32768x256) S2048x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x32768.size a
  hwx2_2 : ∀ i : grid2.Coords, EltTy.bits .f32 = 32 ∨ (Rect.block (s := S1x32768) S1x2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1.size a ≤ S4096x1.size a
  hwx2_4 : ∀ i : grid2.Coords, EltTy.bits .f32 = 32 ∨ (Rect.block (s := S4096x1) S1024x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x2048.size a ≤ S4096x32768.size a
  hwx2_5 : ∀ i : grid2.Coords, EltTy.bits .f32 = 32 ∨ (Rect.block (s := S4096x32768) S1024x2048.size (cc2_transform_5 i) (hinb2_5 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_arg1) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S4096x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x256.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S1024x256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S1024x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v1_0) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_0) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0_1) S1x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0_3) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v1_1) S1024x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v2) S1024x2048.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4096x256 : Shape := ⟨2, ![4096, 256]⟩
abbrev S32768x256 : Shape := ⟨2, ![32768, 256]⟩
abbrev S256x256 : Shape := ⟨2, ![256, 256]⟩
abbrev S_ : Shape := ⟨0, ![]⟩
abbrev S4096 : Shape := ⟨1, ![4096]⟩
abbrev S4096x1 : Shape := ⟨2, ![4096, 1]⟩
abbrev S32768 : Shape := ⟨1, ![32768]⟩
abbrev S32768x1 : Shape := ⟨2, ![32768, 1]⟩
abbrev S256x32768 : Shape := ⟨2, ![256, 32768]⟩
abbrev S4096x32768 : Shape := ⟨2, ![4096, 32768]⟩
abbrev S1x32768 : Shape := ⟨2, ![1, 32768]⟩

abbrev nBuf : Space → Nat
  | .hbm => 40
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S32768x256, .f32⟩
  | .hbm, ⟨2, _⟩ => ⟨S256x256, .f32⟩
  | .hbm, ⟨3, _⟩ => ⟨S4096x256, .f32⟩
  | .hbm, ⟨4, _⟩ => ⟨S32768x256, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S32768x256, .f32⟩
  | .hbm, ⟨15, _⟩ => ⟨S32768x256, .f32⟩
  | .hbm, ⟨16, _⟩ => ⟨S32768x256, .f32⟩
  | .hbm, ⟨17, _⟩ => ⟨S256x32768, .f32⟩
  | .hbm, ⟨18, _⟩ => ⟨S4096x32768, .f32⟩
  | .hbm, ⟨19, _⟩ => ⟨S4096x32768, .f32⟩
  | .hbm, ⟨20, _⟩ => ⟨S4096x32768, .f32⟩
  | .hbm, ⟨21, _⟩ => ⟨S4096x32768, .f32⟩
  | .hbm, ⟨22, _⟩ => ⟨S1x32768, .f32⟩
  | .hbm, ⟨23, _⟩ => ⟨S4096x32768, .f32⟩
  | .hbm, ⟨24, _⟩ => ⟨S4096x32768, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096x1, .f32⟩
  | .hbm, ⟨31, _⟩ => ⟨S4096x32768, .f32⟩
  | .hbm, ⟨32, _⟩ => ⟨S4096x32768, .f32⟩
  | .hbm, ⟨33, _⟩ => ⟨S4096x32768, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1, .f32⟩
  | .hbm, ⟨38, _⟩ => ⟨S4096x32768, .f32⟩
  | .hbm, ⟨39, _⟩ => ⟨S4096x32768, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_call0_cst : Ref sig .tc := ⟨.hbm, 25, rfl⟩
abbrev main_call0_v0 : Ref sig .tc := ⟨.hbm, 26, rfl⟩
abbrev main_call0_cst_0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_cst_1 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_v20 : Ref sig .tc := ⟨.hbm, 39, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  reducesTo_S32768x256_S32768_d1 : S32768x256.ReducesTo [1] S32768
  bcast_S32768_S32768x1_0 : S32768.BroadcastsInDim S32768x1 (![0] : Fin 1 → Fin S32768x1.rank)
  bcast_S4096x1_S4096x256_0_1 : S4096x1.BroadcastsInDim S4096x256 (![0, 1] : Fin 2 → Fin S4096x256.rank)
  bcast_S32768x1_S32768x256_0_1 : S32768x1.BroadcastsInDim S32768x256 (![0, 1] : Fin 2 → Fin S32768x256.rank)
  transposes_S32768x256_S256x32768_1_0 : S32768x256.Transposes [1, 0] S256x32768
  bcast_S4096x1_S4096x32768_0_1 : S4096x1.BroadcastsInDim S4096x32768 (![0, 1] : Fin 2 → Fin S4096x32768.rank)
  transposes_S32768x1_S1x32768_1_0 : S32768x1.Transposes [1, 0] S1x32768
  bcast_S1x32768_S4096x32768_0_1 : S1x32768.BroadcastsInDim S4096x32768 (![0, 1] : Fin 2 → Fin S4096x32768.rank)
  reducesTo_S4096x32768_S4096_d1 : S4096x32768.ReducesTo [1] S4096
  bcast_S_S4096 : S_.BroadcastsInDim S4096 (![] : Fin 0 → Fin S4096.rank)
  dot_S4096x256_S256x256_S4096x256_1_0_0_1_n_n_wf : DotDims.WF S4096x256 S256x256 S4096x256 [1] [0] [0] [1] [] []
  dot_S32768x256_S256x256_S32768x256_1_0_0_1_n_n_wf : DotDims.WF S32768x256 S256x256 S32768x256 [1] [0] [0] [1] [] []
  dot_S4096x256_S256x32768_S4096x32768_1_0_0_1_n_n_wf : DotDims.WF S4096x256 S256x32768 S4096x32768 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def dot_S4096x256_S256x32768_S4096x32768_1_0_0_1_n_n : DotDims S4096x256 S256x32768 S4096x32768 where
  lhsContracting := [1]
  rhsContracting := [0]
  lhsNonContracting := [0]
  rhsNonContracting := [1]
  lhsBatch := []
  rhsBatch := []
  wf := dot_S4096x256_S256x32768_S4096x32768_1_0_0_1_n_n_wf

class Facts : Prop extends Facts₀ where

variable [Facts]
-- ==== Proof.K.R0Runs.lean ====
/-
  Region 0 (the pass over the rows of the output table, eight tiles): what its body's two conditionals
  are at each grid point, where its last two output windows are idle, and the names of the buffers its body is
  handed — the staged windows' current memrefs and the two scratch buffers it carries from point to point.
-/
import proofs.«170462_j60730837566028_1_alg».proof.Proof.Gen.Kernel.Launch
import proofs.«170462_j60730837566028_1_alg».proof.Proof.Gen.Kernel.Skeleton
import proofs.«170462_j60730837566028_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional (the scratch is initialised): the grid coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second conditional (the scratch is copied to the last two outputs): the grid coordinate is 7. -/
abbrev cond0_1 (i : grid0.Coords) : Prop := k0_cond2 i = 1#1
/-- It holds at the last point only. -/
theorem hcond0_1 : ∀ t : Fin cfg0.N, cond0_1 (grid0.coords t) ↔ t.val = 7 :=
  (by decide +kernel : ∀ t : Fin grid0.N, cond0_1 (grid0.coords t) ↔ t.val = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point the body stores nothing into windows 4 and 5, and they are not written back. -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The buffers the body is handed -/

abbrev ms0_0 (t : Fin cfg0.N) : Memref sig .tc .vmem S4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
/-- The two scratch buffers: the running vector and the running maximum. -/
abbrev scM0_0 : Memref sig .tc .vmem S1x256 .f32 := Memref.whole cc0_scratch0
abbrev scM0_1 : Memref sig .tc .vmem S1x1 .f32 := Memref.whole cc0_scratch1
abbrev VS0_0 : View sig .tc .vmem S1x256 .f32 := scM0_0.view
abbrev VS0_1 : View sig .tc .vmem S1x1 .f32 := scM0_1.view
/-- One staging buffer of each output window, through which contents are stated. -/
abbrev VO0_2 : View sig .tc .vmem S4096x256 .bf16 := (Memref.whole cc0_stg2_0 : Memref sig .tc .vmem S4096x256 .bf16).view
abbrev VO0_3 : View sig .tc .vmem S1x4096 .f32 := (Memref.whole cc0_stg3_0 : Memref sig .tc .vmem S1x4096 .f32).view
abbrev VO0_4 : View sig .tc .vmem S1x256 .f32 := (Memref.whole cc0_stg4_0 : Memref sig .tc .vmem S1x256 .f32).view
abbrev VO0_5 : View sig .tc .vmem S1x1 .f32 := (Memref.whole cc0_stg5_0 : Memref sig .tc .vmem S1x1 .f32).view

end Cert.Kernel.Fr

end
-- ==== Proof.K.R0RunA.lean ====
/-
  The body of region 0 run once at the first grid point (the scratch is initialised, then updated; the last two outputs are left as found): what its stores leave in every buffer, as lists of written pieces
  (latest first) that the run itself finds, with the proof that from whole buffers the body runs to a continuation
  holding exactly those.
-/
import proofs.«170462_j60730837566028_1_alg».proof.Proof.K.R0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : cond0_0 i) (hc1 : ¬cond0_1 i)
    (x0 : Vec F S4096x256 .f32) (x1 : Vec F S256x256 .f32) :
    Σ' (L2 : List (View.Piece (Elt F) S4096x256 .bf16)) (L3 : List (View.Piece (Elt F) S1x4096 .f32)) (LS0 : List (View.Piece (Elt F) S1x256 .f32)), { LS1 : List (View.Piece (Elt F) S1x1 .f32) //
      ∀ (xi4 : Vec F S1x256 .f32) (xi5 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel_r i arg1 harg1 arg2 harg2 arg3 harg3 arg4 harg4 arg5 harg5 arg6 harg6 arg7 harg7 arg8 harg8) K } := by
  refine ⟨?_, ?_, ?_, ?_, fun xi4 xi5 E K => ?run⟩
  case run =>
    simp only [cc0__kernel_r_eq_skeleton]; unfold cc0__kernel_r_skel
    simp only [k0_part1_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Fr

end
-- ==== Proof.K.R0RunB.lean ====
/-
  The body of region 0 run once at a grid point that is neither first nor last (the scratch, found at the contents the point before left, is updated; the last two outputs are left as found): what its stores leave in every buffer, as lists of written pieces
  (latest first) that the run itself finds, with the proof that from whole buffers the body runs to a continuation
  holding exactly those.
-/
import proofs.«170462_j60730837566028_1_alg».proof.Proof.K.R0RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : ¬cond0_1 i)
    (x0 : Vec F S4096x256 .f32) (x1 : Vec F S256x256 .f32) (xs0 : Vec F S1x256 .f32) (xs1 : Vec F S1x1 .f32) :
    Σ' (L2 : List (View.Piece (Elt F) S4096x256 .bf16)) (L3 : List (View.Piece (Elt F) S1x4096 .f32)) (LS0 : List (View.Piece (Elt F) S1x256 .f32)), { LS1 : List (View.Piece (Elt F) S1x1 .f32) //
      ∀ (xi4 : Vec F S1x256 .f32) (xi5 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel_r i arg1 harg1 arg2 harg2 arg3 harg3 arg4 harg4 arg5 harg5 arg6 harg6 arg7 harg7 arg8 harg8) K } := by
  refine ⟨?_, ?_, ?_, ?_, fun xi4 xi5 E K => ?run⟩
  case run =>
    simp only [cc0__kernel_r_eq_skeleton]; unfold cc0__kernel_r_skel
    simp only [k0_part1_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Fr

end
-- ==== Proof.K.R0RunC.lean ====
/-
  The body of region 0 run once at the last grid point (the scratch is updated and copied into the last two outputs): what its stores leave in every buffer, as lists of written pieces
  (latest first) that the run itself finds, with the proof that from whole buffers the body runs to a continuation
  holding exactly those.
-/
import proofs.«170462_j60730837566028_1_alg».proof.Proof.K.R0RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i)
    (x0 : Vec F S4096x256 .f32) (x1 : Vec F S256x256 .f32) (xs0 : Vec F S1x256 .f32) (xs1 : Vec F S1x1 .f32) :
    Σ' (L2 : List (View.Piece (Elt F) S4096x256 .bf16)) (L3 : List (View.Piece (Elt F) S1x4096 .f32)) (L4 : List (View.Piece (Elt F) S1x256 .f32)) (L5 : List (View.Piece (Elt F) S1x1 .f32)) (LS0 : List (View.Piece (Elt F) S1x256 .f32)), { LS1 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel_r i arg1 harg1 arg2 harg2 arg3 harg3 arg4 harg4 arg5 harg5 arg6 harg6 arg7 harg7 arg8 harg8) K } := by
  refine ⟨?_, ?_, ?_, ?_, ?_, ?_, fun E K => ?run⟩
  case run =>
    simp only [cc0__kernel_r_eq_skeleton]; unfold cc0__kernel_r_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    isplitl [HS0]; · iexists _; iexact HS0
    iexists _; iexact HS1

end Cert.Kernel.Fr

end
-- ==== Proof.K.R0Frame.lean ====
/-
  Region 0's proof data.  After the body at grid point n its six buffers of interest hold: the first two output
  windows what that point's tile gives; the last two outputs what the last point copies there (a placeholder
  before it, which nothing reads: those windows are idle and not written back); the two scratch buffers the
  running vector and running maximum after n + 1 tiles.  The invariant between points keeps the scratch at
  exactly those contents, so that the next point finds them.
-/
import proofs.«170462_j60730837566028_1_alg».proof.Proof.K.R0RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scoped buffers that are neither staging buffers of region 0 nor its scratch -/

def R19 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ R19 c) ∗ (∃ r, prngReg c r)) := by
  unfold Pipeline.ΦA R19; rw [scopedRest0_eq]; simp only [scM0_0, scM0_1, owns_whole]; try rfl

/-! ## What each case leaves -/

/-- The pieces the run leaves in this buffer tile it, so they cover it. -/
theorem cover0_A_2 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : cond0_0 i) (hc1 : ¬cond0_1 i) (x0 : Vec F S4096x256 .f32) (x1 : Vec F S256x256 .f32) (y : S4096x256.Idx) :
    ∃ pc ∈ (kernelRun0_A c i arg1 harg1 arg2 harg2 arg3 harg3 arg4 harg4 arg5 harg5 arg6 harg6 arg7 harg7 arg8 harg8 hc0 hc1 x0 x1).1, y ∈ pc.1.set :=
  View.cover_of_tiledL (kernelRun0_A c i arg1 harg1 arg2 harg2 arg3 harg3 arg4 harg4 arg5 harg5 arg6 harg6 arg7 harg7 arg8 harg8 hc0 hc1 x0 x1).1 S4096x256.size (by sl_kernel_rfl) y
/-- What the run leaves in this buffer: its pieces read back. -/
def out0_A_2 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : cond0_0 i) (hc1 : ¬cond0_1 i) (x0 : Vec F S4096x256 .f32) (x1 : Vec F S256x256 .f32) : Vec F S4096x256 .bf16 :=
  VO0_2.read (Elt F) (VO0_2.writes (Elt F) VO0_2.junk (kernelRun0_A c i arg1 harg1 arg2 harg2 arg3 harg3 arg4 harg4 arg5 harg5 arg6 harg6 arg7 harg7 arg8 harg8 hc0 hc1 x0 x1).1)

/-- The pieces the run leaves in this buffer tile it, so they cover it. -/
theorem cover0_A_3 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : cond0_0 i) (hc1 : ¬cond0_1 i) (x0 : Vec F S4096x256 .f32) (x1 : Vec F S256x256 .f32) (y : S1x4096.Idx) :
    ∃ pc ∈ (kernelRun0_A c i arg1 harg1 arg2 harg2 arg3 harg3 arg4 harg4 arg5 harg5 arg6 harg6 arg7 harg7 arg8 harg8 hc0 hc1 x0 x1).2.1, y ∈ pc.1.set :=
  View.cover_of_tiledL (kernelRun0_A c i arg1 harg1 arg2 harg2 arg3 harg3 arg4 harg4 arg5 harg5 arg6 harg6 arg7 harg7 arg8 harg8 hc0 hc1 x0 x1).2.1 S1x4096.size (by sl_kernel_rfl) y
/-- What the run leaves in this buffer: its pieces read back. -/
def out0_A_3 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : cond0_0 i) (hc1 : ¬cond0_1 i) (x0 : Vec F S4096x256 .f32) (x1 : Vec F S256x256 .f32) : Vec F S1x4096 .f32 :=
  VO0_3.read (Elt F) (VO0_3.writes (Elt F) VO0_3.junk (kernelRun0_A c i arg1 harg1 arg2 harg2 arg3 harg3 arg4 harg4 arg5 harg5 arg6 harg6 arg7 harg7 arg8 harg8 hc0 hc1 x0 x1).2.1)

/-- The pieces the run leaves in this buffer tile it, so they cover it. -/
theorem scover0_A_0 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : cond0_0 i) (hc1 : ¬cond0_1 i) (x0 : Vec F S4096x256 .f32) (x1 : Vec F S256x256 .f32) (y : S1x256.Idx) :
    ∃ pc ∈ (kernelRun0_A c i arg1 harg1 arg2 harg2 arg3 harg3 arg4 harg4 arg5 harg5 arg6 harg6 arg7 harg7 arg8 harg8 hc0 hc1 x0 x1).2.2.1, y ∈ pc.1.set :=
  View.cover_of_tiledL (kernelRun0_A c i arg1 harg1 arg2 harg2 arg3 harg3 arg4 harg4 arg5 harg5 arg6 harg6 arg7 harg7 arg8 harg8 hc0 hc1 x0 x1).2.2.1 S1x256.size (by sl_kernel_rfl) y
/-- What the run leaves in this buffer: its pieces read back. -/
def sout0_A_0 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : cond0_0 i) (hc1 : ¬cond0_1 i) (x0 : Vec F S4096x256 .f32) (x1 : Vec F S256x256 .f32) : Vec F S1x256 .f32 :=
  VS0_0.read (Elt F) (VS0_0.writes (Elt F) VS0_0.junk (kernelRun0_A c i arg1 harg1 arg2 harg2 arg3 harg3 arg4 harg4 arg5 harg5 arg6 harg6 arg7 harg7 arg8 harg8 hc0 hc1 x0 x1).2.2.1)

/-- The pieces the run leaves in this buffer tile it, so they cover it. -/
theorem scover0_A_1 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : cond0_0 i) (hc1 : ¬cond0_1 i) (x0 : Vec F S4096x256 .f32) (x1 : Vec F S256x256 .f32) (y : S1x1.Idx) :
    ∃ pc ∈ (kernelRun0_A c i arg1 harg1 arg2 harg2 arg3 harg3 arg4 harg4 arg5 harg5 arg6 harg6 arg7 harg7 arg8 harg8 hc0 hc1 x0 x1).2.2.2.1, y ∈ pc.1.set :=
  View.cover_of_tiledL (kernelRun0_A c i arg1 harg1 arg2 harg2 arg3 harg3 arg4 harg4 arg5 harg5 arg6 harg6 arg7 harg7 arg8 harg8 hc0 hc1 x0 x1).2.2.2.1 S1x1.size (by sl_kernel_rfl) y
/-- What the run leaves in this buffer: its pieces read back. -/
def sout0_A_1 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : cond0_0 i) (hc1 : ¬cond0_1 i) (x0 : Vec F S4096x256 .f32) (x1 : Vec F S256x256 .f32) : Vec F S1x1 .f32 :=
  VS0_1.read (Elt F) (VS0_1.writes (Elt F) VS0_1.junk (kernelRun0_A c i arg1 harg1 arg2 harg2 arg3 harg3 arg4 harg4 arg5 harg5 arg6 harg6 arg7 harg7 arg8 harg8 hc0 hc1 x0 x1).2.2.2.1)

/-- The pieces the run leaves in this buffer tile it, so they cover it. -/
theorem cover0_B_2 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : ¬cond0_1 i) (x0 : Vec F S4096x256 .f32) (x1 : Vec F S256x256 .f32) (xs0 : Vec F S1x256 .f32) (xs1 : Vec F S1x1 .f32) (y : S4096x256.Idx) :
    ∃ pc ∈ (kernelRun0_B c i arg1 harg1 arg2 harg2 arg3 harg3 arg4 harg4 arg5 harg5 arg6 harg6 arg7 harg7 arg8 harg8 hc0 hc1 x0 x1 xs0 xs1).1, y ∈ pc.1.set :=
  View.cover_of_tiledL (kernelRun0_B c i arg1 harg1 arg2 harg2 arg3 harg3 arg4 harg4 arg5 harg5 arg6 harg6 arg7 harg7 arg8 harg8 hc0 hc1 x0 x1 xs0 xs1).1 S4096x256.size (by sl_kernel_rfl) y
/-- What the run leaves in this buffer: its pieces read back. -/
def out0_B_2 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : ¬cond0_1 i) (x0 : Vec F S4096x256 .f32) (x1 : Vec F S256x256 .f32) (xs0 : Vec F S1x256 .f32) (xs1 : Vec F S1x1 .f32) : Vec F S4096x256 .bf16 :=
  VO0_2.read (Elt F) (VO0_2.writes (Elt F) VO0_2.junk (kernelRun0_B c i arg1 harg1 arg2 harg2 arg3 harg3 arg4 harg4 arg5 harg5 arg6 harg6 arg7 harg7 arg8 harg8 hc0 hc1 x0 x1 xs0 xs1).1)

/-- The pieces the run leaves in this buffer tile it, so they cover it. -/
theorem cover0_B_3 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : ¬cond0_1 i) (x0 : Vec F S4096x256 .f32) (x1 : Vec F S256x256 .f32) (xs0 : Vec F S1x256 .f32) (xs1 : Vec F S1x1 .f32) (y : S1x4096.Idx) :
    ∃ pc ∈ (kernelRun0_B c i arg1 harg1 arg2 harg2 arg3 harg3 arg4 harg4 arg5 harg5 arg6 harg6 arg7 harg7 arg8 harg8 hc0 hc1 x0 x1 xs0 xs1).2.1, y ∈ pc.1.set :=
  View.cover_of_tiledL (kernelRun0_B c i arg1 harg1 arg2 harg2 arg3 harg3 arg4 harg4 arg5 harg5 arg6 harg6 arg7 harg7 arg8 harg8 hc0 hc1 x0 x1 xs0 xs1).2.1 S1x4096.size (by sl_kernel_rfl) y
/-- What the run leaves in this buffer: its pieces read back. -/
def out0_B_3 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : ¬cond0_1 i) (x0 : Vec F S4096x256 .f32) (x1 : Vec F S256x256 .f32) (xs0 : Vec F S1x256 .f32) (xs1 : Vec F S1x1 .f32) : Vec F S1x4096 .f32 :=
  VO0_3.read (Elt F) (VO0_3.writes (Elt F) VO0_3.junk (kernelRun0_B c i arg1 harg1 arg2 harg2 arg3 harg3 arg4 harg4 arg5 harg5 arg6 harg6 arg7 harg7 arg8 harg8 hc0 hc1 x0 x1 xs0 xs1).2.1)

/-- The pieces the run leaves in this buffer tile it, so they cover it. -/
theorem scover0_B_0 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : ¬cond0_1 i) (x0 : Vec F S4096x256 .f32) (x1 : Vec F S256x256 .f32) (xs0 : Vec F S1x256 .f32) (xs1 : Vec F S1x1 .f32) (y : S1x256.Idx) :
    ∃ pc ∈ (kernelRun0_B c i arg1 harg1 arg2 harg2 arg3 harg3 arg4 harg4 arg5 harg5 arg6 harg6 arg7 harg7 arg8 harg8 hc0 hc1 x0 x1 xs0 xs1).2.2.1, y ∈ pc.1.set :=
  View.cover_of_tiledL (kernelRun0_B c i arg1 harg1 arg2 harg2 arg3 harg3 arg4 harg4 arg5 harg5 arg6 harg6 arg7 harg7 arg8 harg8 hc0 hc1 x0 x1 xs0 xs1).2.2.1 S1x256.size (by sl_kernel_rfl) y
/-- What the run leaves in this buffer: its pieces read back. -/
def sout0_B_0 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : ¬cond0_1 i) (x0 : Vec F S4096x256 .f32) (x1 : Vec F S256x256 .f32) (xs0 : Vec F S1x256 .f32) (xs1 : Vec F S1x1 .f32) : Vec F S1x256 .f32 :=
  VS0_0.read (Elt F) (VS0_0.writes (Elt F) VS0_0.junk (kernelRun0_B c i arg1 harg1 arg2 harg2 arg3 harg3 arg4 harg4 arg5 harg5 arg6 harg6 arg7 harg7 arg8 harg8 hc0 hc1 x0 x1 xs0 xs1).2.2.1)

/-- The pieces the run leaves in this buffer tile it, so they cover it. -/
theorem scover0_B_1 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : ¬cond0_1 i) (x0 : Vec F S4096x256 .f32) (x1 : Vec F S256x256 .f32) (xs0 : Vec F S1x256 .f32) (xs1 : Vec F S1x1 .f32) (y : S1x1.Idx) :
    ∃ pc ∈ (kernelRun0_B c i arg1 harg1 arg2 harg2 arg3 harg3 arg4 harg4 arg5 harg5 arg6 harg6 arg7 harg7 arg8 harg8 hc0 hc1 x0 x1 xs0 xs1).2.2.2.1, y ∈ pc.1.set :=
  View.cover_of_tiledL (kernelRun0_B c i arg1 harg1 arg2 harg2 arg3 harg3 arg4 harg4 arg5 harg5 arg6 harg6 arg7 harg7 arg8 harg8 hc0 hc1 x0 x1 xs0 xs1).2.2.2.1 S1x1.size (by sl_kernel_rfl) y
/-- What the run leaves in this buffer: its pieces read back. -/
def sout0_B_1 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : ¬cond0_1 i) (x0 : Vec F S4096x256 .f32) (x1 : Vec F S256x256 .f32) (xs0 : Vec F S1x256 .f32) (xs1 : Vec F S1x1 .f32) : Vec F S1x1 .f32 :=
  VS0_1.read (Elt F) (VS0_1.writes (Elt F) VS0_1.junk (kernelRun0_B c i arg1 harg1 arg2 harg2 arg3 harg3 arg4 harg4 arg5 harg5 arg6 harg6 arg7 harg7 arg8 harg8 hc0 hc1 x0 x1 xs0 xs1).2.2.2.1)

/-- The pieces the run leaves in this buffer tile it, so they cover it. -/
theorem cover0_C_2 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) (y : S4096x256.Idx) :
    ∃ pc ∈ (kernelRun0_C c i arg1 harg1 arg2 harg2 arg3 harg3 arg4 harg4 arg5 harg5 arg6 harg6 arg7 harg7 arg8 harg8 hc0 hc1 x0 x1 xs0 xs1).1, y ∈ pc.1.set :=
  View.cover_of_tiledL (kernelRun0_C c i arg1 harg1 arg2 harg2 arg3 harg3 arg4 harg4 arg5 harg5 arg6 harg6 arg7 harg7 arg8 harg8 hc0 hc1 x0 x1 xs0 xs1).1 S4096x256.size (by sl_kernel_rfl) y
/-- What the run leaves in this buffer: its pieces read back. -/
def out0_C_2 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) : Vec F S4096x256 .bf16 :=
  VO0_2.read (Elt F) (VO0_2.writes (Elt F) VO0_2.junk (kernelRun0_C c i arg1 harg1 arg2 harg2 arg3 harg3 arg4 harg4 arg5 harg5 arg6 harg6 arg7 harg7 arg8 harg8 hc0 hc1 x0 x1 xs0 xs1).1)

/-- The pieces the run leaves in this buffer tile it, so they cover it. -/
theorem cover0_C_3 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) (y : S1x4096.Idx) :
    ∃ pc ∈ (kernelRun0_C c i arg1 harg1 arg2 harg2 arg3 harg3 arg4 harg4 arg5 harg5 arg6 harg6 arg7 harg7 arg8 harg8 hc0 hc1 x0 x1 xs0 xs1).2.1, y ∈ pc.1.set :=
  View.cover_of_tiledL (kernelRun0_C c i arg1 harg1 arg2 harg2 arg3 harg3 arg4 harg4 arg5 harg5 arg6 harg6 arg7 harg7 arg8 harg8 hc0 hc1 x0 x1 xs0 xs1).2.1 S1x4096.size (by sl_kernel_rfl) y
/-- What the run leaves in this buffer: its pieces read back. -/
def out0_C_3 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) : Vec F S1x4096 .f32 :=
  VO0_3.read (Elt F) (VO0_3.writes (Elt F) VO0_3.junk (kernelRun0_C c i arg1 harg1 arg2 harg2 arg3 harg3 arg4 harg4 arg5 harg5 arg6 harg6 arg7 harg7 arg8 harg8 hc0 hc1 x0 x1 xs0 xs1).2.1)

/-- The pieces the run leaves in this buffer tile it, so they cover it. -/
theorem cover0_C_4 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) (y : S1x256.Idx) :
    ∃ pc ∈ (kernelRun0_C c i arg1 harg1 arg2 harg2 arg3 harg3 arg4 harg4 arg5 harg5 arg6 harg6 arg7 harg7 arg8 harg8 hc0 hc1 x0 x1 xs0 xs1).2.2.1, y ∈ pc.1.set :=
  View.cover_of_tiledL (kernelRun0_C c i arg1 harg1 arg2 harg2 arg3 harg3 arg4 harg4 arg5 harg5 arg6 harg6 arg7 harg7 arg8 harg8 hc0 hc1 x0 x1 xs0 xs1).2.2.1 S1x256.size (by sl_kernel_rfl) y
/-- What the run leaves in this buffer: its pieces read back. -/
def out0_C_4 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) : Vec F S1x256 .f32 :=
  VO0_4.read (Elt F) (VO0_4.writes (Elt F) VO0_4.junk (kernelRun0_C c i arg1 harg1 arg2 harg2 arg3 harg3 arg4 harg4 arg5 harg5 arg6 harg6 arg7 harg7 arg8 harg8 hc0 hc1 x0 x1 xs0 xs1).2.2.1)

/-- The pieces the run leaves in this buffer tile it, so they cover it. -/
theorem cover0_C_5 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) (y : S1x1.Idx) :
    ∃ pc ∈ (kernelRun0_C c i arg1 harg1 arg2 harg2 arg3 harg3 arg4 harg4 arg5 harg5 arg6 harg6 arg7 harg7 arg8 harg8 hc0 hc1 x0 x1 xs0 xs1).2.2.2.1, y ∈ pc.1.set :=
  View.cover_of_tiledL (kernelRun0_C c i arg1 harg1 arg2 harg2 arg3 harg3 arg4 harg4 arg5 harg5 arg6 harg6 arg7 harg7 arg8 harg8 hc0 hc1 x0 x1 xs0 xs1).2.2.2.1 S1x1.size (by sl_kernel_rfl) y
/-- What the run leaves in this buffer: its pieces read back. -/
def out0_C_5 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) : Vec F S1x1 .f32 :=
  VO0_5.read (Elt F) (VO0_5.writes (Elt F) VO0_5.junk (kernelRun0_C c i arg1 harg1 arg2 harg2 arg3 harg3 arg4 harg4 arg5 harg5 arg6 harg6 arg7 harg7 arg8 harg8 hc0 hc1 x0 x1 xs0 xs1).2.2.2.1)

/-- The pieces the run leaves in this buffer tile it, so they cover it. -/
theorem scover0_C_0 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) (y : S1x256.Idx) :
    ∃ pc ∈ (kernelRun0_C c i arg1 harg1 arg2 harg2 arg3 harg3 arg4 harg4 arg5 harg5 arg6 harg6 arg7 harg7 arg8 harg8 hc0 hc1 x0 x1 xs0 xs1).2.2.2.2.1, y ∈ pc.1.set :=
  View.cover_of_tiledL (kernelRun0_C c i arg1 harg1 arg2 harg2 arg3 harg3 arg4 harg4 arg5 harg5 arg6 harg6 arg7 harg7 arg8 harg8 hc0 hc1 x0 x1 xs0 xs1).2.2.2.2.1 S1x256.size (by sl_kernel_rfl) y
/-- What the run leaves in this buffer: its pieces read back. -/
def sout0_C_0 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) : Vec F S1x256 .f32 :=
  VS0_0.read (Elt F) (VS0_0.writes (Elt F) VS0_0.junk (kernelRun0_C c i arg1 harg1 arg2 harg2 arg3 harg3 arg4 harg4 arg5 harg5 arg6 harg6 arg7 harg7 arg8 harg8 hc0 hc1 x0 x1 xs0 xs1).2.2.2.2.1)

/-- The pieces the run leaves in this buffer tile it, so they cover it. -/
theorem scover0_C_1 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) (y : S1x1.Idx) :
    ∃ pc ∈ (kernelRun0_C c i arg1 harg1 arg2 harg2 arg3 harg3 arg4 harg4 arg5 harg5 arg6 harg6 arg7 harg7 arg8 harg8 hc0 hc1 x0 x1 xs0 xs1).2.2.2.2.2.1, y ∈ pc.1.set :=
  View.cover_of_tiledL (kernelRun0_C c i arg1 harg1 arg2 harg2 arg3 harg3 arg4 harg4 arg5 harg5 arg6 harg6 arg7 harg7 arg8 harg8 hc0 hc1 x0 x1 xs0 xs1).2.2.2.2.2.1 S1x1.size (by sl_kernel_rfl) y
/-- What the run leaves in this buffer: its pieces read back. -/
def sout0_C_1 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) : Vec F S1x1 .f32 :=
  VS0_1.read (Elt F) (VS0_1.writes (Elt F) VS0_1.junk (kernelRun0_C c i arg1 harg1 arg2 harg2 arg3 harg3 arg4 harg4 arg5 harg5 arg6 harg6 arg7 harg7 arg8 harg8 hc0 hc1 x0 x1 xs0 xs1).2.2.2.2.2.1)

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## Point by point -/

/-- What the four output buffers and the two scratch buffers hold after the body at position `n`. -/
def outsAt0 (c : Dev nD) : (n : ℕ) → n < cfg0.N → Vec F S4096x256 .bf16 × Vec F S1x4096 .f32 × Vec F S1x256 .f32 × Vec F S1x1 .f32 × Vec F S1x256 .f32 × Vec F S1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (fun h => by have h7 : (0 : ℕ) = 7 := (hcond0_1 ⟨0, hn⟩).mp h; omega) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (fun h => by have h7 : (0 : ℕ) = 7 := (hcond0_1 ⟨0, hn⟩).mp h; omega) (iblk0 V c 0 ⟨0, hn⟩) (iblk0 V c 1 ⟨0, hn⟩), VO0_4.read (Elt F) VO0_4.junk, VO0_5.read (Elt F) VO0_5.junk, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (fun h => by have h7 : (0 : ℕ) = 7 := (hcond0_1 ⟨0, hn⟩).mp h; omega) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (fun h => by have h7 : (0 : ℕ) = 7 := (hcond0_1 ⟨0, hn⟩).mp h; omega) (iblk0 V c 0 ⟨0, hn⟩) (iblk0 V c 1 ⟨0, hn⟩))
  | n + 1, hn =>
    if h7 : n + 1 = 7 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h7) (iblk0 V c 0 ⟨n + 1, hn⟩) (iblk0 V c 1 ⟨n + 1, hn⟩) (outsAt0 c n (Nat.lt_of_succ_lt hn)).2.2.2.2.1 (outsAt0 c n (Nat.lt_of_succ_lt hn)).2.2.2.2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h7) (iblk0 V c 0 ⟨n + 1, hn⟩) (iblk0 V c 1 ⟨n + 1, hn⟩) (outsAt0 c n (Nat.lt_of_succ_lt hn)).2.2.2.2.1 (outsAt0 c n (Nat.lt_of_succ_lt hn)).2.2.2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h7) (iblk0 V c 0 ⟨n + 1, hn⟩) (iblk0 V c 1 ⟨n + 1, hn⟩) (outsAt0 c n (Nat.lt_of_succ_lt hn)).2.2.2.2.1 (outsAt0 c n (Nat.lt_of_succ_lt hn)).2.2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h7) (iblk0 V c 0 ⟨n + 1, hn⟩) (iblk0 V c 1 ⟨n + 1, hn⟩) (outsAt0 c n (Nat.lt_of_succ_lt hn)).2.2.2.2.1 (outsAt0 c n (Nat.lt_of_succ_lt hn)).2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h7) (iblk0 V c 0 ⟨n + 1, hn⟩) (iblk0 V c 1 ⟨n + 1, hn⟩) (outsAt0 c n (Nat.lt_of_succ_lt hn)).2.2.2.2.1 (outsAt0 c n (Nat.lt_of_succ_lt hn)).2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h7) (iblk0 V c 0 ⟨n + 1, hn⟩) (iblk0 V c 1 ⟨n + 1, hn⟩) (outsAt0 c n (Nat.lt_of_succ_lt hn)).2.2.2.2.1 (outsAt0 c n (Nat.lt_of_succ_lt hn)).2.2.2.2.2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (fun h => h7 ((hcond0_1 ⟨n + 1, hn⟩).mp h)) (iblk0 V c 0 ⟨n + 1, hn⟩) (iblk0 V c 1 ⟨n + 1, hn⟩) (outsAt0 c n (Nat.lt_of_succ_lt hn)).2.2.2.2.1 (outsAt0 c n (Nat.lt_of_succ_lt hn)).2.2.2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (fun h => h7 ((hcond0_1 ⟨n + 1, hn⟩).mp h)) (iblk0 V c 0 ⟨n + 1, hn⟩) (iblk0 V c 1 ⟨n + 1, hn⟩) (outsAt0 c n (Nat.lt_of_succ_lt hn)).2.2.2.2.1 (outsAt0 c n (Nat.lt_of_succ_lt hn)).2.2.2.2.2, VO0_4.read (Elt F) VO0_4.junk, VO0_5.read (Elt F) VO0_5.junk, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (fun h => h7 ((hcond0_1 ⟨n + 1, hn⟩).mp h)) (iblk0 V c 0 ⟨n + 1, hn⟩) (iblk0 V c 1 ⟨n + 1, hn⟩) (outsAt0 c n (Nat.lt_of_succ_lt hn)).2.2.2.2.1 (outsAt0 c n (Nat.lt_of_succ_lt hn)).2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (fun h => h7 ((hcond0_1 ⟨n + 1, hn⟩).mp h)) (iblk0 V c 0 ⟨n + 1, hn⟩) (iblk0 V c 1 ⟨n + 1, hn⟩) (outsAt0 c n (Nat.lt_of_succ_lt hn)).2.2.2.2.1 (outsAt0 c n (Nat.lt_of_succ_lt hn)).2.2.2.2.2)

theorem outsAt0_A (c : Dev nD) (t : Fin cfg0.N) (h0 : t.val = 0) (h7 : ¬t.val = 7) :
    outsAt0 V c t.val t.isLt = (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h7 ((hcond0_1 t).mp h)) (iblk0 V c 0 t) (iblk0 V c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h7 ((hcond0_1 t).mp h)) (iblk0 V c 0 t) (iblk0 V c 1 t), VO0_4.read (Elt F) VO0_4.junk, VO0_5.read (Elt F) VO0_5.junk, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h7 ((hcond0_1 t).mp h)) (iblk0 V c 0 t) (iblk0 V c 1 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h7 ((hcond0_1 t).mp h)) (iblk0 V c 0 t) (iblk0 V c 1 t)) := by
  obtain ⟨n, hn⟩ := t
  cases n with
  | zero => exact rfl
  | succ n => exact absurd h0 (Nat.succ_ne_zero n)

theorem outsAt0_B (c : Dev nD) (t : Fin cfg0.N) (h0 : ¬t.val = 0) (h7 : ¬t.val = 7) :
    outsAt0 V c t.val t.isLt = (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h7 ((hcond0_1 t).mp h)) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h7 ((hcond0_1 t).mp h)) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, VO0_4.read (Elt F) VO0_4.junk, VO0_5.read (Elt F) VO0_5.junk, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h7 ((hcond0_1 t).mp h)) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h7 ((hcond0_1 t).mp h)) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) := by
  obtain ⟨n, hn⟩ := t
  cases n with
  | zero => exact absurd rfl h0
  | succ n => exact (dif_neg h7).trans rfl

theorem outsAt0_C (c : Dev nD) (t : Fin cfg0.N) (h0 : ¬t.val = 0) (h7 : t.val = 7) :
    outsAt0 V c t.val t.isLt = (out0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) := by
  obtain ⟨n, hn⟩ := t
  cases n with
  | zero => exact absurd rfl h0
  | succ n => exact (dif_pos h7).trans rfl

/-- The invariant before position `n`: at the start the scratch holds anything; afterwards what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.2.1) ∗ owns (c : Thread nD τ) scM0_1 fullShare ((outsAt0 V c n hn).2.2.2.2.2) ∗ R19 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2.2.2.1) ∗ owns (c : Thread nD τ) scM0_1 fullShare ((outsAt0 V c n hn).2.2.2.2.2) ∗ R19 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.2.1) ∗ owns (c : Thread nD τ) scM0_1 fullShare ((outsAt0 V c (n - 1) (by omega)).2.2.2.2.2) ∗ R19 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2.1
    | ⟨5, _⟩ => (outsAt0 V c t.val t.isLt).2.2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2.1 := by dsimp only [dat0]
theorem after0_5 (c : Dev nD) (t : Fin cfg0.N) : (dat0 V c).after 5 t = (outsAt0 V c t.val t.isLt).2.2.2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Region

end Cert.Kernel.Fr

end
-- ==== Proof.K.R0Body.lean ====
/-
  Region 0's body obligation: at every grid point the body, handed the invariant (the scratch at what the point
  before left), its input blocks and its output buffers, runs to the invariant of the next point and the buffers at
  the proof data's contents — by cases on the point (first, last, in between), each case one run of the body.
-/
import proofs.«170462_j60730837566028_1_alg».proof.Proof.K.R0Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 8 := lt_of_lt_of_eq t.isLt (show cfg0.N = 8 from N_0)
  by_cases h0 : t.val = 0
  · have h7 : ¬t.val = 7 := by omega
    rw [show (dat0 V c).leavesExact 0 t = owns (c : Thread nD τ) (ms0_0 t) fullShare ((dat0 V c).after 0 t) from by
          unfold Dat.leavesExact; rw [liveAt0_0 t], after0_0]
    rw [show (dat0 V c).leavesExact 1 t = owns (c : Thread nD τ) (ms0_1 t) fullShare ((dat0 V c).after 1 t) from by
          unfold Dat.leavesExact; rw [liveAt0_1 t], after0_1]
    rw [show (dat0 V c).leavesExact 2 t = owns (c : Thread nD τ) (ms0_2 t) fullShare ((dat0 V c).after 2 t) from by
          unfold Dat.leavesExact; rw [liveAt0_2 t], after0_2]
    rw [show (dat0 V c).leavesExact 3 t = owns (c : Thread nD τ) (ms0_3 t) fullShare ((dat0 V c).after 3 t) from by
          unfold Dat.leavesExact; rw [liveAt0_3 t], after0_3]
    rw [Dat.leavesExact_idle (dat0 V c) 4 t (idleAt0_4 t (fun h => h7 ((hcond0_1 t).mp h))) (noFlush0_4 t (fun h => h7 ((hcond0_1 t).mp h)))]
    rw [Dat.leavesExact_idle (dat0 V c) 5 t (idleAt0_5 t (fun h => h7 ((hcond0_1 t).mp h))) (noFlush0_5 t (fun h => h7 ((hcond0_1 t).mp h)))]
    rw [outsAt0_A V c t h0 h7]
    unfold out0_A_2 out0_A_3 sout0_A_0 sout0_A_1; (try dsimp only)
    rw [PhiS_castSucc V c t, PhiS_zero V c _ _ h0, PhiA0_eq]
    iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ ((hcond0_0 t).mpr h0) (fun h => h7 ((hcond0_1 t).mp h)) (iblk0 V c 0 t) (iblk0 V c 1 t)).2.2.2.2 _ _ Set.univ _)
    isplitl [H0]; · iexact H0
    isplitl [H1]; · iexact H1
    isplitl [H2]; · iexists _; iexact H2
    isplitl [H3]; · iexists _; iexact H3
    isplitl [H4]; · iexact H4
    isplitl [H5]; · iexact H5
    isplitl [HS0]; · iexact HS0
    isplitl [HS1]; · iexact HS1
    iintro ⟨H0, H1, ⟨%e2, H2⟩, ⟨%e3, H3⟩, H4, H5, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _)
        iexact HR
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _ _ _ _ _ _ _)
    isplitl [H4]; · iexists _; iexact H4
    iexists _; iexact H5
  · by_cases h7 : t.val = 7
    · rw [show (dat0 V c).leavesExact 0 t = owns (c : Thread nD τ) (ms0_0 t) fullShare ((dat0 V c).after 0 t) from by
            unfold Dat.leavesExact; rw [liveAt0_0 t], after0_0]
      rw [show (dat0 V c).leavesExact 1 t = owns (c : Thread nD τ) (ms0_1 t) fullShare ((dat0 V c).after 1 t) from by
            unfold Dat.leavesExact; rw [liveAt0_1 t], after0_1]
      rw [show (dat0 V c).leavesExact 2 t = owns (c : Thread nD τ) (ms0_2 t) fullShare ((dat0 V c).after 2 t) from by
            unfold Dat.leavesExact; rw [liveAt0_2 t], after0_2]
      rw [show (dat0 V c).leavesExact 3 t = owns (c : Thread nD τ) (ms0_3 t) fullShare ((dat0 V c).after 3 t) from by
            unfold Dat.leavesExact; rw [liveAt0_3 t], after0_3]
      rw [show (dat0 V c).leavesExact 4 t = owns (c : Thread nD τ) (ms0_4 t) fullShare ((dat0 V c).after 4 t) from by
            unfold Dat.leavesExact; rw [liveAt0_4 t ((hcond0_1 t).mpr h7)], after0_4]
      rw [show (dat0 V c).leavesExact 5 t = owns (c : Thread nD τ) (ms0_5 t) fullShare ((dat0 V c).after 5 t) from by
            unfold Dat.leavesExact; rw [liveAt0_5 t ((hcond0_1 t).mpr h7)], after0_5]
      rw [outsAt0_C V c t h0 h7]
      unfold out0_C_2 out0_C_3 out0_C_4 out0_C_5 sout0_C_0 sout0_C_1; (try dsimp only)
      rw [PhiS_castSucc V c t, PhiS_pos V c _ _ h0]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ (fun h => h0 ((hcond0_0 t).mp h)) ((hcond0_1 t).mpr h7) (iblk0 V c 0 t) (iblk0 V c 1 t) _ _).2.2.2.2.2.2 Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [HS0]; · iexact HS0
      isplitl [HS1]; · iexact HS1
      iintro ⟨H0, H1, ⟨%e2, H2⟩, ⟨%e3, H3⟩, ⟨%e4, H4⟩, ⟨%e5, H5⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _ _ _ _ _ _ _)
      isplitl [H3]
      · unfold owns; iexists _; isplitr
        swap; · iexact H3
        ipureintro; exact View.read_writes_of_cover _ _ _ _ _ (cover0_C_3 c _ _ _ _ _ _ _ _ _ _ _ _ _ _ _ _ _ _ _ _ _ _ _)
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _ _ _ _)
    · rw [show (dat0 V c).leavesExact 0 t = owns (c : Thread nD τ) (ms0_0 t) fullShare ((dat0 V c).after 0 t) from by
            unfold Dat.leavesExact; rw [liveAt0_0 t], after0_0]
      rw [show (dat0 V c).leavesExact 1 t = owns (c : Thread nD τ) (ms0_1 t) fullShare ((dat0 V c).after 1 t) from by
            unfold Dat.leavesExact; rw [liveAt0_1 t], after0_1]
      rw [show (dat0 V c).leavesExact 2 t = owns (c : Thread nD τ) (ms0_2 t) fullShare ((dat0 V c).after 2 t) from by
            unfold Dat.leavesExact; rw [liveAt0_2 t], after0_2]
      rw [show (dat0 V c).leavesExact 3 t = owns (c : Thread nD τ) (ms0_3 t) fullShare ((dat0 V c).after 3 t) from by
            unfold Dat.leavesExact; rw [liveAt0_3 t], after0_3]
      rw [Dat.leavesExact_idle (dat0 V c) 4 t (idleAt0_4 t (fun h => h7 ((hcond0_1 t).mp h))) (noFlush0_4 t (fun h => h7 ((hcond0_1 t).mp h)))]
      rw [Dat.leavesExact_idle (dat0 V c) 5 t (idleAt0_5 t (fun h => h7 ((hcond0_1 t).mp h))) (noFlush0_5 t (fun h => h7 ((hcond0_1 t).mp h)))]
      rw [outsAt0_B V c t h0 h7]
      unfold out0_B_2 out0_B_3 sout0_B_0 sout0_B_1; (try dsimp only)
      rw [PhiS_castSucc V c t, PhiS_pos V c _ _ h0]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) (fun h => h7 ((hcond0_1 t).mp h)) (iblk0 V c 0 t) (iblk0 V c 1 t) _ _).2.2.2.2 _ _ Set.univ _)
      isplitl [H0]; · iexact H0
      isplitl [H1]; · iexact H1
      isplitl [H2]; · iexists _; iexact H2
      isplitl [H3]; · iexists _; iexact H3
      isplitl [H4]; · iexact H4
      isplitl [H5]; · iexact H5
      isplitl [HS0]; · iexact HS0
      isplitl [HS1]; · iexact HS1
      iintro ⟨H0, H1, ⟨%e2, H2⟩, ⟨%e3, H3⟩, H4, H5, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _ _ _ _ _ _ _ _)
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _)
      isplitl [H4]; · iexists _; iexact H4
      iexists _; iexact H5

theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the scoped buffers back at some contents. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 8 := N_0; omega)

end Region

end Cert.Kernel.Fr

end
-- ==== Proof.K.Reg1.lean ====
import proofs.«170462_j60730837566028_1_alg».proof.Proof.Gen.Kernel.Launch
import proofs.«170462_j60730837566028_1_alg».proof.Proof.Gen.Kernel.Skeleton
import proofs.«170462_j60730837566028_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The body half of the frame of pipeline 1 (`cc1__kernel_l`): the body loads whole blocks, computes and stores whole
    blocks, so what it leaves in each output window's buffer is a closed function of the input windows' blocks. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1024x256 := Rect.unit (s := S1024x256) ![0, 0] S1024x256.size inb_S1024x256_S1024x256_0_0
abbrev r1_1 : Rect S256x256 := Rect.unit (s := S256x256) ![0, 0] S256x256.size inb_S256x256_S256x256_0_0
abbrev r1_2 : Rect S1x256 := Rect.unit (s := S1x256) ![0, 0] S1x256.size inb_S1x256_S1x256_0_0
abbrev r1_3 : Rect S1024x1 := Rect.unit (s := S1024x1) ![0, 0] S1024x1.size inb_S1024x1_S1024x1_0_0

/-! ## What the body leaves in each output window's buffer -/

/-- Window 3's staging buffer after the body, from the input windows' blocks: its one store as a piece. -/
def out1_3 (x0 : Vec F S1024x256 .f32) (x1 : Vec F S256x256 .f32) : Vec F S1024x256 .bf16 :=
  View.canon [⟨r1_0, k1_pay2 (View.ld x0 r1_0) (View.ld x1 r1_1)⟩]

/-- Its store is of the whole buffer, so it covers it. -/
theorem cover1_3 (p0 : Vec F S1024x256 .bf16) (y : S1024x256.Idx) :
    ∃ pc ∈ ([⟨r1_0, p0⟩] : List (View.Piece (Elt F) S1024x256 .bf16)), y ∈ pc.1.set :=
  View.cover_of_tiled [⟨r1_0, p0⟩] S1024x256.size (by rfl) y

/-- Window 4's staging buffer after the body, from the input windows' blocks: its one store as a piece. -/
def out1_4 (x0 : Vec F S1024x256 .f32) (x1 : Vec F S256x256 .f32) (x2 : Vec F S1x256 .f32) : Vec F S1024x1 .f32 :=
  View.canon [⟨r1_3, k1_pay3 (View.ld x0 r1_0) (View.ld x1 r1_1) (View.ld x2 r1_2)⟩]

/-- Its store is of the whole buffer, so it covers it. -/
theorem cover1_4 (p0 : Vec F S1024x1 .f32) (y : S1024x1.Idx) :
    ∃ pc ∈ ([⟨r1_3, p0⟩] : List (View.Piece (Elt F) S1024x1 .f32)), y ∈ pc.1.set :=
  View.cover_of_tiled [⟨r1_3, p0⟩] S1024x1.size (by rfl) y

/-! ## The body's triple -/

set_option maxHeartbeats 1000000 in
/-- The kernel body on whole staging memrefs, the inputs' at read contents `xW` and the outputs' at anything, runs to
    the continuation holding the inputs' as they were and each output's at `out1_W` of the inputs'. -/
theorem sound_kernel1 (c : Dev nD) (E : Set ℕ) (i : grid1.Coords) (arg0 : Memref sig .tc .vmem S1024x256 .f32) (harg0 : arg0.IsWhole) (arg1 : Memref sig .tc .vmem S256x256 .f32) (harg1 : arg1.IsWhole) (arg2 : Memref sig .tc .vmem S1x256 .f32) (harg2 : arg2.IsWhole) (arg3 : Memref sig .tc .vmem S1024x256 .bf16) (harg3 : arg3.IsWhole) (arg4 : Memref sig .tc .vmem S1024x1 .f32) (harg4 : arg4.IsWhole)
    (x0 : Vec F S1024x256 .f32) (x1 : Vec F S256x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1) ∗ owns (c : Thread nD τ) arg4 fullShare (out1_4 x0 x1 x2)) -∗ K ⟨⟩))
      ⊢ wp frame (wpE (defs₀ (F := F)) Variants.none c none) E (cc1__kernel_l i arg0 harg0 arg1 harg1 arg2 harg2 arg3 harg3 arg4 harg4) K := by
  simp only [cc1__kernel_l_eq_skeleton]; unfold cc1__kernel_l_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`: the arrays as the region finds them (`V`); after the body at
    point `t` each input's buffer at its block and each output's at `out1_W` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Fr

end
-- ==== Proof.K.Reg2.lean ====
import proofs.«170462_j60730837566028_1_alg».proof.Proof.Gen.Kernel.Launch
import proofs.«170462_j60730837566028_1_alg».proof.Proof.Gen.Kernel.Skeleton
import proofs.«170462_j60730837566028_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The body half of the frame of pipeline 2 (`cc2__kernel_final`): the body loads whole blocks, computes and stores whole
    blocks, so what it leaves in each output window's buffer is a closed function of the input windows' blocks. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1024x256 := Rect.unit (s := S1024x256) ![0, 0] S1024x256.size inb_S1024x256_S1024x256_0_0
abbrev r2_1 : Rect S2048x256 := Rect.unit (s := S2048x256) ![0, 0] S2048x256.size inb_S2048x256_S2048x256_0_0
abbrev r2_2 : Rect S1x2048 := Rect.unit (s := S1x2048) ![0, 0] S1x2048.size inb_S1x2048_S1x2048_0_0
abbrev r2_3 : Rect S1x1 := Rect.unit (s := S1x1) ![0, 0] S1x1.size inb_S1x1_S1x1_0_0
abbrev r2_4 : Rect S1024x1 := Rect.unit (s := S1024x1) ![0, 0] S1024x1.size inb_S1024x1_S1024x1_0_0
abbrev r2_5 : Rect S1024x2048 := Rect.unit (s := S1024x2048) ![0, 0] S1024x2048.size inb_S1024x2048_S1024x2048_0_0

/-! ## What the body leaves in each output window's buffer -/

/-- Window 5's staging buffer after the body, from the input windows' blocks: its one store as a piece. -/
def out2_5 (x0 : Vec F S1024x256 .bf16) (x1 : Vec F S2048x256 .bf16) (x2 : Vec F S1x2048 .f32) (x3 : Vec F S1x1 .f32) (x4 : Vec F S1024x1 .f32) : Vec F S1024x2048 .f32 :=
  View.canon [⟨r2_5, k2_pay1 (View.ld x0 r2_0) (View.ld x1 r2_1) (View.ld x2 r2_2) (View.ld x3 r2_3) (View.ld x4 r2_4)⟩]

/-- Its store is of the whole buffer, so it covers it. -/
theorem cover2_5 (p0 : Vec F S1024x2048 .f32) (y : S1024x2048.Idx) :
    ∃ pc ∈ ([⟨r2_5, p0⟩] : List (View.Piece (Elt F) S1024x2048 .f32)), y ∈ pc.1.set :=
  View.cover_of_tiled [⟨r2_5, p0⟩] S1024x2048.size (by rfl) y

/-! ## The body's triple -/

set_option maxHeartbeats 1000000 in
/-- The kernel body on whole staging memrefs, the inputs' at read contents `xW` and the outputs' at anything, runs to
    the continuation holding the inputs' as they were and each output's at `out2_W` of the inputs'. -/
theorem sound_kernel2 (c : Dev nD) (E : Set ℕ) (i : grid2.Coords) (arg0 : Memref sig .tc .vmem S1024x256 .bf16) (harg0 : arg0.IsWhole) (arg1 : Memref sig .tc .vmem S2048x256 .bf16) (harg1 : arg1.IsWhole) (arg2 : Memref sig .tc .vmem S1x2048 .f32) (harg2 : arg2.IsWhole) (arg3 : Memref sig .tc .vmem S1x1 .f32) (harg3 : arg3.IsWhole) (arg4 : Memref sig .tc .vmem S1024x1 .f32) (harg4 : arg4.IsWhole) (arg5 : Memref sig .tc .vmem S1024x2048 .f32) (harg5 : arg5.IsWhole)
    (x0 : Vec F S1024x256 .bf16) (x1 : Vec F S2048x256 .bf16) (x2 : Vec F S1x2048 .f32) (x3 : Vec F S1x1 .f32) (x4 : Vec F S1024x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__kernel_final i arg0 harg0 arg1 harg1 arg2 harg2 arg3 harg3 arg4 harg4 arg5 harg5) K := by
  simp only [cc2__kernel_final_eq_skeleton]; unfold cc2__kernel_final_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at
    point `t` each input's buffer at its block and each output's at `out2_W` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Fr

end
-- ==== Proof.K.Run.lean ====
/-
  The whole program as three regions in order.  Between regions every unscoped buffer of the core is held at a
  named valuation: the launch memory, then after each region its windows' arrays at what its write-backs leave and
  every other buffer untouched.  The run ends with every unscoped buffer at the last valuation.
-/
import proofs.«170462_j60730837566028_1_alg».proof.Proof.K.R0Body
import proofs.«170462_j60730837566028_1_alg».proof.Proof.K.Reg1
import proofs.«170462_j60730837566028_1_alg».proof.Proof.K.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: its arrays at what the pipeline leaves, every other buffer as the region found it. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1: its arrays at what the pipeline leaves, every other buffer as the region found it. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After region 2: its arrays at what the pipeline leaves, every other buffer as the region found it. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- Region 0 over the thread state: entered with every unscoped buffer at `W0`, left with them at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    refine (show (pdats m ρ 0 c).Φ (Fin.last _) ⊢ Pipeline.ΦA spec0 c from hout0 (V0 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W1`, left with them at `W2`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W2`, left with them at `W3`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ), .region (reg1 m ρ), .region (reg2 m ρ) ]
theorem main_run (c : Dev nD) : main (F := F) c = Pipeline.Seg.run (segs m ρ) := (main_chain c).trans (by chain_rfl)

set_option backward.isDefEq.respectTransparency.types false in
/-- Every weakly fair execution of the program terminates, faulting nowhere, with every unscoped buffer of every core at
    the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Fr

end
-- ==== Proof.K.Plumb.lean ====
/-
  Reading the valuations between regions at particular buffers: an argument array is never written (a region
  either stages it through an input window, which leaves it as found, or does not touch it), and each
  intermediate array is what the region that produced it left there.
-/
import proofs.«170462_j60730837566028_1_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments reach the end as launched -/

theorem W1_main_arg0 (c : Dev nD) : W1 m ρ c (Proc.devRef .tc main_arg0) = m ((c : Thread nD τ).loc main_arg0) :=
  (W1_of_ne m ρ c main_arg0 (by decide)).trans rfl
theorem W1_main_arg1 (c : Dev nD) : W1 m ρ c (Proc.devRef .tc main_arg1) = m ((c : Thread nD τ).loc main_arg1) :=
  (W1_arr m ρ c 0).trans (((dat0 (V0 m ρ) c).arrAt_in 0 rfl _).trans ((A_eq0 (V0 m ρ) c 0).trans rfl))
theorem W1_main_arg2 (c : Dev nD) : W1 m ρ c (Proc.devRef .tc main_arg2) = m ((c : Thread nD τ).loc main_arg2) :=
  (W1_arr m ρ c 1).trans (((dat0 (V0 m ρ) c).arrAt_in 1 rfl _).trans ((A_eq0 (V0 m ρ) c 1).trans rfl))

theorem W2_main_arg0 (c : Dev nD) : W2 m ρ c (Proc.devRef .tc main_arg0) = m ((c : Thread nD τ).loc main_arg0) :=
  (W2_arr m ρ c 0).trans (((dat1 (V1 m ρ) c).arrAt_in 0 rfl _).trans ((A_eq1 (V1 m ρ) c 0).trans (W1_main_arg0 m ρ c)))
theorem W2_main_arg1 (c : Dev nD) : W2 m ρ c (Proc.devRef .tc main_arg1) = m ((c : Thread nD τ).loc main_arg1) :=
  (W2_of_ne m ρ c main_arg1 (by decide)).trans (W1_main_arg1 m ρ c)
theorem W2_main_arg2 (c : Dev nD) : W2 m ρ c (Proc.devRef .tc main_arg2) = m ((c : Thread nD τ).loc main_arg2) :=
  (W2_arr m ρ c 1).trans (((dat1 (V1 m ρ) c).arrAt_in 1 rfl _).trans ((A_eq1 (V1 m ρ) c 1).trans (W1_main_arg2 m ρ c)))

theorem W3_main_arg0 (c : Dev nD) : W3 m ρ c (Proc.devRef .tc main_arg0) = m ((c : Thread nD τ).loc main_arg0) :=
  (W3_of_ne m ρ c main_arg0 (by decide)).trans (W2_main_arg0 m ρ c)
theorem W3_main_arg1 (c : Dev nD) : W3 m ρ c (Proc.devRef .tc main_arg1) = m ((c : Thread nD τ).loc main_arg1) :=
  (W3_of_ne m ρ c main_arg1 (by decide)).trans (W2_main_arg1 m ρ c)
theorem W3_main_arg2 (c : Dev nD) : W3 m ρ c (Proc.devRef .tc main_arg2) = m ((c : Thread nD τ).loc main_arg2) :=
  (W3_of_ne m ρ c main_arg2 (by decide)).trans (W2_main_arg2 m ρ c)

/-! ## The intermediate arrays -/

/-- The result array is what the last region's write-backs leave. -/
theorem W3_main_v2 (c : Dev nD) : W3 m ρ c (Proc.devRef .tc main_v2) = (dat2 (V2 m ρ) c).arrAt 5 cfg2.N := W3_arr m ρ c 5
/-- What the last region finds: the second region's two outputs, the first region's outputs. -/
theorem V2_main_v1_0 (c : Dev nD) : V2 m ρ c main_v1_0 = (dat1 (V1 m ρ) c).arrAt 3 cfg1.N := W2_arr m ρ c 3
theorem V2_main_v1_1 (c : Dev nD) : V2 m ρ c main_v1_1 = (dat1 (V1 m ρ) c).arrAt 4 cfg1.N := W2_arr m ρ c 4
theorem V2_main_v0_0 (c : Dev nD) : V2 m ρ c main_v0_0 = (dat0 (V0 m ρ) c).arrAt 2 cfg0.N :=
  (W2_of_ne m ρ c main_v0_0 (by decide)).trans (W1_arr m ρ c 2)
theorem V2_main_v0_1 (c : Dev nD) : V2 m ρ c main_v0_1 = (dat0 (V0 m ρ) c).arrAt 3 cfg0.N :=
  (W2_of_ne m ρ c main_v0_1 (by decide)).trans (W1_arr m ρ c 3)
theorem V2_main_v0_3 (c : Dev nD) : V2 m ρ c main_v0_3 = (dat0 (V0 m ρ) c).arrAt 5 cfg0.N :=
  (W2_of_ne m ρ c main_v0_3 (by decide)).trans (W1_arr m ρ c 5)
/-- What the second region finds. -/
theorem V1_main_arg0 (c : Dev nD) : V1 m ρ c main_arg0 = m ((c : Thread nD τ).loc main_arg0) := W1_main_arg0 m ρ c
theorem V1_main_arg2 (c : Dev nD) : V1 m ρ c main_arg2 = m ((c : Thread nD τ).loc main_arg2) := W1_main_arg2 m ρ c
theorem V1_main_v0_2 (c : Dev nD) : V1 m ρ c main_v0_2 = (dat0 (V0 m ρ) c).arrAt 4 cfg0.N := W1_arr m ρ c 4

/-! ## The frame -/

/-- Every weakly fair execution terminates, faulting nowhere, with the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- The same run with the result array named. -/
theorem run_result : θ_run defs (onTc (τ := τ) (main (F := F))) ⟨m, fun _ => 0, ρ⟩ (fun r => ∀ c : Dev nD,
      r.2.mem ((c.tc : Thread nD τ).loc main_v2) = (dat2 (V2 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v2 (by decide))).trans (W3_main_v2 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.Kernel.Fr

end
-- ==== Proof.KI.R0Runs.lean ====
/-
  Region 0 (the pass over the rows of the output table, eight tiles): what its body's two conditionals
  are at each grid point, where its last two output windows are idle, and the names of the buffers its body is
  handed — the staged windows' current memrefs and the two scratch buffers it carries from point to point.
-/
import proofs.«170462_j60730837566028_1_alg».proof.Proof.Gen.KernelIdeal.Launch
import proofs.«170462_j60730837566028_1_alg».proof.Proof.Gen.KernelIdeal.Skeleton
import proofs.«170462_j60730837566028_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional (the scratch is initialised): the grid coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second conditional (the scratch is copied to the last two outputs): the grid coordinate is 7. -/
abbrev cond0_1 (i : grid0.Coords) : Prop := k0_cond2 i = 1#1
/-- It holds at the last point only. -/
theorem hcond0_1 : ∀ t : Fin cfg0.N, cond0_1 (grid0.coords t) ↔ t.val = 7 :=
  (by decide +kernel : ∀ t : Fin grid0.N, cond0_1 (grid0.coords t) ↔ t.val = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point the body stores nothing into windows 4 and 5, and they are not written back. -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The buffers the body is handed -/

abbrev ms0_0 (t : Fin cfg0.N) : Memref sig .tc .vmem S4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
/-- The two scratch buffers: the running vector and the running maximum. -/
abbrev scM0_0 : Memref sig .tc .vmem S1x256 .f32 := Memref.whole cc0_scratch0
abbrev scM0_1 : Memref sig .tc .vmem S1x1 .f32 := Memref.whole cc0_scratch1
abbrev VS0_0 : View sig .tc .vmem S1x256 .f32 := scM0_0.view
abbrev VS0_1 : View sig .tc .vmem S1x1 .f32 := scM0_1.view
/-- One staging buffer of each output window, through which contents are stated. -/
abbrev VO0_2 : View sig .tc .vmem S4096x256 .bf16 := (Memref.whole cc0_stg2_0 : Memref sig .tc .vmem S4096x256 .bf16).view
abbrev VO0_3 : View sig .tc .vmem S1x4096 .f32 := (Memref.whole cc0_stg3_0 : Memref sig .tc .vmem S1x4096 .f32).view
abbrev VO0_4 : View sig .tc .vmem S1x256 .f32 := (Memref.whole cc0_stg4_0 : Memref sig .tc .vmem S1x256 .f32).view
abbrev VO0_5 : View sig .tc .vmem S1x1 .f32 := (Memref.whole cc0_stg5_0 : Memref sig .tc .vmem S1x1 .f32).view

end Cert.KernelIdeal.Fr

end
-- ==== Proof.KI.R0RunA.lean ====
/-
  The body of region 0 run once at the first grid point (the scratch is initialised, then updated; the last two outputs are left as found): what its stores leave in every buffer, as lists of written pieces
  (latest first) that the run itself finds, with the proof that from whole buffers the body runs to a continuation
  holding exactly those.
-/
import proofs.«170462_j60730837566028_1_alg».proof.Proof.KI.R0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : cond0_0 i) (hc1 : ¬cond0_1 i)
    (x0 : Vec F S4096x256 .f32) (x1 : Vec F S256x256 .f32) :
    Σ' (L2 : List (View.Piece (Elt F) S4096x256 .bf16)) (L3 : List (View.Piece (Elt F) S1x4096 .f32)) (LS0 : List (View.Piece (Elt F) S1x256 .f32)), { LS1 : List (View.Piece (Elt F) S1x1 .f32) //
      ∀ (xi4 : Vec F S1x256 .f32) (xi5 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel_r i arg1 harg1 arg2 harg2 arg3 harg3 arg4 harg4 arg5 harg5 arg6 harg6 arg7 harg7 arg8 harg8) K } := by
  refine ⟨?_, ?_, ?_, ?_, fun xi4 xi5 E K => ?run⟩
  case run =>
    simp only [cc0__kernel_r_eq_skeleton]; unfold cc0__kernel_r_skel
    simp only [k0_part1_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Fr

end
-- ==== Proof.KI.R0RunB.lean ====
/-
  The body of region 0 run once at a grid point that is neither first nor last (the scratch, found at the contents the point before left, is updated; the last two outputs are left as found): what its stores leave in every buffer, as lists of written pieces
  (latest first) that the run itself finds, with the proof that from whole buffers the body runs to a continuation
  holding exactly those.
-/
import proofs.«170462_j60730837566028_1_alg».proof.Proof.KI.R0RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : ¬cond0_1 i)
    (x0 : Vec F S4096x256 .f32) (x1 : Vec F S256x256 .f32) (xs0 : Vec F S1x256 .f32) (xs1 : Vec F S1x1 .f32) :
    Σ' (L2 : List (View.Piece (Elt F) S4096x256 .bf16)) (L3 : List (View.Piece (Elt F) S1x4096 .f32)) (LS0 : List (View.Piece (Elt F) S1x256 .f32)), { LS1 : List (View.Piece (Elt F) S1x1 .f32) //
      ∀ (xi4 : Vec F S1x256 .f32) (xi5 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel_r i arg1 harg1 arg2 harg2 arg3 harg3 arg4 harg4 arg5 harg5 arg6 harg6 arg7 harg7 arg8 harg8) K } := by
  refine ⟨?_, ?_, ?_, ?_, fun xi4 xi5 E K => ?run⟩
  case run =>
    simp only [cc0__kernel_r_eq_skeleton]; unfold cc0__kernel_r_skel
    simp only [k0_part1_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Fr

end
-- ==== Proof.KI.R0RunC.lean ====
/-
  The body of region 0 run once at the last grid point (the scratch is updated and copied into the last two outputs): what its stores leave in every buffer, as lists of written pieces
  (latest first) that the run itself finds, with the proof that from whole buffers the body runs to a continuation
  holding exactly those.
-/
import proofs.«170462_j60730837566028_1_alg».proof.Proof.KI.R0RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i)
    (x0 : Vec F S4096x256 .f32) (x1 : Vec F S256x256 .f32) (xs0 : Vec F S1x256 .f32) (xs1 : Vec F S1x1 .f32) :
    Σ' (L2 : List (View.Piece (Elt F) S4096x256 .bf16)) (L3 : List (View.Piece (Elt F) S1x4096 .f32)) (L4 : List (View.Piece (Elt F) S1x256 .f32)) (L5 : List (View.Piece (Elt F) S1x1 .f32)) (LS0 : List (View.Piece (Elt F) S1x256 .f32)), { LS1 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel_r i arg1 harg1 arg2 harg2 arg3 harg3 arg4 harg4 arg5 harg5 arg6 harg6 arg7 harg7 arg8 harg8) K } := by
  refine ⟨?_, ?_, ?_, ?_, ?_, ?_, fun E K => ?run⟩
  case run =>
    simp only [cc0__kernel_r_eq_skeleton]; unfold cc0__kernel_r_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    isplitl [HS0]; · iexists _; iexact HS0
    iexists _; iexact HS1

end Cert.KernelIdeal.Fr

end
-- ==== Proof.KI.R0Frame.lean ====
/-
  Region 0's proof data.  After the body at grid point n its six buffers of interest hold: the first two output
  windows what that point's tile gives; the last two outputs what the last point copies there (a placeholder
  before it, which nothing reads: those windows are idle and not written back); the two scratch buffers the
  running vector and running maximum after n + 1 tiles.  The invariant between points keeps the scratch at
  exactly those contents, so that the next point finds them.
-/
import proofs.«170462_j60730837566028_1_alg».proof.Proof.KI.R0RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scoped buffers that are neither staging buffers of region 0 nor its scratch -/

def R19 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ R19 c) ∗ (∃ r, prngReg c r)) := by
  unfold Pipeline.ΦA R19; rw [scopedRest0_eq]; simp only [scM0_0, scM0_1, owns_whole]; try rfl

/-! ## What each case leaves -/

/-- The pieces the run leaves in this buffer tile it, so they cover it. -/
theorem cover0_A_2 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : cond0_0 i) (hc1 : ¬cond0_1 i) (x0 : Vec F S4096x256 .f32) (x1 : Vec F S256x256 .f32) (y : S4096x256.Idx) :
    ∃ pc ∈ (kernelRun0_A c i arg1 harg1 arg2 harg2 arg3 harg3 arg4 harg4 arg5 harg5 arg6 harg6 arg7 harg7 arg8 harg8 hc0 hc1 x0 x1).1, y ∈ pc.1.set :=
  View.cover_of_tiledL (kernelRun0_A c i arg1 harg1 arg2 harg2 arg3 harg3 arg4 harg4 arg5 harg5 arg6 harg6 arg7 harg7 arg8 harg8 hc0 hc1 x0 x1).1 S4096x256.size (by sl_kernel_rfl) y
/-- What the run leaves in this buffer: its pieces read back. -/
def out0_A_2 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : cond0_0 i) (hc1 : ¬cond0_1 i) (x0 : Vec F S4096x256 .f32) (x1 : Vec F S256x256 .f32) : Vec F S4096x256 .bf16 :=
  VO0_2.read (Elt F) (VO0_2.writes (Elt F) VO0_2.junk (kernelRun0_A c i arg1 harg1 arg2 harg2 arg3 harg3 arg4 harg4 arg5 harg5 arg6 harg6 arg7 harg7 arg8 harg8 hc0 hc1 x0 x1).1)

/-- The pieces the run leaves in this buffer tile it, so they cover it. -/
theorem cover0_A_3 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : cond0_0 i) (hc1 : ¬cond0_1 i) (x0 : Vec F S4096x256 .f32) (x1 : Vec F S256x256 .f32) (y : S1x4096.Idx) :
    ∃ pc ∈ (kernelRun0_A c i arg1 harg1 arg2 harg2 arg3 harg3 arg4 harg4 arg5 harg5 arg6 harg6 arg7 harg7 arg8 harg8 hc0 hc1 x0 x1).2.1, y ∈ pc.1.set :=
  View.cover_of_tiledL (kernelRun0_A c i arg1 harg1 arg2 harg2 arg3 harg3 arg4 harg4 arg5 harg5 arg6 harg6 arg7 harg7 arg8 harg8 hc0 hc1 x0 x1).2.1 S1x4096.size (by sl_kernel_rfl) y
/-- What the run leaves in this buffer: its pieces read back. -/
def out0_A_3 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : cond0_0 i) (hc1 : ¬cond0_1 i) (x0 : Vec F S4096x256 .f32) (x1 : Vec F S256x256 .f32) : Vec F S1x4096 .f32 :=
  VO0_3.read (Elt F) (VO0_3.writes (Elt F) VO0_3.junk (kernelRun0_A c i arg1 harg1 arg2 harg2 arg3 harg3 arg4 harg4 arg5 harg5 arg6 harg6 arg7 harg7 arg8 harg8 hc0 hc1 x0 x1).2.1)

/-- The pieces the run leaves in this buffer tile it, so they cover it. -/
theorem scover0_A_0 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : cond0_0 i) (hc1 : ¬cond0_1 i) (x0 : Vec F S4096x256 .f32) (x1 : Vec F S256x256 .f32) (y : S1x256.Idx) :
    ∃ pc ∈ (kernelRun0_A c i arg1 harg1 arg2 harg2 arg3 harg3 arg4 harg4 arg5 harg5 arg6 harg6 arg7 harg7 arg8 harg8 hc0 hc1 x0 x1).2.2.1, y ∈ pc.1.set :=
  View.cover_of_tiledL (kernelRun0_A c i arg1 harg1 arg2 harg2 arg3 harg3 arg4 harg4 arg5 harg5 arg6 harg6 arg7 harg7 arg8 harg8 hc0 hc1 x0 x1).2.2.1 S1x256.size (by sl_kernel_rfl) y
/-- What the run leaves in this buffer: its pieces read back. -/
def sout0_A_0 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : cond0_0 i) (hc1 : ¬cond0_1 i) (x0 : Vec F S4096x256 .f32) (x1 : Vec F S256x256 .f32) : Vec F S1x256 .f32 :=
  VS0_0.read (Elt F) (VS0_0.writes (Elt F) VS0_0.junk (kernelRun0_A c i arg1 harg1 arg2 harg2 arg3 harg3 arg4 harg4 arg5 harg5 arg6 harg6 arg7 harg7 arg8 harg8 hc0 hc1 x0 x1).2.2.1)

/-- The pieces the run leaves in this buffer tile it, so they cover it. -/
theorem scover0_A_1 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : cond0_0 i) (hc1 : ¬cond0_1 i) (x0 : Vec F S4096x256 .f32) (x1 : Vec F S256x256 .f32) (y : S1x1.Idx) :
    ∃ pc ∈ (kernelRun0_A c i arg1 harg1 arg2 harg2 arg3 harg3 arg4 harg4 arg5 harg5 arg6 harg6 arg7 harg7 arg8 harg8 hc0 hc1 x0 x1).2.2.2.1, y ∈ pc.1.set :=
  View.cover_of_tiledL (kernelRun0_A c i arg1 harg1 arg2 harg2 arg3 harg3 arg4 harg4 arg5 harg5 arg6 harg6 arg7 harg7 arg8 harg8 hc0 hc1 x0 x1).2.2.2.1 S1x1.size (by sl_kernel_rfl) y
/-- What the run leaves in this buffer: its pieces read back. -/
def sout0_A_1 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : cond0_0 i) (hc1 : ¬cond0_1 i) (x0 : Vec F S4096x256 .f32) (x1 : Vec F S256x256 .f32) : Vec F S1x1 .f32 :=
  VS0_1.read (Elt F) (VS0_1.writes (Elt F) VS0_1.junk (kernelRun0_A c i arg1 harg1 arg2 harg2 arg3 harg3 arg4 harg4 arg5 harg5 arg6 harg6 arg7 harg7 arg8 harg8 hc0 hc1 x0 x1).2.2.2.1)

/-- The pieces the run leaves in this buffer tile it, so they cover it. -/
theorem cover0_B_2 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : ¬cond0_1 i) (x0 : Vec F S4096x256 .f32) (x1 : Vec F S256x256 .f32) (xs0 : Vec F S1x256 .f32) (xs1 : Vec F S1x1 .f32) (y : S4096x256.Idx) :
    ∃ pc ∈ (kernelRun0_B c i arg1 harg1 arg2 harg2 arg3 harg3 arg4 harg4 arg5 harg5 arg6 harg6 arg7 harg7 arg8 harg8 hc0 hc1 x0 x1 xs0 xs1).1, y ∈ pc.1.set :=
  View.cover_of_tiledL (kernelRun0_B c i arg1 harg1 arg2 harg2 arg3 harg3 arg4 harg4 arg5 harg5 arg6 harg6 arg7 harg7 arg8 harg8 hc0 hc1 x0 x1 xs0 xs1).1 S4096x256.size (by sl_kernel_rfl) y
/-- What the run leaves in this buffer: its pieces read back. -/
def out0_B_2 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : ¬cond0_1 i) (x0 : Vec F S4096x256 .f32) (x1 : Vec F S256x256 .f32) (xs0 : Vec F S1x256 .f32) (xs1 : Vec F S1x1 .f32) : Vec F S4096x256 .bf16 :=
  VO0_2.read (Elt F) (VO0_2.writes (Elt F) VO0_2.junk (kernelRun0_B c i arg1 harg1 arg2 harg2 arg3 harg3 arg4 harg4 arg5 harg5 arg6 harg6 arg7 harg7 arg8 harg8 hc0 hc1 x0 x1 xs0 xs1).1)

/-- The pieces the run leaves in this buffer tile it, so they cover it. -/
theorem cover0_B_3 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : ¬cond0_1 i) (x0 : Vec F S4096x256 .f32) (x1 : Vec F S256x256 .f32) (xs0 : Vec F S1x256 .f32) (xs1 : Vec F S1x1 .f32) (y : S1x4096.Idx) :
    ∃ pc ∈ (kernelRun0_B c i arg1 harg1 arg2 harg2 arg3 harg3 arg4 harg4 arg5 harg5 arg6 harg6 arg7 harg7 arg8 harg8 hc0 hc1 x0 x1 xs0 xs1).2.1, y ∈ pc.1.set :=
  View.cover_of_tiledL (kernelRun0_B c i arg1 harg1 arg2 harg2 arg3 harg3 arg4 harg4 arg5 harg5 arg6 harg6 arg7 harg7 arg8 harg8 hc0 hc1 x0 x1 xs0 xs1).2.1 S1x4096.size (by sl_kernel_rfl) y
/-- What the run leaves in this buffer: its pieces read back. -/
def out0_B_3 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : ¬cond0_1 i) (x0 : Vec F S4096x256 .f32) (x1 : Vec F S256x256 .f32) (xs0 : Vec F S1x256 .f32) (xs1 : Vec F S1x1 .f32) : Vec F S1x4096 .f32 :=
  VO0_3.read (Elt F) (VO0_3.writes (Elt F) VO0_3.junk (kernelRun0_B c i arg1 harg1 arg2 harg2 arg3 harg3 arg4 harg4 arg5 harg5 arg6 harg6 arg7 harg7 arg8 harg8 hc0 hc1 x0 x1 xs0 xs1).2.1)

/-- The pieces the run leaves in this buffer tile it, so they cover it. -/
theorem scover0_B_0 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : ¬cond0_1 i) (x0 : Vec F S4096x256 .f32) (x1 : Vec F S256x256 .f32) (xs0 : Vec F S1x256 .f32) (xs1 : Vec F S1x1 .f32) (y : S1x256.Idx) :
    ∃ pc ∈ (kernelRun0_B c i arg1 harg1 arg2 harg2 arg3 harg3 arg4 harg4 arg5 harg5 arg6 harg6 arg7 harg7 arg8 harg8 hc0 hc1 x0 x1 xs0 xs1).2.2.1, y ∈ pc.1.set :=
  View.cover_of_tiledL (kernelRun0_B c i arg1 harg1 arg2 harg2 arg3 harg3 arg4 harg4 arg5 harg5 arg6 harg6 arg7 harg7 arg8 harg8 hc0 hc1 x0 x1 xs0 xs1).2.2.1 S1x256.size (by sl_kernel_rfl) y
/-- What the run leaves in this buffer: its pieces read back. -/
def sout0_B_0 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : ¬cond0_1 i) (x0 : Vec F S4096x256 .f32) (x1 : Vec F S256x256 .f32) (xs0 : Vec F S1x256 .f32) (xs1 : Vec F S1x1 .f32) : Vec F S1x256 .f32 :=
  VS0_0.read (Elt F) (VS0_0.writes (Elt F) VS0_0.junk (kernelRun0_B c i arg1 harg1 arg2 harg2 arg3 harg3 arg4 harg4 arg5 harg5 arg6 harg6 arg7 harg7 arg8 harg8 hc0 hc1 x0 x1 xs0 xs1).2.2.1)

/-- The pieces the run leaves in this buffer tile it, so they cover it. -/
theorem scover0_B_1 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : ¬cond0_1 i) (x0 : Vec F S4096x256 .f32) (x1 : Vec F S256x256 .f32) (xs0 : Vec F S1x256 .f32) (xs1 : Vec F S1x1 .f32) (y : S1x1.Idx) :
    ∃ pc ∈ (kernelRun0_B c i arg1 harg1 arg2 harg2 arg3 harg3 arg4 harg4 arg5 harg5 arg6 harg6 arg7 harg7 arg8 harg8 hc0 hc1 x0 x1 xs0 xs1).2.2.2.1, y ∈ pc.1.set :=
  View.cover_of_tiledL (kernelRun0_B c i arg1 harg1 arg2 harg2 arg3 harg3 arg4 harg4 arg5 harg5 arg6 harg6 arg7 harg7 arg8 harg8 hc0 hc1 x0 x1 xs0 xs1).2.2.2.1 S1x1.size (by sl_kernel_rfl) y
/-- What the run leaves in this buffer: its pieces read back. -/
def sout0_B_1 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : ¬cond0_1 i) (x0 : Vec F S4096x256 .f32) (x1 : Vec F S256x256 .f32) (xs0 : Vec F S1x256 .f32) (xs1 : Vec F S1x1 .f32) : Vec F S1x1 .f32 :=
  VS0_1.read (Elt F) (VS0_1.writes (Elt F) VS0_1.junk (kernelRun0_B c i arg1 harg1 arg2 harg2 arg3 harg3 arg4 harg4 arg5 harg5 arg6 harg6 arg7 harg7 arg8 harg8 hc0 hc1 x0 x1 xs0 xs1).2.2.2.1)

/-- The pieces the run leaves in this buffer tile it, so they cover it. -/
theorem cover0_C_2 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) (y : S4096x256.Idx) :
    ∃ pc ∈ (kernelRun0_C c i arg1 harg1 arg2 harg2 arg3 harg3 arg4 harg4 arg5 harg5 arg6 harg6 arg7 harg7 arg8 harg8 hc0 hc1 x0 x1 xs0 xs1).1, y ∈ pc.1.set :=
  View.cover_of_tiledL (kernelRun0_C c i arg1 harg1 arg2 harg2 arg3 harg3 arg4 harg4 arg5 harg5 arg6 harg6 arg7 harg7 arg8 harg8 hc0 hc1 x0 x1 xs0 xs1).1 S4096x256.size (by sl_kernel_rfl) y
/-- What the run leaves in this buffer: its pieces read back. -/
def out0_C_2 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) : Vec F S4096x256 .bf16 :=
  VO0_2.read (Elt F) (VO0_2.writes (Elt F) VO0_2.junk (kernelRun0_C c i arg1 harg1 arg2 harg2 arg3 harg3 arg4 harg4 arg5 harg5 arg6 harg6 arg7 harg7 arg8 harg8 hc0 hc1 x0 x1 xs0 xs1).1)

/-- The pieces the run leaves in this buffer tile it, so they cover it. -/
theorem cover0_C_3 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) (y : S1x4096.Idx) :
    ∃ pc ∈ (kernelRun0_C c i arg1 harg1 arg2 harg2 arg3 harg3 arg4 harg4 arg5 harg5 arg6 harg6 arg7 harg7 arg8 harg8 hc0 hc1 x0 x1 xs0 xs1).2.1, y ∈ pc.1.set :=
  View.cover_of_tiledL (kernelRun0_C c i arg1 harg1 arg2 harg2 arg3 harg3 arg4 harg4 arg5 harg5 arg6 harg6 arg7 harg7 arg8 harg8 hc0 hc1 x0 x1 xs0 xs1).2.1 S1x4096.size (by sl_kernel_rfl) y
/-- What the run leaves in this buffer: its pieces read back. -/
def out0_C_3 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) : Vec F S1x4096 .f32 :=
  VO0_3.read (Elt F) (VO0_3.writes (Elt F) VO0_3.junk (kernelRun0_C c i arg1 harg1 arg2 harg2 arg3 harg3 arg4 harg4 arg5 harg5 arg6 harg6 arg7 harg7 arg8 harg8 hc0 hc1 x0 x1 xs0 xs1).2.1)

/-- The pieces the run leaves in this buffer tile it, so they cover it. -/
theorem cover0_C_4 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) (y : S1x256.Idx) :
    ∃ pc ∈ (kernelRun0_C c i arg1 harg1 arg2 harg2 arg3 harg3 arg4 harg4 arg5 harg5 arg6 harg6 arg7 harg7 arg8 harg8 hc0 hc1 x0 x1 xs0 xs1).2.2.1, y ∈ pc.1.set :=
  View.cover_of_tiledL (kernelRun0_C c i arg1 harg1 arg2 harg2 arg3 harg3 arg4 harg4 arg5 harg5 arg6 harg6 arg7 harg7 arg8 harg8 hc0 hc1 x0 x1 xs0 xs1).2.2.1 S1x256.size (by sl_kernel_rfl) y
/-- What the run leaves in this buffer: its pieces read back. -/
def out0_C_4 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) : Vec F S1x256 .f32 :=
  VO0_4.read (Elt F) (VO0_4.writes (Elt F) VO0_4.junk (kernelRun0_C c i arg1 harg1 arg2 harg2 arg3 harg3 arg4 harg4 arg5 harg5 arg6 harg6 arg7 harg7 arg8 harg8 hc0 hc1 x0 x1 xs0 xs1).2.2.1)

/-- The pieces the run leaves in this buffer tile it, so they cover it. -/
theorem cover0_C_5 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) (y : S1x1.Idx) :
    ∃ pc ∈ (kernelRun0_C c i arg1 harg1 arg2 harg2 arg3 harg3 arg4 harg4 arg5 harg5 arg6 harg6 arg7 harg7 arg8 harg8 hc0 hc1 x0 x1 xs0 xs1).2.2.2.1, y ∈ pc.1.set :=
  View.cover_of_tiledL (kernelRun0_C c i arg1 harg1 arg2 harg2 arg3 harg3 arg4 harg4 arg5 harg5 arg6 harg6 arg7 harg7 arg8 harg8 hc0 hc1 x0 x1 xs0 xs1).2.2.2.1 S1x1.size (by sl_kernel_rfl) y
/-- What the run leaves in this buffer: its pieces read back. -/
def out0_C_5 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) : Vec F S1x1 .f32 :=
  VO0_5.read (Elt F) (VO0_5.writes (Elt F) VO0_5.junk (kernelRun0_C c i arg1 harg1 arg2 harg2 arg3 harg3 arg4 harg4 arg5 harg5 arg6 harg6 arg7 harg7 arg8 harg8 hc0 hc1 x0 x1 xs0 xs1).2.2.2.1)

/-- The pieces the run leaves in this buffer tile it, so they cover it. -/
theorem scover0_C_0 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) (y : S1x256.Idx) :
    ∃ pc ∈ (kernelRun0_C c i arg1 harg1 arg2 harg2 arg3 harg3 arg4 harg4 arg5 harg5 arg6 harg6 arg7 harg7 arg8 harg8 hc0 hc1 x0 x1 xs0 xs1).2.2.2.2.1, y ∈ pc.1.set :=
  View.cover_of_tiledL (kernelRun0_C c i arg1 harg1 arg2 harg2 arg3 harg3 arg4 harg4 arg5 harg5 arg6 harg6 arg7 harg7 arg8 harg8 hc0 hc1 x0 x1 xs0 xs1).2.2.2.2.1 S1x256.size (by sl_kernel_rfl) y
/-- What the run leaves in this buffer: its pieces read back. -/
def sout0_C_0 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) : Vec F S1x256 .f32 :=
  VS0_0.read (Elt F) (VS0_0.writes (Elt F) VS0_0.junk (kernelRun0_C c i arg1 harg1 arg2 harg2 arg3 harg3 arg4 harg4 arg5 harg5 arg6 harg6 arg7 harg7 arg8 harg8 hc0 hc1 x0 x1 xs0 xs1).2.2.2.2.1)

/-- The pieces the run leaves in this buffer tile it, so they cover it. -/
theorem scover0_C_1 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) (y : S1x1.Idx) :
    ∃ pc ∈ (kernelRun0_C c i arg1 harg1 arg2 harg2 arg3 harg3 arg4 harg4 arg5 harg5 arg6 harg6 arg7 harg7 arg8 harg8 hc0 hc1 x0 x1 xs0 xs1).2.2.2.2.2.1, y ∈ pc.1.set :=
  View.cover_of_tiledL (kernelRun0_C c i arg1 harg1 arg2 harg2 arg3 harg3 arg4 harg4 arg5 harg5 arg6 harg6 arg7 harg7 arg8 harg8 hc0 hc1 x0 x1 xs0 xs1).2.2.2.2.2.1 S1x1.size (by sl_kernel_rfl) y
/-- What the run leaves in this buffer: its pieces read back. -/
def sout0_C_1 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) : Vec F S1x1 .f32 :=
  VS0_1.read (Elt F) (VS0_1.writes (Elt F) VS0_1.junk (kernelRun0_C c i arg1 harg1 arg2 harg2 arg3 harg3 arg4 harg4 arg5 harg5 arg6 harg6 arg7 harg7 arg8 harg8 hc0 hc1 x0 x1 xs0 xs1).2.2.2.2.2.1)

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## Point by point -/

/-- What the four output buffers and the two scratch buffers hold after the body at position `n`. -/
def outsAt0 (c : Dev nD) : (n : ℕ) → n < cfg0.N → Vec F S4096x256 .bf16 × Vec F S1x4096 .f32 × Vec F S1x256 .f32 × Vec F S1x1 .f32 × Vec F S1x256 .f32 × Vec F S1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (fun h => by have h7 : (0 : ℕ) = 7 := (hcond0_1 ⟨0, hn⟩).mp h; omega) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (fun h => by have h7 : (0 : ℕ) = 7 := (hcond0_1 ⟨0, hn⟩).mp h; omega) (iblk0 V c 0 ⟨0, hn⟩) (iblk0 V c 1 ⟨0, hn⟩), VO0_4.read (Elt F) VO0_4.junk, VO0_5.read (Elt F) VO0_5.junk, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (fun h => by have h7 : (0 : ℕ) = 7 := (hcond0_1 ⟨0, hn⟩).mp h; omega) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (fun h => by have h7 : (0 : ℕ) = 7 := (hcond0_1 ⟨0, hn⟩).mp h; omega) (iblk0 V c 0 ⟨0, hn⟩) (iblk0 V c 1 ⟨0, hn⟩))
  | n + 1, hn =>
    if h7 : n + 1 = 7 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h7) (iblk0 V c 0 ⟨n + 1, hn⟩) (iblk0 V c 1 ⟨n + 1, hn⟩) (outsAt0 c n (Nat.lt_of_succ_lt hn)).2.2.2.2.1 (outsAt0 c n (Nat.lt_of_succ_lt hn)).2.2.2.2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h7) (iblk0 V c 0 ⟨n + 1, hn⟩) (iblk0 V c 1 ⟨n + 1, hn⟩) (outsAt0 c n (Nat.lt_of_succ_lt hn)).2.2.2.2.1 (outsAt0 c n (Nat.lt_of_succ_lt hn)).2.2.2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h7) (iblk0 V c 0 ⟨n + 1, hn⟩) (iblk0 V c 1 ⟨n + 1, hn⟩) (outsAt0 c n (Nat.lt_of_succ_lt hn)).2.2.2.2.1 (outsAt0 c n (Nat.lt_of_succ_lt hn)).2.2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h7) (iblk0 V c 0 ⟨n + 1, hn⟩) (iblk0 V c 1 ⟨n + 1, hn⟩) (outsAt0 c n (Nat.lt_of_succ_lt hn)).2.2.2.2.1 (outsAt0 c n (Nat.lt_of_succ_lt hn)).2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h7) (iblk0 V c 0 ⟨n + 1, hn⟩) (iblk0 V c 1 ⟨n + 1, hn⟩) (outsAt0 c n (Nat.lt_of_succ_lt hn)).2.2.2.2.1 (outsAt0 c n (Nat.lt_of_succ_lt hn)).2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h7) (iblk0 V c 0 ⟨n + 1, hn⟩) (iblk0 V c 1 ⟨n + 1, hn⟩) (outsAt0 c n (Nat.lt_of_succ_lt hn)).2.2.2.2.1 (outsAt0 c n (Nat.lt_of_succ_lt hn)).2.2.2.2.2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (fun h => h7 ((hcond0_1 ⟨n + 1, hn⟩).mp h)) (iblk0 V c 0 ⟨n + 1, hn⟩) (iblk0 V c 1 ⟨n + 1, hn⟩) (outsAt0 c n (Nat.lt_of_succ_lt hn)).2.2.2.2.1 (outsAt0 c n (Nat.lt_of_succ_lt hn)).2.2.2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (fun h => h7 ((hcond0_1 ⟨n + 1, hn⟩).mp h)) (iblk0 V c 0 ⟨n + 1, hn⟩) (iblk0 V c 1 ⟨n + 1, hn⟩) (outsAt0 c n (Nat.lt_of_succ_lt hn)).2.2.2.2.1 (outsAt0 c n (Nat.lt_of_succ_lt hn)).2.2.2.2.2, VO0_4.read (Elt F) VO0_4.junk, VO0_5.read (Elt F) VO0_5.junk, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (fun h => h7 ((hcond0_1 ⟨n + 1, hn⟩).mp h)) (iblk0 V c 0 ⟨n + 1, hn⟩) (iblk0 V c 1 ⟨n + 1, hn⟩) (outsAt0 c n (Nat.lt_of_succ_lt hn)).2.2.2.2.1 (outsAt0 c n (Nat.lt_of_succ_lt hn)).2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (fun h => h7 ((hcond0_1 ⟨n + 1, hn⟩).mp h)) (iblk0 V c 0 ⟨n + 1, hn⟩) (iblk0 V c 1 ⟨n + 1, hn⟩) (outsAt0 c n (Nat.lt_of_succ_lt hn)).2.2.2.2.1 (outsAt0 c n (Nat.lt_of_succ_lt hn)).2.2.2.2.2)

theorem outsAt0_A (c : Dev nD) (t : Fin cfg0.N) (h0 : t.val = 0) (h7 : ¬t.val = 7) :
    outsAt0 V c t.val t.isLt = (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h7 ((hcond0_1 t).mp h)) (iblk0 V c 0 t) (iblk0 V c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h7 ((hcond0_1 t).mp h)) (iblk0 V c 0 t) (iblk0 V c 1 t), VO0_4.read (Elt F) VO0_4.junk, VO0_5.read (Elt F) VO0_5.junk, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h7 ((hcond0_1 t).mp h)) (iblk0 V c 0 t) (iblk0 V c 1 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h7 ((hcond0_1 t).mp h)) (iblk0 V c 0 t) (iblk0 V c 1 t)) := by
  obtain ⟨n, hn⟩ := t
  cases n with
  | zero => exact rfl
  | succ n => exact absurd h0 (Nat.succ_ne_zero n)

theorem outsAt0_B (c : Dev nD) (t : Fin cfg0.N) (h0 : ¬t.val = 0) (h7 : ¬t.val = 7) :
    outsAt0 V c t.val t.isLt = (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h7 ((hcond0_1 t).mp h)) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h7 ((hcond0_1 t).mp h)) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, VO0_4.read (Elt F) VO0_4.junk, VO0_5.read (Elt F) VO0_5.junk, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h7 ((hcond0_1 t).mp h)) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h7 ((hcond0_1 t).mp h)) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) := by
  obtain ⟨n, hn⟩ := t
  cases n with
  | zero => exact absurd rfl h0
  | succ n => exact (dif_neg h7).trans rfl

theorem outsAt0_C (c : Dev nD) (t : Fin cfg0.N) (h0 : ¬t.val = 0) (h7 : t.val = 7) :
    outsAt0 V c t.val t.isLt = (out0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) := by
  obtain ⟨n, hn⟩ := t
  cases n with
  | zero => exact absurd rfl h0
  | succ n => exact (dif_pos h7).trans rfl

/-- The invariant before position `n`: at the start the scratch holds anything; afterwards what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.2.1) ∗ owns (c : Thread nD τ) scM0_1 fullShare ((outsAt0 V c n hn).2.2.2.2.2) ∗ R19 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2.2.2.1) ∗ owns (c : Thread nD τ) scM0_1 fullShare ((outsAt0 V c n hn).2.2.2.2.2) ∗ R19 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.2.1) ∗ owns (c : Thread nD τ) scM0_1 fullShare ((outsAt0 V c (n - 1) (by omega)).2.2.2.2.2) ∗ R19 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2.1
    | ⟨5, _⟩ => (outsAt0 V c t.val t.isLt).2.2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2.1 := by dsimp only [dat0]
theorem after0_5 (c : Dev nD) (t : Fin cfg0.N) : (dat0 V c).after 5 t = (outsAt0 V c t.val t.isLt).2.2.2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Region

end Cert.KernelIdeal.Fr

end
-- ==== Proof.KI.R0Body.lean ====
/-
  Region 0's body obligation: at every grid point the body, handed the invariant (the scratch at what the point
  before left), its input blocks and its output buffers, runs to the invariant of the next point and the buffers at
  the proof data's contents — by cases on the point (first, last, in between), each case one run of the body.
-/
import proofs.«170462_j60730837566028_1_alg».proof.Proof.KI.R0Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 8 := lt_of_lt_of_eq t.isLt (show cfg0.N = 8 from N_0)
  by_cases h0 : t.val = 0
  · have h7 : ¬t.val = 7 := by omega
    rw [show (dat0 V c).leavesExact 0 t = owns (c : Thread nD τ) (ms0_0 t) fullShare ((dat0 V c).after 0 t) from by
          unfold Dat.leavesExact; rw [liveAt0_0 t], after0_0]
    rw [show (dat0 V c).leavesExact 1 t = owns (c : Thread nD τ) (ms0_1 t) fullShare ((dat0 V c).after 1 t) from by
          unfold Dat.leavesExact; rw [liveAt0_1 t], after0_1]
    rw [show (dat0 V c).leavesExact 2 t = owns (c : Thread nD τ) (ms0_2 t) fullShare ((dat0 V c).after 2 t) from by
          unfold Dat.leavesExact; rw [liveAt0_2 t], after0_2]
    rw [show (dat0 V c).leavesExact 3 t = owns (c : Thread nD τ) (ms0_3 t) fullShare ((dat0 V c).after 3 t) from by
          unfold Dat.leavesExact; rw [liveAt0_3 t], after0_3]
    rw [Dat.leavesExact_idle (dat0 V c) 4 t (idleAt0_4 t (fun h => h7 ((hcond0_1 t).mp h))) (noFlush0_4 t (fun h => h7 ((hcond0_1 t).mp h)))]
    rw [Dat.leavesExact_idle (dat0 V c) 5 t (idleAt0_5 t (fun h => h7 ((hcond0_1 t).mp h))) (noFlush0_5 t (fun h => h7 ((hcond0_1 t).mp h)))]
    rw [outsAt0_A V c t h0 h7]
    unfold out0_A_2 out0_A_3 sout0_A_0 sout0_A_1; (try dsimp only)
    rw [PhiS_castSucc V c t, PhiS_zero V c _ _ h0, PhiA0_eq]
    iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ ((hcond0_0 t).mpr h0) (fun h => h7 ((hcond0_1 t).mp h)) (iblk0 V c 0 t) (iblk0 V c 1 t)).2.2.2.2 _ _ Set.univ _)
    isplitl [H0]; · iexact H0
    isplitl [H1]; · iexact H1
    isplitl [H2]; · iexists _; iexact H2
    isplitl [H3]; · iexists _; iexact H3
    isplitl [H4]; · iexact H4
    isplitl [H5]; · iexact H5
    isplitl [HS0]; · iexact HS0
    isplitl [HS1]; · iexact HS1
    iintro ⟨H0, H1, ⟨%e2, H2⟩, ⟨%e3, H3⟩, H4, H5, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _)
        iexact HR
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _ _ _ _ _ _ _)
    isplitl [H4]; · iexists _; iexact H4
    iexists _; iexact H5
  · by_cases h7 : t.val = 7
    · rw [show (dat0 V c).leavesExact 0 t = owns (c : Thread nD τ) (ms0_0 t) fullShare ((dat0 V c).after 0 t) from by
            unfold Dat.leavesExact; rw [liveAt0_0 t], after0_0]
      rw [show (dat0 V c).leavesExact 1 t = owns (c : Thread nD τ) (ms0_1 t) fullShare ((dat0 V c).after 1 t) from by
            unfold Dat.leavesExact; rw [liveAt0_1 t], after0_1]
      rw [show (dat0 V c).leavesExact 2 t = owns (c : Thread nD τ) (ms0_2 t) fullShare ((dat0 V c).after 2 t) from by
            unfold Dat.leavesExact; rw [liveAt0_2 t], after0_2]
      rw [show (dat0 V c).leavesExact 3 t = owns (c : Thread nD τ) (ms0_3 t) fullShare ((dat0 V c).after 3 t) from by
            unfold Dat.leavesExact; rw [liveAt0_3 t], after0_3]
      rw [show (dat0 V c).leavesExact 4 t = owns (c : Thread nD τ) (ms0_4 t) fullShare ((dat0 V c).after 4 t) from by
            unfold Dat.leavesExact; rw [liveAt0_4 t ((hcond0_1 t).mpr h7)], after0_4]
      rw [show (dat0 V c).leavesExact 5 t = owns (c : Thread nD τ) (ms0_5 t) fullShare ((dat0 V c).after 5 t) from by
            unfold Dat.leavesExact; rw [liveAt0_5 t ((hcond0_1 t).mpr h7)], after0_5]
      rw [outsAt0_C V c t h0 h7]
      unfold out0_C_2 out0_C_3 out0_C_4 out0_C_5 sout0_C_0 sout0_C_1; (try dsimp only)
      rw [PhiS_castSucc V c t, PhiS_pos V c _ _ h0]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ (fun h => h0 ((hcond0_0 t).mp h)) ((hcond0_1 t).mpr h7) (iblk0 V c 0 t) (iblk0 V c 1 t) _ _).2.2.2.2.2.2 Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [HS0]; · iexact HS0
      isplitl [HS1]; · iexact HS1
      iintro ⟨H0, H1, ⟨%e2, H2⟩, ⟨%e3, H3⟩, ⟨%e4, H4⟩, ⟨%e5, H5⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _ _ _ _ _ _ _)
      isplitl [H3]
      · unfold owns; iexists _; isplitr
        swap; · iexact H3
        ipureintro; exact View.read_writes_of_cover _ _ _ _ _ (cover0_C_3 c _ _ _ _ _ _ _ _ _ _ _ _ _ _ _ _ _ _ _ _ _ _ _)
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _ _ _ _)
    · rw [show (dat0 V c).leavesExact 0 t = owns (c : Thread nD τ) (ms0_0 t) fullShare ((dat0 V c).after 0 t) from by
            unfold Dat.leavesExact; rw [liveAt0_0 t], after0_0]
      rw [show (dat0 V c).leavesExact 1 t = owns (c : Thread nD τ) (ms0_1 t) fullShare ((dat0 V c).after 1 t) from by
            unfold Dat.leavesExact; rw [liveAt0_1 t], after0_1]
      rw [show (dat0 V c).leavesExact 2 t = owns (c : Thread nD τ) (ms0_2 t) fullShare ((dat0 V c).after 2 t) from by
            unfold Dat.leavesExact; rw [liveAt0_2 t], after0_2]
      rw [show (dat0 V c).leavesExact 3 t = owns (c : Thread nD τ) (ms0_3 t) fullShare ((dat0 V c).after 3 t) from by
            unfold Dat.leavesExact; rw [liveAt0_3 t], after0_3]
      rw [Dat.leavesExact_idle (dat0 V c) 4 t (idleAt0_4 t (fun h => h7 ((hcond0_1 t).mp h))) (noFlush0_4 t (fun h => h7 ((hcond0_1 t).mp h)))]
      rw [Dat.leavesExact_idle (dat0 V c) 5 t (idleAt0_5 t (fun h => h7 ((hcond0_1 t).mp h))) (noFlush0_5 t (fun h => h7 ((hcond0_1 t).mp h)))]
      rw [outsAt0_B V c t h0 h7]
      unfold out0_B_2 out0_B_3 sout0_B_0 sout0_B_1; (try dsimp only)
      rw [PhiS_castSucc V c t, PhiS_pos V c _ _ h0]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) (fun h => h7 ((hcond0_1 t).mp h)) (iblk0 V c 0 t) (iblk0 V c 1 t) _ _).2.2.2.2 _ _ Set.univ _)
      isplitl [H0]; · iexact H0
      isplitl [H1]; · iexact H1
      isplitl [H2]; · iexists _; iexact H2
      isplitl [H3]; · iexists _; iexact H3
      isplitl [H4]; · iexact H4
      isplitl [H5]; · iexact H5
      isplitl [HS0]; · iexact HS0
      isplitl [HS1]; · iexact HS1
      iintro ⟨H0, H1, ⟨%e2, H2⟩, ⟨%e3, H3⟩, H4, H5, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _ _ _ _ _ _ _ _)
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _)
      isplitl [H4]; · iexists _; iexact H4
      iexists _; iexact H5

theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the scoped buffers back at some contents. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 8 := N_0; omega)

end Region

end Cert.KernelIdeal.Fr

end
-- ==== Proof.KI.Reg1.lean ====
import proofs.«170462_j60730837566028_1_alg».proof.Proof.Gen.KernelIdeal.Launch
import proofs.«170462_j60730837566028_1_alg».proof.Proof.Gen.KernelIdeal.Skeleton
import proofs.«170462_j60730837566028_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The body half of the frame of pipeline 1 (`cc1__kernel_l`): the body loads whole blocks, computes and stores whole
    blocks, so what it leaves in each output window's buffer is a closed function of the input windows' blocks. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1024x256 := Rect.unit (s := S1024x256) ![0, 0] S1024x256.size inb_S1024x256_S1024x256_0_0
abbrev r1_1 : Rect S256x256 := Rect.unit (s := S256x256) ![0, 0] S256x256.size inb_S256x256_S256x256_0_0
abbrev r1_2 : Rect S1x256 := Rect.unit (s := S1x256) ![0, 0] S1x256.size inb_S1x256_S1x256_0_0
abbrev r1_3 : Rect S1024x1 := Rect.unit (s := S1024x1) ![0, 0] S1024x1.size inb_S1024x1_S1024x1_0_0

/-! ## What the body leaves in each output window's buffer -/

/-- Window 3's staging buffer after the body, from the input windows' blocks: its one store as a piece. -/
def out1_3 (x0 : Vec F S1024x256 .f32) (x1 : Vec F S256x256 .f32) : Vec F S1024x256 .bf16 :=
  View.canon [⟨r1_0, k1_pay2 (View.ld x0 r1_0) (View.ld x1 r1_1)⟩]

/-- Its store is of the whole buffer, so it covers it. -/
theorem cover1_3 (p0 : Vec F S1024x256 .bf16) (y : S1024x256.Idx) :
    ∃ pc ∈ ([⟨r1_0, p0⟩] : List (View.Piece (Elt F) S1024x256 .bf16)), y ∈ pc.1.set :=
  View.cover_of_tiled [⟨r1_0, p0⟩] S1024x256.size (by rfl) y

/-- Window 4's staging buffer after the body, from the input windows' blocks: its one store as a piece. -/
def out1_4 (x0 : Vec F S1024x256 .f32) (x1 : Vec F S256x256 .f32) (x2 : Vec F S1x256 .f32) : Vec F S1024x1 .f32 :=
  View.canon [⟨r1_3, k1_pay3 (View.ld x0 r1_0) (View.ld x1 r1_1) (View.ld x2 r1_2)⟩]

/-- Its store is of the whole buffer, so it covers it. -/
theorem cover1_4 (p0 : Vec F S1024x1 .f32) (y : S1024x1.Idx) :
    ∃ pc ∈ ([⟨r1_3, p0⟩] : List (View.Piece (Elt F) S1024x1 .f32)), y ∈ pc.1.set :=
  View.cover_of_tiled [⟨r1_3, p0⟩] S1024x1.size (by rfl) y

/-! ## The body's triple -/

set_option maxHeartbeats 1000000 in
/-- The kernel body on whole staging memrefs, the inputs' at read contents `xW` and the outputs' at anything, runs to
    the continuation holding the inputs' as they were and each output's at `out1_W` of the inputs'. -/
theorem sound_kernel1 (c : Dev nD) (E : Set ℕ) (i : grid1.Coords) (arg0 : Memref sig .tc .vmem S1024x256 .f32) (harg0 : arg0.IsWhole) (arg1 : Memref sig .tc .vmem S256x256 .f32) (harg1 : arg1.IsWhole) (arg2 : Memref sig .tc .vmem S1x256 .f32) (harg2 : arg2.IsWhole) (arg3 : Memref sig .tc .vmem S1024x256 .bf16) (harg3 : arg3.IsWhole) (arg4 : Memref sig .tc .vmem S1024x1 .f32) (harg4 : arg4.IsWhole)
    (x0 : Vec F S1024x256 .f32) (x1 : Vec F S256x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1) ∗ owns (c : Thread nD τ) arg4 fullShare (out1_4 x0 x1 x2)) -∗ K ⟨⟩))
      ⊢ wp frame (wpE (defs₀ (F := F)) Variants.none c none) E (cc1__kernel_l i arg0 harg0 arg1 harg1 arg2 harg2 arg3 harg3 arg4 harg4) K := by
  simp only [cc1__kernel_l_eq_skeleton]; unfold cc1__kernel_l_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`: the arrays as the region finds them (`V`); after the body at
    point `t` each input's buffer at its block and each output's at `out1_W` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Fr

end
-- ==== Proof.KI.Reg2.lean ====
import proofs.«170462_j60730837566028_1_alg».proof.Proof.Gen.KernelIdeal.Launch
import proofs.«170462_j60730837566028_1_alg».proof.Proof.Gen.KernelIdeal.Skeleton
import proofs.«170462_j60730837566028_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The body half of the frame of pipeline 2 (`cc2__kernel_final`): the body loads whole blocks, computes and stores whole
    blocks, so what it leaves in each output window's buffer is a closed function of the input windows' blocks. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1024x256 := Rect.unit (s := S1024x256) ![0, 0] S1024x256.size inb_S1024x256_S1024x256_0_0
abbrev r2_1 : Rect S2048x256 := Rect.unit (s := S2048x256) ![0, 0] S2048x256.size inb_S2048x256_S2048x256_0_0
abbrev r2_2 : Rect S1x2048 := Rect.unit (s := S1x2048) ![0, 0] S1x2048.size inb_S1x2048_S1x2048_0_0
abbrev r2_3 : Rect S1x1 := Rect.unit (s := S1x1) ![0, 0] S1x1.size inb_S1x1_S1x1_0_0
abbrev r2_4 : Rect S1024x1 := Rect.unit (s := S1024x1) ![0, 0] S1024x1.size inb_S1024x1_S1024x1_0_0
abbrev r2_5 : Rect S1024x2048 := Rect.unit (s := S1024x2048) ![0, 0] S1024x2048.size inb_S1024x2048_S1024x2048_0_0

/-! ## What the body leaves in each output window's buffer -/

/-- Window 5's staging buffer after the body, from the input windows' blocks: its one store as a piece. -/
def out2_5 (x0 : Vec F S1024x256 .bf16) (x1 : Vec F S2048x256 .bf16) (x2 : Vec F S1x2048 .f32) (x3 : Vec F S1x1 .f32) (x4 : Vec F S1024x1 .f32) : Vec F S1024x2048 .f32 :=
  View.canon [⟨r2_5, k2_pay1 (View.ld x0 r2_0) (View.ld x1 r2_1) (View.ld x2 r2_2) (View.ld x3 r2_3) (View.ld x4 r2_4)⟩]

/-- Its store is of the whole buffer, so it covers it. -/
theorem cover2_5 (p0 : Vec F S1024x2048 .f32) (y : S1024x2048.Idx) :
    ∃ pc ∈ ([⟨r2_5, p0⟩] : List (View.Piece (Elt F) S1024x2048 .f32)), y ∈ pc.1.set :=
  View.cover_of_tiled [⟨r2_5, p0⟩] S1024x2048.size (by rfl) y

/-! ## The body's triple -/

set_option maxHeartbeats 1000000 in
/-- The kernel body on whole staging memrefs, the inputs' at read contents `xW` and the outputs' at anything, runs to
    the continuation holding the inputs' as they were and each output's at `out2_W` of the inputs'. -/
theorem sound_kernel2 (c : Dev nD) (E : Set ℕ) (i : grid2.Coords) (arg0 : Memref sig .tc .vmem S1024x256 .bf16) (harg0 : arg0.IsWhole) (arg1 : Memref sig .tc .vmem S2048x256 .bf16) (harg1 : arg1.IsWhole) (arg2 : Memref sig .tc .vmem S1x2048 .f32) (harg2 : arg2.IsWhole) (arg3 : Memref sig .tc .vmem S1x1 .f32) (harg3 : arg3.IsWhole) (arg4 : Memref sig .tc .vmem S1024x1 .f32) (harg4 : arg4.IsWhole) (arg5 : Memref sig .tc .vmem S1024x2048 .f32) (harg5 : arg5.IsWhole)
    (x0 : Vec F S1024x256 .bf16) (x1 : Vec F S2048x256 .bf16) (x2 : Vec F S1x2048 .f32) (x3 : Vec F S1x1 .f32) (x4 : Vec F S1024x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__kernel_final i arg0 harg0 arg1 harg1 arg2 harg2 arg3 harg3 arg4 harg4 arg5 harg5) K := by
  simp only [cc2__kernel_final_eq_skeleton]; unfold cc2__kernel_final_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at
    point `t` each input's buffer at its block and each output's at `out2_W` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Fr

end
-- ==== Proof.KI.Run.lean ====
/-
  The whole program as three regions in order.  Between regions every unscoped buffer of the core is held at a
  named valuation: the launch memory, then after each region its windows' arrays at what its write-backs leave and
  every other buffer untouched.  The run ends with every unscoped buffer at the last valuation.
-/
import proofs.«170462_j60730837566028_1_alg».proof.Proof.KI.R0Body
import proofs.«170462_j60730837566028_1_alg».proof.Proof.KI.Reg1
import proofs.«170462_j60730837566028_1_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: its arrays at what the pipeline leaves, every other buffer as the region found it. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1: its arrays at what the pipeline leaves, every other buffer as the region found it. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After region 2: its arrays at what the pipeline leaves, every other buffer as the region found it. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- Region 0 over the thread state: entered with every unscoped buffer at `W0`, left with them at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    refine (show (pdats m ρ 0 c).Φ (Fin.last _) ⊢ Pipeline.ΦA spec0 c from hout0 (V0 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W1`, left with them at `W2`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W2`, left with them at `W3`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ), .region (reg1 m ρ), .region (reg2 m ρ) ]
theorem main_run (c : Dev nD) : main (F := F) c = Pipeline.Seg.run (segs m ρ) := (main_chain c).trans (by chain_rfl)

set_option backward.isDefEq.respectTransparency.types false in
/-- Every weakly fair execution of the program terminates, faulting nowhere, with every unscoped buffer of every core at
    the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Fr

end
-- ==== Proof.KI.Plumb.lean ====
/-
  Reading the valuations between regions at particular buffers: an argument array is never written (a region
  either stages it through an input window, which leaves it as found, or does not touch it), and each
  intermediate array is what the region that produced it left there.
-/
import proofs.«170462_j60730837566028_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments reach the end as launched -/

theorem W1_main_arg0 (c : Dev nD) : W1 m ρ c (Proc.devRef .tc main_arg0) = m ((c : Thread nD τ).loc main_arg0) :=
  (W1_of_ne m ρ c main_arg0 (by decide)).trans rfl
theorem W1_main_arg1 (c : Dev nD) : W1 m ρ c (Proc.devRef .tc main_arg1) = m ((c : Thread nD τ).loc main_arg1) :=
  (W1_arr m ρ c 0).trans (((dat0 (V0 m ρ) c).arrAt_in 0 rfl _).trans ((A_eq0 (V0 m ρ) c 0).trans rfl))
theorem W1_main_arg2 (c : Dev nD) : W1 m ρ c (Proc.devRef .tc main_arg2) = m ((c : Thread nD τ).loc main_arg2) :=
  (W1_arr m ρ c 1).trans (((dat0 (V0 m ρ) c).arrAt_in 1 rfl _).trans ((A_eq0 (V0 m ρ) c 1).trans rfl))

theorem W2_main_arg0 (c : Dev nD) : W2 m ρ c (Proc.devRef .tc main_arg0) = m ((c : Thread nD τ).loc main_arg0) :=
  (W2_arr m ρ c 0).trans (((dat1 (V1 m ρ) c).arrAt_in 0 rfl _).trans ((A_eq1 (V1 m ρ) c 0).trans (W1_main_arg0 m ρ c)))
theorem W2_main_arg1 (c : Dev nD) : W2 m ρ c (Proc.devRef .tc main_arg1) = m ((c : Thread nD τ).loc main_arg1) :=
  (W2_of_ne m ρ c main_arg1 (by decide)).trans (W1_main_arg1 m ρ c)
theorem W2_main_arg2 (c : Dev nD) : W2 m ρ c (Proc.devRef .tc main_arg2) = m ((c : Thread nD τ).loc main_arg2) :=
  (W2_arr m ρ c 1).trans (((dat1 (V1 m ρ) c).arrAt_in 1 rfl _).trans ((A_eq1 (V1 m ρ) c 1).trans (W1_main_arg2 m ρ c)))

theorem W3_main_arg0 (c : Dev nD) : W3 m ρ c (Proc.devRef .tc main_arg0) = m ((c : Thread nD τ).loc main_arg0) :=
  (W3_of_ne m ρ c main_arg0 (by decide)).trans (W2_main_arg0 m ρ c)
theorem W3_main_arg1 (c : Dev nD) : W3 m ρ c (Proc.devRef .tc main_arg1) = m ((c : Thread nD τ).loc main_arg1) :=
  (W3_of_ne m ρ c main_arg1 (by decide)).trans (W2_main_arg1 m ρ c)
theorem W3_main_arg2 (c : Dev nD) : W3 m ρ c (Proc.devRef .tc main_arg2) = m ((c : Thread nD τ).loc main_arg2) :=
  (W3_of_ne m ρ c main_arg2 (by decide)).trans (W2_main_arg2 m ρ c)

/-! ## The intermediate arrays -/

/-- The result array is what the last region's write-backs leave. -/
theorem W3_main_v2 (c : Dev nD) : W3 m ρ c (Proc.devRef .tc main_v2) = (dat2 (V2 m ρ) c).arrAt 5 cfg2.N := W3_arr m ρ c 5
/-- What the last region finds: the second region's two outputs, the first region's outputs. -/
theorem V2_main_v1_0 (c : Dev nD) : V2 m ρ c main_v1_0 = (dat1 (V1 m ρ) c).arrAt 3 cfg1.N := W2_arr m ρ c 3
theorem V2_main_v1_1 (c : Dev nD) : V2 m ρ c main_v1_1 = (dat1 (V1 m ρ) c).arrAt 4 cfg1.N := W2_arr m ρ c 4
theorem V2_main_v0_0 (c : Dev nD) : V2 m ρ c main_v0_0 = (dat0 (V0 m ρ) c).arrAt 2 cfg0.N :=
  (W2_of_ne m ρ c main_v0_0 (by decide)).trans (W1_arr m ρ c 2)
theorem V2_main_v0_1 (c : Dev nD) : V2 m ρ c main_v0_1 = (dat0 (V0 m ρ) c).arrAt 3 cfg0.N :=
  (W2_of_ne m ρ c main_v0_1 (by decide)).trans (W1_arr m ρ c 3)
theorem V2_main_v0_3 (c : Dev nD) : V2 m ρ c main_v0_3 = (dat0 (V0 m ρ) c).arrAt 5 cfg0.N :=
  (W2_of_ne m ρ c main_v0_3 (by decide)).trans (W1_arr m ρ c 5)
/-- What the second region finds. -/
theorem V1_main_arg0 (c : Dev nD) : V1 m ρ c main_arg0 = m ((c : Thread nD τ).loc main_arg0) := W1_main_arg0 m ρ c
theorem V1_main_arg2 (c : Dev nD) : V1 m ρ c main_arg2 = m ((c : Thread nD τ).loc main_arg2) := W1_main_arg2 m ρ c
theorem V1_main_v0_2 (c : Dev nD) : V1 m ρ c main_v0_2 = (dat0 (V0 m ρ) c).arrAt 4 cfg0.N := W1_arr m ρ c 4

/-! ## The frame -/

/-- Every weakly fair execution terminates, faulting nowhere, with the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- The same run with the result array named. -/
theorem run_result : θ_run defs (onTc (τ := τ) (main (F := F))) ⟨m, fun _ => 0, ρ⟩ (fun r => ∀ c : Dev nD,
      r.2.mem ((c.tc : Thread nD τ).loc main_v2) = (dat2 (V2 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v2 (by decide))).trans (W3_main_v2 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Fr

end
-- ==== Proof.Frames.lean ====
/-
  The three frame claims: each program runs — terminates, nothing faulting — and ends with its argument arrays
  unchanged.  For the two kernel programs this is the frame of their run; for the reference it is its run with
  the result dropped.  A program's side conditions are propositions, so the run proved under one proof of them
  is the run under any other.
-/
import proofs.«170462_j60730837566028_1_alg».proof.Defs
import proofs.«170462_j60730837566028_1_alg».proof.Proof.K.Plumb
import proofs.«170462_j60730837566028_1_alg».proof.Proof.KI.Plumb
import proofs.«170462_j60730837566028_1_alg».proof.Proof.RefRunP

namespace Cert.Proof.Frames

open Idealize.ShloMosaic Idealize.SL.Sem

theorem frame_k [hKernel : Cert.Kernel.Facts] [hPre_finite_inputs : Cert.Pre_finite_inputs.Facts] :
    Cert.frame_Kernel (hKernel := hKernel) (hPre_finite_inputs := hPre_finite_inputs) :=
  fun m ρ _ => Cert.Kernel.Fr.frame (F := Bits) m ρ

theorem frame_ki [hKernelIdeal : Cert.KernelIdeal.Facts] [hPre_finite_inputs : Cert.Pre_finite_inputs.Facts] :
    Cert.frame_KernelIdeal (hKernelIdeal := hKernelIdeal) (hPre_finite_inputs := hPre_finite_inputs) :=
  fun m ρ _ => Cert.KernelIdeal.Fr.frame (F := Ideal) m ρ

theorem frame_ri [hReferenceIdeal : Cert.ReferenceIdeal.Facts] [hPre_finite_inputs : Cert.Pre_finite_inputs.Facts] :
    Cert.frame_ReferenceIdeal (hReferenceIdeal := hReferenceIdeal) (hPre_finite_inputs := hPre_finite_inputs) :=
  fun m ρ _ => (θ_run Cert.ReferenceIdeal.defs _ _).mono (fun _ h c => (h c).2)
    (Cert.ReferenceIdeal.ValueP.run (F := Ideal) m ρ)

end Cert.Proof.Frames
-- ==== Proof.Spec.lean ====
/-
  The two computations, written once over the extended reals with plain coordinates.

  Inputs: a start table `se` (4096 rows of 256), an output table `oe` (32768 rows of 256) and a projection
  `pj` (256 by 256).  With L = se·pj and R = oe·pj, row maxima a (of L) and b (of R), eL = exp(L - a) and
  eR = exp(R - b), and G n m = Σ_f eL n f · eR m f, the reference takes logits n m = log(G n m) + a n + b m and
  then a log-softmax along m.

  The tiled computation never forms the logits' row sums directly.  It walks the 32768 rows of R in eight
  tiles of 4096 rows, carrying a running maximum B of b and a running vector S with
  S f = Σ_{rows seen} eR m f · exp(b m - B), rescaled by exp(B_old - B_new) whenever B grows; then
  D n = log(Σ_f eL n f · S f) and the result is ((log(G n m) + b m) - B) - D n.
-/
import Idealize.ShloMosaic.PureOps.Ideal
import Mathlib.Data.Finset.Fold

noncomputable section

namespace Cert.Spec

open Idealize.ShloMosaic

/-- The maximum of a finite family of extended reals, from the bottom element. -/
def maxOver {ι : Type} [Fintype ι] (f : ι → EReal) : EReal := (Finset.univ : Finset ι).fold max ⊥ f

/-- A projected row: Σ_k x r k · pj k f. -/
def proj {n : ℕ} (x : Fin n → Fin 256 → EReal) (pj : Fin 256 → Fin 256 → EReal) (r : Fin n) (f : Fin 256) : EReal :=
  ∑ k : Fin 256, x r k * pj k f

/-- The row maximum of a projected table. -/
def rowMax {n : ℕ} (x : Fin n → Fin 256 → EReal) (pj : Fin 256 → Fin 256 → EReal) (r : Fin n) : EReal :=
  maxOver fun f : Fin 256 => proj x pj r f

/-- exp(row - its maximum). -/
def expRow {n : ℕ} (x : Fin n → Fin 256 → EReal) (pj : Fin 256 → Fin 256 → EReal) (r : Fin n) (f : Fin 256) : EReal :=
  Ideal.exp (proj x pj r f - rowMax x pj r)

/-- G n m = Σ_f eL n f · eR m f. -/
def gram (se : Fin 4096 → Fin 256 → EReal) (oe : Fin 32768 → Fin 256 → EReal) (pj : Fin 256 → Fin 256 → EReal)
    (n : Fin 4096) (m : Fin 32768) : EReal :=
  ∑ f : Fin 256, expRow se pj n f * expRow oe pj m f

/-! ## The reference -/

/-- logits n m = (log(G n m) + a n) + b m. -/
def logits (se : Fin 4096 → Fin 256 → EReal) (oe : Fin 32768 → Fin 256 → EReal) (pj : Fin 256 → Fin 256 → EReal)
    (n : Fin 4096) (m : Fin 32768) : EReal :=
  (Ideal.log (gram se oe pj n m) + rowMax se pj n) + rowMax oe pj m

/-- The log-softmax of the logits along m: shifted by the row maximum, minus the log of the sum of exponentials. -/
def refOut (se : Fin 4096 → Fin 256 → EReal) (oe : Fin 32768 → Fin 256 → EReal) (pj : Fin 256 → Fin 256 → EReal)
    (n : Fin 4096) (m : Fin 32768) : EReal :=
  (logits se oe pj n m - maxOver fun m' : Fin 32768 => logits se oe pj n m')
    - Ideal.log (∑ m' : Fin 32768, Ideal.exp (logits se oe pj n m' - maxOver fun m'' : Fin 32768 => logits se oe pj n m''))

/-! ## The tiled computation -/

/-- Row `j` of tile `i` (eight tiles of 4096 rows). -/
def tileRow (i : Fin 8) (j : Fin 4096) : Fin 32768 := ⟨i.val * 4096 + j.val, by have := i.isLt; have := j.isLt; omega⟩

/-- The largest row maximum inside tile `i`. -/
def tileMax (oe : Fin 32768 → Fin 256 → EReal) (pj : Fin 256 → Fin 256 → EReal) (i : Fin 8) : EReal :=
  maxOver fun j : Fin 4096 => rowMax oe pj (tileRow i j)

/-- One tile's update of the running maximum: max of the old one and the tile's. -/
def stepB (oe : Fin 32768 → Fin 256 → EReal) (pj : Fin 256 → Fin 256 → EReal) (i : Fin 8) (oldB : EReal) : EReal :=
  max oldB (tileMax oe pj i)

/-- One tile's update of the running vector: the old one rescaled by exp(B_old - B_new), plus the tile's rows
    weighted by exp(b - B_new). -/
def stepS (oe : Fin 32768 → Fin 256 → EReal) (pj : Fin 256 → Fin 256 → EReal) (i : Fin 8) (oldS : Fin 256 → EReal) (oldB : EReal)
    (f : Fin 256) : EReal :=
  oldS f * Ideal.exp (oldB - stepB oe pj i oldB)
    + ∑ j : Fin 4096, expRow oe pj (tileRow i j) f * Ideal.exp (rowMax oe pj (tileRow i j) - stepB oe pj i oldB)

/-- The running pair (S, B) after the first `k` tiles, from (0, -∞). -/
def acc (oe : Fin 32768 → Fin 256 → EReal) (pj : Fin 256 → Fin 256 → EReal) : (k : ℕ) → (Fin 256 → EReal) × EReal
  | 0 => (fun _ => 0, ⊥)
  | k + 1 =>
    if h : k < 8 then
      (stepS oe pj ⟨k, h⟩ (acc oe pj k).1 (acc oe pj k).2, stepB oe pj ⟨k, h⟩ (acc oe pj k).2)
    else acc oe pj k

/-- The final running vector and maximum. -/
def Sfin (oe : Fin 32768 → Fin 256 → EReal) (pj : Fin 256 → Fin 256 → EReal) : Fin 256 → EReal := (acc oe pj 8).1
def Bfin (oe : Fin 32768 → Fin 256 → EReal) (pj : Fin 256 → Fin 256 → EReal) : EReal := (acc oe pj 8).2

/-- D n = log(Σ_f eL n f · S f). -/
def dvec (se : Fin 4096 → Fin 256 → EReal) (oe : Fin 32768 → Fin 256 → EReal) (pj : Fin 256 → Fin 256 → EReal) (n : Fin 4096) : EReal :=
  Ideal.log (∑ f : Fin 256, expRow se pj n f * Sfin oe pj f)

/-- The tiled result: ((log(G n m) + b m) - B) - D n. -/
def kerOut (se : Fin 4096 → Fin 256 → EReal) (oe : Fin 32768 → Fin 256 → EReal) (pj : Fin 256 → Fin 256 → EReal)
    (n : Fin 4096) (m : Fin 32768) : EReal :=
  ((Ideal.log (gram se oe pj n m) + rowMax oe pj m) - Bfin oe pj) - dvec se oe pj n

end Cert.Spec

end
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRowSum.lean ====
/-
  Indices named by their coordinates, and a sum along the second axis of a matrix read at a row.

  An index of a rank-1 or rank-2 shape is determined by its coordinates' values, whatever term spells it (a composed
  index map of a broadcast, a lifted index of a reduction, a block's embedded index).  A lane reduction
  `multi_reduction <add>` of an [a, K] array along its second axis, from the zero word, read at row r over the
  extended reals, is the sum over k of the entries (r, k).
-/
import Idealize.ShloMosaic.PureOps.Ideal.Laws
import Idealize.ShloMosaic.Lib.ValueIdx

namespace Idealize.ShloMosaic.ValueIdx

open Idealize.ShloMosaic

/-- An index of a rank-2 shape is the one with the same two coordinates. -/
theorem idx2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- An index of a rank-1 shape is the one with the same coordinate. -/
theorem idx1_ext {n : Nat} (j : (⟨1, ![n]⟩ : Shape).Idx) (a : Fin n) (h0 : (j 0).val = a.val) : j = ix1 a :=
  funext fun d => Fin.ext (by match d with | ⟨0, _⟩ => exact h0)

/-- A sum along the second axis of an [a, K] array, from the zero word, read at row `r`: `∑ k, src (r, k)`. The shape
    fact, the format fact and the accumulator's neutrality are whatever proofs the printed operation carries. -/
theorem multiReduction_add_rows_apply {a K : ℕ} (src : FVec Ideal ⟨2, ![a, K]⟩ .f32)
    (hr : (⟨2, ![a, K]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 hr hφ hacc (ix1 r) = ∑ k : Fin K, src (ix2 r k) :=
  (Ideal.multiReduction_add_single src _ hr hφ hacc (ix1 r)).trans
    (Finset.sum_congr rfl fun k _ => congrArg src (idx2_ext _ r k rfl rfl))

end Idealize.ShloMosaic.ValueIdx
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.KI.Val1.lean ====
import proofs.«170462_j60730837566028_1_alg».proof.Proof.KI.Reg1
import proofs.«170462_j60730837566028_1_alg».proof.Proof.Spec
import proofs.«170462_j60730837566028_1_alg».proof.Proof.LibColumn
import proofs.«170462_j60730837566028_1_alg».proof.Proof.LibRowSum
import proofs.«170462_j60730837566028_1_alg».proof.Proof.LibDot
import Idealize.ShloMosaic.Lib.Pipeline.Value
import Idealize.ShloMosaic.Lib.ValueIdx
import Idealize.ShloMosaic.Lib.ValueLayout
import Idealize.ShloMosaic.PureOps.Ideal.Laws

/-! The value of a region's output arrays over the extended reals, as whole-array functions of the arrays the region
    finds: the payload at an entry, each block as rows of the arrays, the write-backs' cover. -/

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

theorem hz : (![0, 0] : Fin 2 → Nat) = fun _ => 0 := funext fun a => by fin_cases a <;> rfl

/-- The word of minus infinity is the bottom element. -/
theorem ofBits_neg_inf : Ideal.ofBits .f32 0xFF800000#32 = (⊥ : EReal) := by simp [Ideal.ofBits, Ideal.ieee]

/-- A maximum along the second axis of an [a, K] array, from minus infinity, read at row `r`. -/
theorem multiReduction_max_rows_apply {a K : ℕ} (src : FVec Ideal ⟨2, ![a, K]⟩ .f32)
    (hr : (⟨2, ![a, K]⟩ : Shape).Reduces [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 hr hφ hacc (ix1 r) = Cert.Spec.maxOver fun k : Fin K => src (ix2 r k) := by
  refine (Ideal.multiReduction_maximumf_single src _ hr hφ hacc (ix1 r)).trans ?_
  unfold Cert.Spec.maxOver
  show (Finset.univ : Finset (Fin K)).fold max (Ideal.ofBits .f32 0xFF800000#32) (fun k : Fin K => src (hr.lift (ix1 r) k)) = _
  rw [ofBits_neg_inf]
  congr 1
  funext k
  exact congrArg src (idx2_ext _ r k rfl rfl)

/-- The projection's product is a plain rows-by-columns one. -/
theorem plain1 : Cert.LibDot.Plain dot_S1024x256_S256x256_S1024x256_1_0_0_1_n_n where
  hrank := rfl
  hs := rfl
  hl0 := fun _ _ => rfl
  hl1 := fun j k => dot_S1024x256_S256x256_S1024x256_1_0_0_1_n_n.lhsIdx_val_of_single (cl := 1) rfl j k
  hr0 := fun j k => dot_S1024x256_S256x256_S1024x256_1_0_0_1_n_n.rhsIdx_val_of_single (cr := 0) rfl j k
  hr1 := fun _ _ => rfl

/-- The shifted exponential of the projected block, at an entry. -/
theorem pay1_apply (x0 : Vec Ideal S1024x256 .f32) (x1 : Vec Ideal S256x256 .f32) (p : Fin 1024) (q : Fin 256) :
    k1_pay1 x0 x1 (ix2 p q)
      = Ideal.exp ((∑ k : Fin 256, x0 (ix2 p k) * x1 (ix2 k q))
          - Cert.Spec.maxOver fun f : Fin 256 => ∑ k : Fin 256, x0 (ix2 p k) * x1 (ix2 k f)) := by
  unfold k1_pay1
  show Ideal.exp (matmul (F := Ideal) dot_S1024x256_S256x256_S1024x256_1_0_0_1_n_n none x0 x1 (constant (F := Ideal) S1024x256 .f32 0x00000000#32) (ix2 p q)
      - broadcastTo S1024x256 (shapeCast S1024x1 (multiReduction (F := Ideal) .maximumf [1] S1024 (matmul (F := Ideal) dot_S1024x256_S256x256_S1024x256_1_0_0_1_n_n none x0 x1 (constant (F := Ideal) S1024x256 .f32 0x00000000#32)) 0xFF800000#32 reduces_S1024x256_S1024 (.inl rfl) rfl) shapeCasts_S1024_S1024x1) broadcasts_S1024x1_S1024x256 (ix2 p q)) = _
  rw [Cert.LibDot.matmul_ix2 plain1, broadcastTo_a1_ab_apply, shapeCast_a_a1_apply]
  refine congrArg (fun z => Ideal.exp ((∑ k : Fin 256, x0 (ix2 p k) * x1 (ix2 k q)) - z)) ?_
  refine (multiReduction_max_rows_apply _ _ _ _ p).trans ?_
  refine congrArg Cert.Spec.maxOver ?_
  funext f
  exact Cert.LibDot.matmul_ix2 plain1 none x0 x1 p f

/-- The stored low-precision copy of the shifted exponential, at an entry of a block whose rows are rows of `A`. -/
theorem pay2_block (x0 : Vec Ideal S1024x256 .f32) (x1 : Vec Ideal S256x256 .f32)
    (A : S4096x256.Idx → EReal) (P : S256x256.Idx → EReal) (n : Fin 4096) (p : Fin 1024) (q : Fin 256)
    (h0 : ∀ k : Fin 256, x0 (ix2 p k) = A (ix2 n k)) (h1 : ∀ k g : Fin 256, x1 (ix2 k g) = P (ix2 k g)) :
    k1_pay2 x0 x1 (ix2 p q) = Cert.Spec.expRow (fun a k => A (ix2 a k)) (fun k g => P (ix2 k g)) n q := by
  unfold k1_pay2
  show k1_pay1 x0 x1 (ix2 p q) = _
  rw [pay1_apply]
  unfold Cert.Spec.expRow Cert.Spec.rowMax Cert.Spec.proj
  simp only [h0, h1]

section Blocks
variable (V : (c : Dev nD) → (b : Ref sig .tc) → Buf (Elt Ideal) ((c : Thread nD τ).loc b))

/-- The printed index maps over the four grid points: the row-blocked windows move with the point, the others stay. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem lt_N1 (t : Fin cfg1.N) : t.val < 4 := lt_of_lt_of_eq t.isLt N_1

/-- Window 0's block at point `t` is rows `1024 t …` of the first table. -/
theorem iblk1_0_apply (c : Dev nD) (t : Fin cfg1.N) (p : Fin 1024) (k : Fin 256) (n : Fin 4096) (hn : n.val = t.val * 1024 + p.val) :
    (iblk1 V c 0 t : Vec Ideal S1024x256 .f32) (ix2 p k) = (V c main_arg0 : S4096x256.Idx → EReal) (ix2 n k) := by
  obtain ⟨e0, e1, -⟩ := idx_facts1 t
  unfold iblk1
  rw [View.read_apply]
  show V c main_arg0 _ = V c main_arg0 _
  congr 1
  funext a; apply Fin.ext
  match a with
  | ⟨0, _⟩ => show win1_0.index t (0 : Fin 2) * 1024 + 1 * p.val = n.val; omega
  | ⟨1, _⟩ => show win1_0.index t (1 : Fin 2) * 256 + 1 * k.val = k.val; omega

/-- Window 1's block is the whole projection. -/
theorem iblk1_1_apply (c : Dev nD) (t : Fin cfg1.N) (k g : Fin 256) :
    (iblk1 V c 1 t : Vec Ideal S256x256 .f32) (ix2 k g) = (V c main_arg2 : S256x256.Idx → EReal) (ix2 k g) := by
  obtain ⟨-, -, e2, e3, -⟩ := idx_facts1 t
  unfold iblk1
  rw [View.read_apply]
  show V c main_arg2 _ = V c main_arg2 _
  congr 1
  funext a; apply Fin.ext
  match a with
  | ⟨0, _⟩ => show win1_1.index t (0 : Fin 2) * 256 + 1 * k.val = k.val; omega
  | ⟨1, _⟩ => show win1_1.index t (1 : Fin 2) * 256 + 1 * g.val = g.val; omega

/-- What window 3's array ends holding: the shifted exponentials of the projected rows. -/
def G1_3 (c : Dev nD) : S4096x256.Idx → EReal := fun i =>
  Cert.Spec.expRow (fun (a : Fin 4096) (k : Fin 256) => (V c main_arg0 : S4096x256.Idx → EReal) (ix2 a k))
    (fun (k g : Fin 256) => (V c main_arg2 : S256x256.Idx → EReal) (ix2 k g)) (i 0) (i 1)

/-- What point `t` writes back to window 3's array is block `t` of `G1_3`. -/
theorem flushed1_3_eq (c : Dev nD) (t : Fin cfg1.N) :
    (dat1 (F := Ideal) V c).flushed 3 t = ((cfg1.win 3).blk t).view.read (Elt Ideal) (G1_3 V c) := by
  show (cfg1.win 3).cut (grid1.coords t) ((dat1 V c).after 3 t) = _
  rw [after1_3]
  unfold out1_3
  rw [View.canon_unit_zero hz]
  simp only [View.ld_unit_zero (S := S1024x256) hz, View.ld_unit_zero (S := S256x256) hz]
  obtain ⟨-, -, -, -, -, -, e6, e7, -, -⟩ := idx_facts1 t
  have ht := lt_N1 t
  funext j
  obtain ⟨p, q, rfl⟩ : ∃ (p : Fin 1024) (q : Fin 256), j = ix2 p q := ⟨j 0, j 1, eq_ix2 j⟩
  have hn : t.val * 1024 + p.val < 4096 := by have := p.isLt; omega
  show k1_pay2 (iblk1 V c 0 t) (iblk1 V c 1 t) (ix2 p q) = G1_3 V c (((cfg1.win 3).blk t).view.emb (ix2 p q))
  have hemb : ((cfg1.win 3).blk t).view.emb (ix2 p q) = ix2 (⟨t.val * 1024 + p.val, hn⟩ : Fin 4096) q := by
    funext a; apply Fin.ext
    match a with
    | ⟨0, _⟩ => show win1_3.index t (0 : Fin 2) * 1024 + 1 * p.val = t.val * 1024 + p.val; omega
    | ⟨1, _⟩ => show win1_3.index t (1 : Fin 2) * 256 + 1 * q.val = q.val; omega
  rw [hemb]
  unfold G1_3
  exact pay2_block _ _ (V c main_arg0) (V c main_arg2) ⟨t.val * 1024 + p.val, hn⟩ p q
    (fun k => iblk1_0_apply V c t p k _ rfl) (fun k g => iblk1_1_apply V c t k g)

/-- An index of window 3's array is in point `t`'s block iff each coordinate is in the block's range. -/
theorem mem_blk1_3 (t : Fin cfg1.N) (i : S4096x256.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole main_v1_0).slice (win1_3.rect t)).set ↔ _
  rw [View.set_slice_whole, Rect.mem_set_unit]
  exact Iff.rfl

/-- Every index of window 3's array is in the block of the point its row falls in. -/
theorem covered1_3 (i : S4096x256.Idx) : ∃ t : Fin cfg1.N, (cfg1.win 3).flush t = true ∧ i ∈ ((cfg1.win 3).blk t).view.set := by
  have hi0 : (i 0).val < 4096 := (i 0).isLt
  have hi1 : (i 1).val < 256 := (i 1).isLt
  have hN : cfg1.N = 4 := N_1
  obtain ⟨t, ht⟩ : ∃ t : Fin cfg1.N, t.val = (i 0).val / 1024 := ⟨⟨(i 0).val / 1024, by rw [hN]; omega⟩, rfl⟩
  obtain ⟨-, -, -, -, -, -, e6, e7, -, -⟩ := idx_facts1 t
  refine ⟨t, flush1_3 t, ?_⟩
  rw [mem_blk1_3]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 256 ≤ (i 1).val ∧ (i 1).val < win1_3.index t (1 : Fin 2) * 256 + 256; omega

/-- Window 3's array after the region: the shifted exponentials of the projected rows of the first table. -/
theorem final1_3 (c : Dev nD) (n : Fin 4096) (f : Fin 256) :
    (dat1 (F := Ideal) V c).arrAt 3 cfg1.N (ix2 n f)
      = Cert.Spec.expRow (fun (a : Fin 4096) (k : Fin 256) => (V c main_arg0 : S4096x256.Idx → EReal) (ix2 a k))
          (fun (k g : Fin 256) => (V c main_arg2 : S256x256.Idx → EReal) (ix2 k g)) n f :=
  congrFun ((dat1 (F := Ideal) V c).arrAt_eq_of_cover 3 (G1_3 V c) (fun t _ => flushed1_3_eq V c t) covered1_3) (ix2 n f)

end Blocks

end Cert.KernelIdeal.Val
end
-- ==== Proof.KI.Val1b.lean ====
import proofs.«170462_j60730837566028_1_alg».proof.Proof.KI.Reg1
import proofs.«170462_j60730837566028_1_alg».proof.Proof.KI.Val1
import proofs.«170462_j60730837566028_1_alg».proof.Proof.Spec
import proofs.«170462_j60730837566028_1_alg».proof.Proof.LibColumn
import proofs.«170462_j60730837566028_1_alg».proof.Proof.LibRowSum
import proofs.«170462_j60730837566028_1_alg».proof.Proof.LibDot
import Idealize.ShloMosaic.Lib.Pipeline.Value
import Idealize.ShloMosaic.Lib.ValueIdx
import Idealize.ShloMosaic.Lib.ValueLayout
import Idealize.ShloMosaic.PureOps.Ideal.Laws

/-! The value of a region's output arrays over the extended reals, as whole-array functions of the arrays the region
    finds: the payload at an entry, each block as rows of the arrays, the write-backs' cover. -/

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

/-- The shifted exponential at an entry of a block whose rows are rows of `A`. -/
theorem pay1_block (x0 : Vec Ideal S1024x256 .f32) (x1 : Vec Ideal S256x256 .f32)
    (A : S4096x256.Idx → EReal) (P : S256x256.Idx → EReal) (n : Fin 4096) (p : Fin 1024) (q : Fin 256)
    (h0 : ∀ k : Fin 256, x0 (ix2 p k) = A (ix2 n k)) (h1 : ∀ k g : Fin 256, x1 (ix2 k g) = P (ix2 k g)) :
    k1_pay1 x0 x1 (ix2 p q) = Cert.Spec.expRow (fun a k => A (ix2 a k)) (fun k g => P (ix2 k g)) n q := by
  rw [pay1_apply]
  unfold Cert.Spec.expRow Cert.Spec.rowMax Cert.Spec.proj
  simp only [h0, h1]

/-- The log of the weighted row sum of the shifted exponentials, at a row. -/
theorem pay3_apply (x0 : Vec Ideal S1024x256 .f32) (x1 : Vec Ideal S256x256 .f32) (x2 : Vec Ideal S1x256 .f32)
    (p : Fin 1024) (u : Fin 1) :
    k1_pay3 x0 x1 x2 (ix2 p u) = Ideal.log (∑ f : Fin 256, k1_pay1 x0 x1 (ix2 p f) * x2 (ix2 (0 : Fin 1) f)) := by
  unfold k1_pay3
  simp only [shapeCast_self]
  show Ideal.log (shapeCast S1024x1 (multiReduction (F := Ideal) .add [1] S1024
      (mulf (k1_pay1 x0 x1) (broadcastTo S1024x256 x2 broadcasts_S1x256_S1024x256)) 0x00000000#32
      reduces_S1024x256_S1024 (.inl rfl) rfl) shapeCasts_S1024_S1024x1 (ix2 p u)) = _
  rw [shapeCast_a_a1_apply]
  refine congrArg Ideal.log ?_
  refine (multiReduction_add_rows_apply _ _ _ _ p).trans ?_
  refine Finset.sum_congr rfl fun f _ => ?_
  rw [mulf_apply, broadcastTo_1b_ab_apply]

/-- The same at a row of a block whose rows are rows of `A`. -/
theorem pay3_block (x0 : Vec Ideal S1024x256 .f32) (x1 : Vec Ideal S256x256 .f32) (x2 : Vec Ideal S1x256 .f32)
    (A : S4096x256.Idx → EReal) (P : S256x256.Idx → EReal) (W : S1x256.Idx → EReal) (n : Fin 4096) (p : Fin 1024) (u : Fin 1)
    (h0 : ∀ k : Fin 256, x0 (ix2 p k) = A (ix2 n k)) (h1 : ∀ k g : Fin 256, x1 (ix2 k g) = P (ix2 k g))
    (h2 : ∀ f : Fin 256, x2 (ix2 (0 : Fin 1) f) = W (ix2 (0 : Fin 1) f)) :
    k1_pay3 x0 x1 x2 (ix2 p u)
      = Ideal.log (∑ f : Fin 256, Cert.Spec.expRow (fun a k => A (ix2 a k)) (fun k g => P (ix2 k g)) n f * W (ix2 (0 : Fin 1) f)) := by
  rw [pay3_apply]
  refine congrArg Ideal.log (Finset.sum_congr rfl fun f _ => ?_)
  rw [pay1_block x0 x1 A P n p f h0 h1, h2]

section Blocks4
variable (V : (c : Dev nD) → (b : Ref sig .tc) → Buf (Elt Ideal) ((c : Thread nD τ).loc b))

/-- The arrays the region finds, as index functions over the extended reals: the first table, the projection, the
    running vector. -/
abbrev arr1_0 (c : Dev nD) : S4096x256.Idx → EReal := V c main_arg0
abbrev arr1_1 (c : Dev nD) : S256x256.Idx → EReal := V c main_arg2
abbrev arr1_2 (c : Dev nD) : S1x256.Idx → EReal := V c main_v0_2

/-- Window 2's block is the whole running vector. -/
theorem iblk1_2_apply (c : Dev nD) (t : Fin cfg1.N) (f : Fin 256) :
    (iblk1 V c 2 t : Vec Ideal S1x256 .f32) (ix2 (0 : Fin 1) f) = arr1_2 V c (ix2 (0 : Fin 1) f) := by
  obtain ⟨-, -, -, -, e4, e5, -⟩ := idx_facts1 t
  unfold iblk1
  rw [View.read_apply]
  show V c main_v0_2 _ = V c main_v0_2 _
  congr 1
  funext a; apply Fin.ext
  match a with
  | ⟨0, _⟩ => show win1_2.index t (0 : Fin 2) * 1 + 1 * 0 = 0; omega
  | ⟨1, _⟩ => show win1_2.index t (1 : Fin 2) * 256 + 1 * f.val = f.val; omega

/-- What window 4's array ends holding: the log of each row's weighted sum of shifted exponentials. -/
def G1_4 (c : Dev nD) : S4096x1.Idx → EReal := fun i =>
  Ideal.log (∑ f : Fin 256, Cert.Spec.expRow (fun (a : Fin 4096) (k : Fin 256) => arr1_0 V c (ix2 a k))
    (fun (k g : Fin 256) => arr1_1 V c (ix2 k g)) (i 0) f * arr1_2 V c (ix2 (0 : Fin 1) f))

/-- What point `t` writes back to window 4's array is block `t` of `G1_4`. -/
theorem flushed1_4_eq (c : Dev nD) (t : Fin cfg1.N) :
    (dat1 (F := Ideal) V c).flushed 4 t = ((cfg1.win 4).blk t).view.read (Elt Ideal) (G1_4 V c) := by
  show (cfg1.win 4).cut (grid1.coords t) ((dat1 V c).after 4 t) = _
  rw [after1_4]
  unfold out1_4
  rw [View.canon_unit_zero hz]
  simp only [View.ld_unit_zero (S := S1024x256) hz, View.ld_unit_zero (S := S256x256) hz, View.ld_unit_zero (S := S1x256) hz]
  obtain ⟨-, -, -, -, -, -, -, -, e8, e9⟩ := idx_facts1 t
  have ht := lt_N1 t
  funext j
  obtain ⟨p, u, rfl⟩ : ∃ (p : Fin 1024) (u : Fin 1), j = ix2 p u := ⟨j 0, j 1, eq_ix2 j⟩
  have hn : t.val * 1024 + p.val < 4096 := by have := p.isLt; omega
  show k1_pay3 (iblk1 V c 0 t) (iblk1 V c 1 t) (iblk1 V c 2 t) (ix2 p u) = G1_4 V c (((cfg1.win 4).blk t).view.emb (ix2 p u))
  have hemb : ((cfg1.win 4).blk t).view.emb (ix2 p u) = ix2 (⟨t.val * 1024 + p.val, hn⟩ : Fin 4096) (0 : Fin 1) := by
    funext a; apply Fin.ext
    match a with
    | ⟨0, _⟩ => show win1_4.index t (0 : Fin 2) * 1024 + 1 * p.val = t.val * 1024 + p.val; omega
    | ⟨1, _⟩ => show win1_4.index t (1 : Fin 2) * 1 + 1 * u.val = 0; omega
  rw [hemb]
  unfold G1_4
  exact pay3_block _ _ _ (arr1_0 V c) (arr1_1 V c) (arr1_2 V c) ⟨t.val * 1024 + p.val, hn⟩ p u
    (fun k => iblk1_0_apply V c t p k ⟨_, hn⟩ rfl) (fun k g => iblk1_1_apply V c t k g) (fun f => iblk1_2_apply V c t f)

/-- An index of window 4's array is in point `t`'s block iff each coordinate is in the block's range. -/
theorem mem_blk1_4 (t : Fin cfg1.N) (i : S4096x1.Idx) :
    i ∈ ((cfg1.win 4).blk t).view.set ↔ ∀ a : Fin 2, win1_4.index t a * S1024x1.size a ≤ (i a).val ∧ (i a).val < win1_4.index t a * S1024x1.size a + S1024x1.size a := by
  show i ∈ ((View.whole main_v1_1).slice (win1_4.rect t)).set ↔ _
  rw [View.set_slice_whole, Rect.mem_set_unit]
  exact Iff.rfl

/-- Every index of window 4's array is in the block of the point its row falls in. -/
theorem covered1_4 (i : S4096x1.Idx) : ∃ t : Fin cfg1.N, (cfg1.win 4).flush t = true ∧ i ∈ ((cfg1.win 4).blk t).view.set := by
  have hi0 : (i 0).val < 4096 := (i 0).isLt
  have hi1 : (i 1).val < 1 := (i 1).isLt
  have hN : cfg1.N = 4 := N_1
  obtain ⟨t, ht⟩ : ∃ t : Fin cfg1.N, t.val = (i 0).val / 1024 := ⟨⟨(i 0).val / 1024, by rw [hN]; omega⟩, rfl⟩
  obtain ⟨-, -, -, -, -, -, -, -, e8, e9⟩ := idx_facts1 t
  refine ⟨t, flush1_4 t, ?_⟩
  rw [mem_blk1_4]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 1 ≤ (i 1).val ∧ (i 1).val < win1_4.index t (1 : Fin 2) * 1 + 1; omega

/-- Window 4's array after the region: the log of each row's weighted sum of shifted exponentials. -/
theorem final1_4 (c : Dev nD) (n : Fin 4096) :
    (dat1 (F := Ideal) V c).arrAt 4 cfg1.N (ix2 n (0 : Fin 1))
      = Ideal.log (∑ f : Fin 256, Cert.Spec.expRow (fun (a : Fin 4096) (k : Fin 256) => arr1_0 V c (ix2 a k))
          (fun (k g : Fin 256) => arr1_1 V c (ix2 k g)) n f * arr1_2 V c (ix2 (0 : Fin 1) f)) :=
  congrFun ((dat1 (F := Ideal) V c).arrAt_eq_of_cover 4 (G1_4 V c) (fun t _ => flushed1_4_eq V c t) covered1_4) (ix2 n (0 : Fin 1))

end Blocks4

end Cert.KernelIdeal.Val
end
-- ==== Proof.LibDotNT.lean ====
/-
  A matrix product that contracts the LAST axis of both operands, [M,K] × [N,K] → [M,N] (the right operand used
  transposed: q·kᵀ, x·Wᵀ), accumulated into the zero matrix and read at (i, j) over the extended reals:
  the sum over k of l(i,k) · r(j,k).
-/
import Idealize.ShloMosaic.PureOps.Ideal.Laws
import Idealize.ShloMosaic.Lib.ValueIdx

namespace Idealize.ShloMosaic.ValueIdx

open Idealize.ShloMosaic

/-- A `tpu.matmul` with dimension numbers ⟨[1],[1],[0],[0],[],[]⟩ into the zero accumulator, at `(i, j)`, is
    `∑ k, l (i, k) * r (j, k)`. The record is any with those dimension numbers (`hr`, `hs`: its contraction shape has one
    axis of extent `K`; for a printed record both are `rfl`). -/
theorem matmul_nt_zero_apply {M N K : ℕ} {φ₁ φ₂ : FTy}
    (D : DotDims (⟨2, ![M, K]⟩ : Shape) ⟨2, ![N, K]⟩ ⟨2, ![M, N]⟩)
    (hlc : D.lhsContracting = [1]) (hrc : D.rhsContracting = [1])
    (hln : D.lhsNonContracting = [0]) (hrn : D.rhsNonContracting = [0])
    (hlb : D.lhsBatch = []) (hrb : D.rhsBatch = [])
    (hr : D.contr.rank = 1) (hs : D.contr.size ⟨0, by omega⟩ = K)
    (prec : Option ContractPrecision)
    (l : FVec Ideal (⟨2, ![M, K]⟩ : Shape) φ₁) (r : FVec Ideal (⟨2, ![N, K]⟩ : Shape) φ₂) (i : Fin M) (j : Fin N) :
    FloatOps.matmul D prec l r (constant (⟨2, ![M, N]⟩ : Shape) .f32 0x00000000#32) (ix2 i j)
      = ∑ k : Fin K, l (ix2 i k) * r (ix2 j k) := by
  rw [Ideal.matmul_constant_zero_apply, ← Equiv.sum_comp (contrEquiv1 D K hr hs).symm]
  refine Finset.sum_congr rfl fun k _ => ?_
  have hk := contrEquiv1_symm_val D K hr hs k
  have key : ∀ (p : ℕ) (hp : p < (⟨2, ![M, N]⟩ : Shape).rank) (q : Fin 2), p = q.val → ((ix2 i j) ⟨p, hp⟩).val = ((ix2 i j) q).val :=
    fun p hp q h => by subst h; rfl
  have el : D.lhsIdx (ix2 i j) ((contrEquiv1 D K hr hs).symm k) = ix2 i k := funext fun a => Fin.ext (by
    match a with
    | ⟨0, _⟩ =>
      unfold DotDims.lhsIdx
      rw [dif_neg (by rw [hlb]; exact List.not_mem_nil), dif_pos (by rw [hln]; exact List.mem_singleton.mpr rfl)]
      simp only [Fin.val_cast]
      exact key _ _ 0 (by simp [hlb, hln])
    | ⟨1, _⟩ => exact (D.lhsIdx_val_of_single hlc _ _).trans hk)
  have er : D.rhsIdx (ix2 i j) ((contrEquiv1 D K hr hs).symm k) = ix2 j k := funext fun a => Fin.ext (by
    match a with
    | ⟨0, _⟩ =>
      unfold DotDims.rhsIdx
      rw [dif_neg (by rw [hrb]; exact List.not_mem_nil), dif_pos (by rw [hrn]; exact List.mem_singleton.mpr rfl)]
      simp only [Fin.val_cast]
      exact key _ _ 1 (by simp [hlb, hln, hrn])
    | ⟨1, _⟩ => exact (D.rhsIdx_val_of_single hrc _ _).trans hk)
  rw [el, er]

end Idealize.ShloMosaic.ValueIdx
-- ==== Proof.KI.Val2.lean ====
import proofs.«170462_j60730837566028_1_alg».proof.Proof.KI.Reg2
import proofs.«170462_j60730837566028_1_alg».proof.Proof.Spec
import proofs.«170462_j60730837566028_1_alg».proof.Proof.LibColumn
import proofs.«170462_j60730837566028_1_alg».proof.Proof.LibRowSum
import proofs.«170462_j60730837566028_1_alg».proof.Proof.LibDotNT
import Idealize.ShloMosaic.Lib.Pipeline.Value
import Idealize.ShloMosaic.Lib.ValueIdx
import Idealize.ShloMosaic.Lib.ValueLayout
import Idealize.ShloMosaic.PureOps.Ideal.Laws

/-! The value of a region's output arrays over the extended reals, as whole-array functions of the arrays the region
    finds: the payload at an entry, each block as rows of the arrays, the write-backs' cover. -/

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

theorem hz2 : (![0, 0] : Fin 2 → Nat) = fun _ => 0 := funext fun a => by fin_cases a <;> rfl

/-- The stored value at an entry: the log of the row-by-row product, plus the row term, minus the scalar, minus the column term. -/
theorem pay_apply (v0 : Vec Ideal S1024x256 .bf16) (v2 : Vec Ideal S2048x256 .bf16) (v6 : Vec Ideal S1x2048 .f32)
    (v10 : Vec Ideal S1x1 .f32) (v14 : Vec Ideal S1024x1 .f32) (p : Fin 1024) (q : Fin 2048) :
    k2_pay1 v0 v2 v6 v10 v14 (ix2 p q)
      = ((Ideal.log (∑ k : Fin 256, v0 (ix2 p k) * v2 (ix2 q k)) + v6 (ix2 (0 : Fin 1) q)) - v10 (ix2 (0 : Fin 1) (0 : Fin 1)))
          - v14 (ix2 p (0 : Fin 1)) := by
  unfold k2_pay1
  simp only [shapeCast_self]
  show ((Ideal.log (matmul (F := Ideal) dot_S1024x256_S2048x256_S1024x2048_1_1_0_0_n_n none v0 v2 (constant (F := Ideal) S1024x2048 .f32 0x00000000#32) (ix2 p q))
      + broadcastTo S1024x2048 v6 broadcasts_S1x2048_S1024x2048 (ix2 p q))
      - extractAt ![0, 0] v10 inpos_S1x1_p0_0)
      - broadcastTo S1024x2048 v14 broadcasts_S1024x1_S1024x2048 (ix2 p q) = _
  rw [broadcastTo_1b_ab_apply, broadcastTo_a1_ab_apply]
  have hm : matmul (F := Ideal) (φ₁ := .bf16) (φ₂ := .bf16) dot_S1024x256_S2048x256_S1024x2048_1_1_0_0_n_n none v0 v2 (constant (F := Ideal) S1024x2048 .f32 0x00000000#32) (ix2 p q)
      = ∑ k : Fin 256, v0 (ix2 p k) * v2 (ix2 q k) :=
    matmul_nt_zero_apply (φ₁ := .bf16) (φ₂ := .bf16) dot_S1024x256_S2048x256_S1024x2048_1_1_0_0_n_n rfl rfl rfl rfl rfl rfl rfl rfl none v0 v2 p q
  have he : extractAt ![0, 0] v10 inpos_S1x1_p0_0 = v10 (ix2 (0 : Fin 1) (0 : Fin 1)) :=
    congrArg v10 (idx2_ext _ 0 0 rfl rfl)
  rw [hm, he]

/-- The same at an entry of a block whose rows and columns are those of whole arrays. -/
theorem pay_block (v0 : Vec Ideal S1024x256 .bf16) (v2 : Vec Ideal S2048x256 .bf16) (v6 : Vec Ideal S1x2048 .f32)
    (v10 : Vec Ideal S1x1 .f32) (v14 : Vec Ideal S1024x1 .f32)
    (A : S4096x256.Idx → EReal) (B : S32768x256.Idx → EReal) (R : S1x32768.Idx → EReal) (Z : S1x1.Idx → EReal) (D : S4096x1.Idx → EReal)
    (n : Fin 4096) (m : Fin 32768) (p : Fin 1024) (q : Fin 2048)
    (h0 : ∀ k : Fin 256, v0 (ix2 p k) = A (ix2 n k)) (h2 : ∀ k : Fin 256, v2 (ix2 q k) = B (ix2 m k))
    (h6 : v6 (ix2 (0 : Fin 1) q) = R (ix2 (0 : Fin 1) m)) (h10 : v10 (ix2 (0 : Fin 1) (0 : Fin 1)) = Z (ix2 (0 : Fin 1) (0 : Fin 1)))
    (h14 : v14 (ix2 p (0 : Fin 1)) = D (ix2 n (0 : Fin 1))) :
    k2_pay1 v0 v2 v6 v10 v14 (ix2 p q)
      = ((Ideal.log (∑ f : Fin 256, A (ix2 n f) * B (ix2 m f)) + R (ix2 (0 : Fin 1) m)) - Z (ix2 (0 : Fin 1) (0 : Fin 1)))
          - D (ix2 n (0 : Fin 1)) := by
  rw [pay_apply, h6, h10, h14]
  simp only [h0, h2]

section Blocks
variable (V : (c : Dev nD) → (b : Ref sig .tc) → Buf (Elt Ideal) ((c : Thread nD τ).loc b))

/-- The arrays the region finds, as index functions over the extended reals: the two tables of exponentials, the row of
    maxima, the final maximum, the column of logs. -/
abbrev arr2_0 (c : Dev nD) : S4096x256.Idx → EReal := V c main_v1_0
abbrev arr2_1 (c : Dev nD) : S32768x256.Idx → EReal := V c main_v0_0
abbrev arr2_2 (c : Dev nD) : S1x32768.Idx → EReal := V c main_v0_1
abbrev arr2_3 (c : Dev nD) : S1x1.Idx → EReal := V c main_v0_3
abbrev arr2_4 (c : Dev nD) : S4096x1.Idx → EReal := V c main_v1_1

/-- The printed index maps over the 64 grid points `t = 16 i + j`: the row-blocked windows follow `i`, the
    column-blocked ones `j`, the scalar stays. -/
theorem idx_facts2 : ∀ t : Fin cfg2.N,
    win2_0.index t (0 : Fin 2) = t.val / 16 ∧ win2_0.index t (1 : Fin 2) = 0
    ∧ win2_1.index t (0 : Fin 2) = t.val % 16 ∧ win2_1.index t (1 : Fin 2) = 0
    ∧ win2_2.index t (0 : Fin 2) = 0 ∧ win2_2.index t (1 : Fin 2) = t.val % 16
    ∧ win2_3.index t (0 : Fin 2) = 0 ∧ win2_3.index t (1 : Fin 2) = 0
    ∧ win2_4.index t (0 : Fin 2) = t.val / 16 ∧ win2_4.index t (1 : Fin 2) = 0
    ∧ win2_5.index t (0 : Fin 2) = t.val / 16 ∧ win2_5.index t (1 : Fin 2) = t.val % 16 :=
  (by decide +kernel : ∀ t : Fin grid2.N, _)

theorem lt_N2 (t : Fin cfg2.N) : t.val < 64 := lt_of_lt_of_eq t.isLt N_2

/-- Window 0's block at point `t` is rows `1024 (t / 16) …` of the exponentials' table. -/
theorem iblk2_0_apply (c : Dev nD) (t : Fin cfg2.N) (p : Fin 1024) (k : Fin 256) (n : Fin 4096) (hn : n.val = t.val / 16 * 1024 + p.val) :
    (iblk2 V c 0 t : Vec Ideal S1024x256 .bf16) (ix2 p k) = arr2_0 V c (ix2 n k) := by
  obtain ⟨e0, e1, -⟩ := idx_facts2 t
  unfold iblk2
  rw [View.read_apply]
  show V c main_v1_0 _ = V c main_v1_0 _
  congr 1
  funext a; apply Fin.ext
  match a with
  | ⟨0, _⟩ => show win2_0.index t (0 : Fin 2) * 1024 + 1 * p.val = n.val; omega
  | ⟨1, _⟩ => show win2_0.index t (1 : Fin 2) * 256 + 1 * k.val = k.val; omega

/-- Window 1's block at point `t` is rows `2048 (t % 16) …` of the second exponentials' table. -/
theorem iblk2_1_apply (c : Dev nD) (t : Fin cfg2.N) (q : Fin 2048) (k : Fin 256) (m : Fin 32768) (hm : m.val = t.val % 16 * 2048 + q.val) :
    (iblk2 V c 1 t : Vec Ideal S2048x256 .bf16) (ix2 q k) = arr2_1 V c (ix2 m k) := by
  obtain ⟨-, -, e2, e3, -⟩ := idx_facts2 t
  unfold iblk2
  rw [View.read_apply]
  show V c main_v0_0 _ = V c main_v0_0 _
  congr 1
  funext a; apply Fin.ext
  match a with
  | ⟨0, _⟩ => show win2_1.index t (0 : Fin 2) * 2048 + 1 * q.val = m.val; omega
  | ⟨1, _⟩ => show win2_1.index t (1 : Fin 2) * 256 + 1 * k.val = k.val; omega

/-- Window 2's block at point `t` is columns `2048 (t % 16) …` of the row of maxima. -/
theorem iblk2_2_apply (c : Dev nD) (t : Fin cfg2.N) (q : Fin 2048) (m : Fin 32768) (hm : m.val = t.val % 16 * 2048 + q.val) :
    (iblk2 V c 2 t : Vec Ideal S1x2048 .f32) (ix2 (0 : Fin 1) q) = arr2_2 V c (ix2 (0 : Fin 1) m) := by
  obtain ⟨-, -, -, -, e4, e5, -⟩ := idx_facts2 t
  unfold iblk2
  rw [View.read_apply]
  show V c main_v0_1 _ = V c main_v0_1 _
  congr 1
  funext a; apply Fin.ext
  match a with
  | ⟨0, _⟩ => show win2_2.index t (0 : Fin 2) * 1 + 1 * 0 = 0; omega
  | ⟨1, _⟩ => show win2_2.index t (1 : Fin 2) * 2048 + 1 * q.val = m.val; omega

/-- Window 3's block is the scalar. -/
theorem iblk2_3_apply (c : Dev nD) (t : Fin cfg2.N) :
    (iblk2 V c 3 t : Vec Ideal S1x1 .f32) (ix2 (0 : Fin 1) (0 : Fin 1)) = arr2_3 V c (ix2 (0 : Fin 1) (0 : Fin 1)) := by
  obtain ⟨-, -, -, -, -, -, e6, e7, -⟩ := idx_facts2 t
  unfold iblk2
  rw [View.read_apply]
  show V c main_v0_3 _ = V c main_v0_3 _
  congr 1
  funext a; apply Fin.ext
  match a with
  | ⟨0, _⟩ => show win2_3.index t (0 : Fin 2) * 1 + 1 * 0 = 0; omega
  | ⟨1, _⟩ => show win2_3.index t (1 : Fin 2) * 1 + 1 * 0 = 0; omega

/-- Window 4's block at point `t` is rows `1024 (t / 16) …` of the column of logs. -/
theorem iblk2_4_apply (c : Dev nD) (t : Fin cfg2.N) (p : Fin 1024) (n : Fin 4096) (hn : n.val = t.val / 16 * 1024 + p.val) :
    (iblk2 V c 4 t : Vec Ideal S1024x1 .f32) (ix2 p (0 : Fin 1)) = arr2_4 V c (ix2 n (0 : Fin 1)) := by
  obtain ⟨-, -, -, -, -, -, -, -, e8, e9, -⟩ := idx_facts2 t
  unfold iblk2
  rw [View.read_apply]
  show V c main_v1_1 _ = V c main_v1_1 _
  congr 1
  funext a; apply Fin.ext
  match a with
  | ⟨0, _⟩ => show win2_4.index t (0 : Fin 2) * 1024 + 1 * p.val = n.val; omega
  | ⟨1, _⟩ => show win2_4.index t (1 : Fin 2) * 1 + 1 * 0 = 0; omega

/-- What window 5's array ends holding. -/
def G2_5 (c : Dev nD) : S4096x32768.Idx → EReal := fun i =>
  ((Ideal.log (∑ f : Fin 256, arr2_0 V c (ix2 (i 0) f) * arr2_1 V c (ix2 (i 1) f))
      + arr2_2 V c (ix2 (0 : Fin 1) (i 1)))
    - arr2_3 V c (ix2 (0 : Fin 1) (0 : Fin 1)))
    - arr2_4 V c (ix2 (i 0) (0 : Fin 1))

/-- What point `t` writes back to window 5's array is block `t` of `G2_5`. -/
theorem flushed2_5_eq (c : Dev nD) (t : Fin cfg2.N) :
    (dat2 (F := Ideal) V c).flushed 5 t = ((cfg2.win 5).blk t).view.read (Elt Ideal) (G2_5 V c) := by
  show (cfg2.win 5).cut (grid2.coords t) ((dat2 V c).after 5 t) = _
  rw [after2_5]
  unfold out2_5
  rw [View.canon_unit_zero hz2]
  simp only [View.ld_unit_zero (S := S1024x256) hz2, View.ld_unit_zero (S := S2048x256) hz2, View.ld_unit_zero (S := S1x2048) hz2,
    View.ld_unit_zero (S := S1x1) hz2, View.ld_unit_zero (S := S1024x1) hz2]
  obtain ⟨-, -, -, -, -, -, -, -, -, -, e10, e11⟩ := idx_facts2 t
  have ht := lt_N2 t
  funext j
  obtain ⟨p, q, rfl⟩ : ∃ (p : Fin 1024) (q : Fin 2048), j = ix2 p q := ⟨j 0, j 1, eq_ix2 j⟩
  have hn : t.val / 16 * 1024 + p.val < 4096 := by have := p.isLt; omega
  have hm : t.val % 16 * 2048 + q.val < 32768 := by have := q.isLt; omega
  show k2_pay1 (iblk2 V c 0 t) (iblk2 V c 1 t) (iblk2 V c 2 t) (iblk2 V c 3 t) (iblk2 V c 4 t) (ix2 p q)
    = G2_5 V c (((cfg2.win 5).blk t).view.emb (ix2 p q))
  have hemb : ((cfg2.win 5).blk t).view.emb (ix2 p q)
      = ix2 (⟨t.val / 16 * 1024 + p.val, hn⟩ : Fin 4096) (⟨t.val % 16 * 2048 + q.val, hm⟩ : Fin 32768) := by
    funext a; apply Fin.ext
    match a with
    | ⟨0, _⟩ => show win2_5.index t (0 : Fin 2) * 1024 + 1 * p.val = t.val / 16 * 1024 + p.val; omega
    | ⟨1, _⟩ => show win2_5.index t (1 : Fin 2) * 2048 + 1 * q.val = t.val % 16 * 2048 + q.val; omega
  rw [hemb]
  unfold G2_5
  exact pay_block _ _ _ _ _ (arr2_0 V c) (arr2_1 V c) (arr2_2 V c) (arr2_3 V c) (arr2_4 V c)
    ⟨t.val / 16 * 1024 + p.val, hn⟩ ⟨t.val % 16 * 2048 + q.val, hm⟩ p q
    (fun k => iblk2_0_apply V c t p k ⟨_, hn⟩ rfl) (fun k => iblk2_1_apply V c t q k ⟨_, hm⟩ rfl)
    (iblk2_2_apply V c t q ⟨_, hm⟩ rfl) (iblk2_3_apply V c t) (iblk2_4_apply V c t p ⟨_, hn⟩ rfl)

/-- An index of window 5's array is in point `t`'s block iff each coordinate is in the block's range. -/
theorem mem_blk2_5 (t : Fin cfg2.N) (i : S4096x32768.Idx) :
    i ∈ ((cfg2.win 5).blk t).view.set ↔ ∀ a : Fin 2, win2_5.index t a * S1024x2048.size a ≤ (i a).val ∧ (i a).val < win2_5.index t a * S1024x2048.size a + S1024x2048.size a := by
  show i ∈ ((View.whole main_v2).slice (win2_5.rect t)).set ↔ _
  rw [View.set_slice_whole, Rect.mem_set_unit]
  exact Iff.rfl

/-- Every index of window 5's array is in the block of the point its row and column fall in. -/
theorem covered2_5 (i : S4096x32768.Idx) : ∃ t : Fin cfg2.N, (cfg2.win 5).flush t = true ∧ i ∈ ((cfg2.win 5).blk t).view.set := by
  have hi0 : (i 0).val < 4096 := (i 0).isLt
  have hi1 : (i 1).val < 32768 := (i 1).isLt
  have hN : cfg2.N = 64 := N_2
  obtain ⟨t, ht⟩ : ∃ t : Fin cfg2.N, t.val = (i 0).val / 1024 * 16 + (i 1).val / 2048 := ⟨⟨(i 0).val / 1024 * 16 + (i 1).val / 2048, by rw [hN]; omega⟩, rfl⟩
  obtain ⟨-, -, -, -, -, -, -, -, -, -, e10, e11⟩ := idx_facts2 t
  refine ⟨t, flush2_5 t, ?_⟩
  rw [mem_blk2_5]
  intro a
  match a with
  | ⟨0, _⟩ => show win2_5.index t (0 : Fin 2) * 1024 ≤ (i 0).val ∧ (i 0).val < win2_5.index t (0 : Fin 2) * 1024 + 1024; omega
  | ⟨1, _⟩ => show win2_5.index t (1 : Fin 2) * 2048 ≤ (i 1).val ∧ (i 1).val < win2_5.index t (1 : Fin 2) * 2048 + 2048; omega

/-- Window 5's array after the region. -/
theorem final2_5 (c : Dev nD) (n : Fin 4096) (m : Fin 32768) :
    (dat2 (F := Ideal) V c).arrAt 5 cfg2.N (ix2 n m)
      = ((Ideal.log (∑ f : Fin 256, arr2_0 V c (ix2 n f) * arr2_1 V c (ix2 m f))
          + arr2_2 V c (ix2 (0 : Fin 1) m))
        - arr2_3 V c (ix2 (0 : Fin 1) (0 : Fin 1)))
        - arr2_4 V c (ix2 n (0 : Fin 1)) :=
  congrFun ((dat2 (F := Ideal) V c).arrAt_eq_of_cover 5 (G2_5 V c) (fun t _ => flushed2_5_eq V c t) covered2_5) (ix2 n m)

end Blocks

end Cert.KernelIdeal.Val
end
-- ==== Proof.KI.KerCompose.lean ====
import proofs.«170462_j60730837566028_1_alg».proof.Proof.KI.Plumb
import proofs.«170462_j60730837566028_1_alg».proof.Proof.KI.Val1b
import proofs.«170462_j60730837566028_1_alg».proof.Proof.KI.Val2
import proofs.«170462_j60730837566028_1_alg».proof.Proof.Spec

/-! The three regions composed: the result array after the run, entry by entry, is the tiled computation of the
    specification applied to the three argument arrays. -/

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

/-- The three argument arrays by coordinates. -/
abbrev seArg (c : Dev nD) : Fin 4096 → Fin 256 → EReal := fun a k => (m ((c : Thread nD τ).loc main_arg0) : S4096x256.Idx → EReal) (ix2 a k)
abbrev oeArg (c : Dev nD) : Fin 32768 → Fin 256 → EReal := fun a k => (m ((c : Thread nD τ).loc main_arg1) : S32768x256.Idx → EReal) (ix2 a k)
abbrev pjArg (c : Dev nD) : Fin 256 → Fin 256 → EReal := fun k g => (m ((c : Thread nD τ).loc main_arg2) : S256x256.Idx → EReal) (ix2 k g)

/-- The first table of exponentials, as the last region finds it. -/
theorem arr2_0_eq (c : Dev nD) (n : Fin 4096) (f : Fin 256) :
    arr2_0 (V2 m ρ) c (ix2 n f) = Cert.Spec.expRow (seArg m c) (pjArg m c) n f := by
  refine (congrFun (V2_main_v1_0 m ρ c) (ix2 n f)).trans ?_
  refine (final1_3 (V1 m ρ) c n f).trans ?_
  rw [V1_main_arg0, V1_main_arg2]

/-- The composition, from what the first region leaves in its four output arrays. -/
theorem ker_eq_of (c : Dev nD) (n : Fin 4096) (mm : Fin 32768)
    (h02 : ∀ (r : Fin 32768) (f : Fin 256), (dat0 (F := Ideal) (V0 m ρ) c).arrAt 2 cfg0.N (ix2 r f) = Cert.Spec.expRow (oeArg m c) (pjArg m c) r f)
    (h03 : ∀ r : Fin 32768, (dat0 (F := Ideal) (V0 m ρ) c).arrAt 3 cfg0.N (ix2 (0 : Fin 1) r) = Cert.Spec.rowMax (oeArg m c) (pjArg m c) r)
    (h04 : ∀ f : Fin 256, (dat0 (F := Ideal) (V0 m ρ) c).arrAt 4 cfg0.N (ix2 (0 : Fin 1) f) = Cert.Spec.Sfin (oeArg m c) (pjArg m c) f)
    (h05 : (dat0 (F := Ideal) (V0 m ρ) c).arrAt 5 cfg0.N (ix2 (0 : Fin 1) (0 : Fin 1)) = Cert.Spec.Bfin (oeArg m c) (pjArg m c)) :
    (dat2 (F := Ideal) (V2 m ρ) c).arrAt 5 cfg2.N (ix2 n mm) = Cert.Spec.kerOut (seArg m c) (oeArg m c) (pjArg m c) n mm := by
  have e1 : ∀ f : Fin 256, arr2_1 (V2 m ρ) c (ix2 mm f) = Cert.Spec.expRow (oeArg m c) (pjArg m c) mm f := fun f =>
    (congrFun (V2_main_v0_0 m ρ c) (ix2 mm f)).trans (h02 mm f)
  have e2 : arr2_2 (V2 m ρ) c (ix2 (0 : Fin 1) mm) = Cert.Spec.rowMax (oeArg m c) (pjArg m c) mm :=
    (congrFun (V2_main_v0_1 m ρ c) (ix2 (0 : Fin 1) mm)).trans (h03 mm)
  have e3 : arr2_3 (V2 m ρ) c (ix2 (0 : Fin 1) (0 : Fin 1)) = Cert.Spec.Bfin (oeArg m c) (pjArg m c) :=
    (congrFun (V2_main_v0_3 m ρ c) (ix2 (0 : Fin 1) (0 : Fin 1))).trans h05
  have e5 : ∀ f : Fin 256, arr1_2 (V1 m ρ) c (ix2 (0 : Fin 1) f) = Cert.Spec.Sfin (oeArg m c) (pjArg m c) f := fun f =>
    (congrFun (V1_main_v0_2 m ρ c) (ix2 (0 : Fin 1) f)).trans (h04 f)
  have e4 : arr2_4 (V2 m ρ) c (ix2 n (0 : Fin 1)) = Cert.Spec.dvec (seArg m c) (oeArg m c) (pjArg m c) n := by
    refine (congrFun (V2_main_v1_1 m ρ c) (ix2 n (0 : Fin 1))).trans ?_
    refine (final1_4 (V1 m ρ) c n).trans ?_
    unfold Cert.Spec.dvec
    refine congrArg Ideal.log (Finset.sum_congr rfl fun f _ => ?_)
    rw [e5 f]
    show Cert.Spec.expRow (fun (a : Fin 4096) (k : Fin 256) => (V1 m ρ c main_arg0 : S4096x256.Idx → EReal) (ix2 a k))
      (fun (k g : Fin 256) => (V1 m ρ c main_arg2 : S256x256.Idx → EReal) (ix2 k g)) n f * _ = _
    rw [V1_main_arg0, V1_main_arg2]
  have e0 : ∀ f : Fin 256, arr2_0 (V2 m ρ) c (ix2 n f) = Cert.Spec.expRow (seArg m c) (pjArg m c) n f := fun f =>
    arr2_0_eq m ρ c n f
  rw [final2_5, e2, e3, e4]
  unfold Cert.Spec.kerOut Cert.Spec.gram
  simp only [e0, e1]

end Cert.KernelIdeal.Val
end
-- ==== Proof.KI.Val0Pieces.lean ====
/-
  What each control case of region 0's body leaves in each of its buffers, as the body's named arithmetic of the
  blocks it loaded and of the two carried buffers' old contents; for any float values.
-/
import proofs.«170462_j60730837566028_1_alg».proof.Proof.KI.R0Frame
import Idealize.ShloMosaic.Lib.ValueIdx
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]

theorem hz0 : (![0, 0] : Fin 2 → Nat) = fun _ => 0 := funext fun a => by fin_cases a <;> rfl

theorem sB0 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : ¬cond0_1 i) (x0 : Vec F S4096x256 .f32) (x1 : Vec F S256x256 .f32) (xs0 : Vec F S1x256 .f32) (xs1 : Vec F S1x1 .f32) :
    sout0_B_0 c i arg1 harg1 arg2 harg2 arg3 harg3 arg4 harg4 arg5 harg5 arg6 harg6 arg7 harg7 arg8 harg8 hc0 hc1 x0 x1 xs0 xs1 = k0_pay10 x0 x1 xs1 xs0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 xs0 xs1)]
  unfold kernelRun0_B
  dsimp only
  try sl_unfold_words
  rw [View.canon_unit_zero (S := S1x256) hz0]
  try simp only [View.readAt_eq_ld, harg1.read_unread, harg2.read_unread, harg7.read_unread, harg8.read_unread, View.ld_unit_zero (S := S4096x256) hz0, View.ld_unit_zero (S := S256x256) hz0, View.ld_unit_zero (S := S1x256) hz0, View.ld_unit_zero (S := S1x1) hz0]

theorem sB1 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : ¬cond0_1 i) (x0 : Vec F S4096x256 .f32) (x1 : Vec F S256x256 .f32) (xs0 : Vec F S1x256 .f32) (xs1 : Vec F S1x1 .f32) :
    sout0_B_1 c i arg1 harg1 arg2 harg2 arg3 harg3 arg4 harg4 arg5 harg5 arg6 harg6 arg7 harg7 arg8 harg8 hc0 hc1 x0 x1 xs0 xs1 = k0_pay1 (k0_pay9 x0 x1 xs1) := by
  unfold sout0_B_1
  rw [View.read_writes_eq_canon _ _ _ (scover0_B_1 c i arg1 harg1 arg2 harg2 arg3 harg3 arg4 harg4 arg5 harg5 arg6 harg6 arg7 harg7 arg8 harg8 hc0 hc1 x0 x1 xs0 xs1)]
  unfold kernelRun0_B
  dsimp only
  try sl_unfold_words
  rw [View.canon_unit_zero (S := S1x1) hz0]
  try simp only [View.readAt_eq_ld, harg1.read_unread, harg2.read_unread, harg7.read_unread, harg8.read_unread, View.ld_unit_zero (S := S4096x256) hz0, View.ld_unit_zero (S := S256x256) hz0, View.ld_unit_zero (S := S1x256) hz0, View.ld_unit_zero (S := S1x1) hz0]

theorem oB2 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : ¬cond0_1 i) (x0 : Vec F S4096x256 .f32) (x1 : Vec F S256x256 .f32) (xs0 : Vec F S1x256 .f32) (xs1 : Vec F S1x1 .f32) :
    out0_B_2 c i arg1 harg1 arg2 harg2 arg3 harg3 arg4 harg4 arg5 harg5 arg6 harg6 arg7 harg7 arg8 harg8 hc0 hc1 x0 x1 xs0 xs1 = k0_pay7 x0 x1 := by
  unfold out0_B_2
  rw [View.read_writes_eq_canon _ _ _ (cover0_B_2 c i arg1 harg1 arg2 harg2 arg3 harg3 arg4 harg4 arg5 harg5 arg6 harg6 arg7 harg7 arg8 harg8 hc0 hc1 x0 x1 xs0 xs1)]
  unfold kernelRun0_B
  dsimp only
  try sl_unfold_words
  rw [View.canon_unit_zero (S := S4096x256) hz0]
  try simp only [View.readAt_eq_ld, harg1.read_unread, harg2.read_unread, harg7.read_unread, harg8.read_unread, View.ld_unit_zero (S := S4096x256) hz0, View.ld_unit_zero (S := S256x256) hz0, View.ld_unit_zero (S := S1x256) hz0, View.ld_unit_zero (S := S1x1) hz0]

theorem oB3 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : ¬cond0_1 i) (x0 : Vec F S4096x256 .f32) (x1 : Vec F S256x256 .f32) (xs0 : Vec F S1x256 .f32) (xs1 : Vec F S1x1 .f32) :
    out0_B_3 c i arg1 harg1 arg2 harg2 arg3 harg3 arg4 harg4 arg5 harg5 arg6 harg6 arg7 harg7 arg8 harg8 hc0 hc1 x0 x1 xs0 xs1 = k0_pay8 x0 x1 := by
  unfold out0_B_3
  rw [View.read_writes_eq_canon _ _ _ (cover0_B_3 c i arg1 harg1 arg2 harg2 arg3 harg3 arg4 harg4 arg5 harg5 arg6 harg6 arg7 harg7 arg8 harg8 hc0 hc1 x0 x1 xs0 xs1)]
  unfold kernelRun0_B
  dsimp only
  try sl_unfold_words
  rw [View.canon_unit_zero (S := S1x4096) hz0]
  try simp only [View.readAt_eq_ld, harg1.read_unread, harg2.read_unread, harg7.read_unread, harg8.read_unread, View.ld_unit_zero (S := S4096x256) hz0, View.ld_unit_zero (S := S256x256) hz0, View.ld_unit_zero (S := S1x256) hz0, View.ld_unit_zero (S := S1x1) hz0]

theorem sC0 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) :
    sout0_C_0 c i arg1 harg1 arg2 harg2 arg3 harg3 arg4 harg4 arg5 harg5 arg6 harg6 arg7 harg7 arg8 harg8 hc0 hc1 x0 x1 xs0 xs1 = k0_pay10 x0 x1 xs1 xs0 := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 xs0 xs1)]
  unfold kernelRun0_C
  dsimp only
  try sl_unfold_words
  rw [View.canon_unit_zero (S := S1x256) hz0]
  try simp only [View.readAt_eq_ld, harg1.read_unread, harg2.read_unread, harg7.read_unread, harg8.read_unread, View.ld_unit_zero (S := S4096x256) hz0, View.ld_unit_zero (S := S256x256) hz0, View.ld_unit_zero (S := S1x256) hz0, View.ld_unit_zero (S := S1x1) hz0]

theorem sC1 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) :
    sout0_C_1 c i arg1 harg1 arg2 harg2 arg3 harg3 arg4 harg4 arg5 harg5 arg6 harg6 arg7 harg7 arg8 harg8 hc0 hc1 x0 x1 xs0 xs1 = k0_pay1 (k0_pay9 x0 x1 xs1) := by
  unfold sout0_C_1
  rw [View.read_writes_eq_canon _ _ _ (scover0_C_1 c i arg1 harg1 arg2 harg2 arg3 harg3 arg4 harg4 arg5 harg5 arg6 harg6 arg7 harg7 arg8 harg8 hc0 hc1 x0 x1 xs0 xs1)]
  unfold kernelRun0_C
  dsimp only
  try sl_unfold_words
  rw [View.canon_unit_zero (S := S1x1) hz0]
  try simp only [View.readAt_eq_ld, harg1.read_unread, harg2.read_unread, harg7.read_unread, harg8.read_unread, View.ld_unit_zero (S := S4096x256) hz0, View.ld_unit_zero (S := S256x256) hz0, View.ld_unit_zero (S := S1x256) hz0, View.ld_unit_zero (S := S1x1) hz0]

theorem oC2 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) :
    out0_C_2 c i arg1 harg1 arg2 harg2 arg3 harg3 arg4 harg4 arg5 harg5 arg6 harg6 arg7 harg7 arg8 harg8 hc0 hc1 x0 x1 xs0 xs1 = k0_pay7 x0 x1 := by
  unfold out0_C_2
  rw [View.read_writes_eq_canon _ _ _ (cover0_C_2 c i arg1 harg1 arg2 harg2 arg3 harg3 arg4 harg4 arg5 harg5 arg6 harg6 arg7 harg7 arg8 harg8 hc0 hc1 x0 x1 xs0 xs1)]
  unfold kernelRun0_C
  dsimp only
  try sl_unfold_words
  rw [View.canon_unit_zero (S := S4096x256) hz0]
  try simp only [View.readAt_eq_ld, harg1.read_unread, harg2.read_unread, harg7.read_unread, harg8.read_unread, View.ld_unit_zero (S := S4096x256) hz0, View.ld_unit_zero (S := S256x256) hz0, View.ld_unit_zero (S := S1x256) hz0, View.ld_unit_zero (S := S1x1) hz0]

theorem oC3 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) :
    out0_C_3 c i arg1 harg1 arg2 harg2 arg3 harg3 arg4 harg4 arg5 harg5 arg6 harg6 arg7 harg7 arg8 harg8 hc0 hc1 x0 x1 xs0 xs1 = k0_pay8 x0 x1 := by
  unfold out0_C_3
  rw [View.read_writes_eq_canon _ _ _ (cover0_C_3 c i arg1 harg1 arg2 harg2 arg3 harg3 arg4 harg4 arg5 harg5 arg6 harg6 arg7 harg7 arg8 harg8 hc0 hc1 x0 x1 xs0 xs1)]
  unfold kernelRun0_C
  dsimp only
  try sl_unfold_words
  rw [View.canon_unit_zero (S := S1x4096) hz0]
  try simp only [View.readAt_eq_ld, harg1.read_unread, harg2.read_unread, harg7.read_unread, harg8.read_unread, View.ld_unit_zero (S := S4096x256) hz0, View.ld_unit_zero (S := S256x256) hz0, View.ld_unit_zero (S := S1x256) hz0, View.ld_unit_zero (S := S1x1) hz0]

theorem oC4 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) :
    out0_C_4 c i arg1 harg1 arg2 harg2 arg3 harg3 arg4 harg4 arg5 harg5 arg6 harg6 arg7 harg7 arg8 harg8 hc0 hc1 x0 x1 xs0 xs1 = k0_pay10 x0 x1 xs1 xs0 := by
  unfold out0_C_4
  rw [View.read_writes_eq_canon _ _ _ (cover0_C_4 c i arg1 harg1 arg2 harg2 arg3 harg3 arg4 harg4 arg5 harg5 arg6 harg6 arg7 harg7 arg8 harg8 hc0 hc1 x0 x1 xs0 xs1)]
  unfold kernelRun0_C
  dsimp only
  try sl_unfold_words
  rw [View.canon_unit_zero (S := S1x256) hz0, View.readCov_unit_zero (S := S1x256) _ hz0]
  try simp only [View.readAt_eq_ld, harg1.read_unread, harg2.read_unread, harg7.read_unread, harg8.read_unread, View.ld_unit_zero (S := S4096x256) hz0, View.ld_unit_zero (S := S256x256) hz0, View.ld_unit_zero (S := S1x256) hz0, View.ld_unit_zero (S := S1x1) hz0]

theorem oC5 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : ¬cond0_0 i) (hc1 : cond0_1 i) (x0 : Vec F S4096x256 .f32) (x1 : Vec F S256x256 .f32) (xs0 : Vec F S1x256 .f32) (xs1 : Vec F S1x1 .f32) :
    out0_C_5 c i arg1 harg1 arg2 harg2 arg3 harg3 arg4 harg4 arg5 harg5 arg6 harg6 arg7 harg7 arg8 harg8 hc0 hc1 x0 x1 xs0 xs1 = k0_pay1 (k0_pay9 x0 x1 xs1) := by
  unfold out0_C_5
  rw [View.read_writes_eq_canon _ _ _ (cover0_C_5 c i arg1 harg1 arg2 harg2 arg3 harg3 arg4 harg4 arg5 harg5 arg6 harg6 arg7 harg7 arg8 harg8 hc0 hc1 x0 x1 xs0 xs1)]
  unfold kernelRun0_C
  dsimp only
  try sl_unfold_words
  rw [View.canon_unit_zero (S := S1x1) hz0, View.readCov_unit_zero (S := S1x1) _ hz0]
  try simp only [View.readAt_eq_ld, harg1.read_unread, harg2.read_unread, harg7.read_unread, harg8.read_unread, View.ld_unit_zero (S := S4096x256) hz0, View.ld_unit_zero (S := S256x256) hz0, View.ld_unit_zero (S := S1x256) hz0, View.ld_unit_zero (S := S1x1) hz0]

theorem sA0 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : cond0_0 i) (hc1 : ¬cond0_1 i) (x0 : Vec F S4096x256 .f32) (x1 : Vec F S256x256 .f32) :
    sout0_A_0 c i arg1 harg1 arg2 harg2 arg3 harg3 arg4 harg4 arg5 harg5 arg6 harg6 arg7 harg7 arg8 harg8 hc0 hc1 x0 x1 = k0_pay10 x0 x1 (k0_pay3 (F := F)) (k0_pay2 (F := F)) := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1)]
  unfold kernelRun0_A
  dsimp only
  try sl_unfold_words
  rw [View.canon_cons_unit_zero (S := S1x256) hz0, View.readCov_unit_zero (S := S1x1) _ hz0, View.readCov_unit_zero (S := S1x256) _ hz0]
  try simp only [View.readAt_eq_ld, harg1.read_unread, harg2.read_unread, harg7.read_unread, harg8.read_unread, View.ld_unit_zero (S := S4096x256) hz0, View.ld_unit_zero (S := S256x256) hz0, View.ld_unit_zero (S := S1x256) hz0, View.ld_unit_zero (S := S1x1) hz0]

theorem sA1 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : cond0_0 i) (hc1 : ¬cond0_1 i) (x0 : Vec F S4096x256 .f32) (x1 : Vec F S256x256 .f32) :
    sout0_A_1 c i arg1 harg1 arg2 harg2 arg3 harg3 arg4 harg4 arg5 harg5 arg6 harg6 arg7 harg7 arg8 harg8 hc0 hc1 x0 x1 = k0_pay1 (k0_pay9 x0 x1 (k0_pay3 (F := F))) := by
  unfold sout0_A_1
  rw [View.read_writes_eq_canon _ _ _ (scover0_A_1 c i arg1 harg1 arg2 harg2 arg3 harg3 arg4 harg4 arg5 harg5 arg6 harg6 arg7 harg7 arg8 harg8 hc0 hc1 x0 x1)]
  unfold kernelRun0_A
  dsimp only
  try sl_unfold_words
  rw [View.canon_cons_unit_zero (S := S1x1) hz0, View.readCov_unit_zero (S := S1x1) _ hz0]
  try simp only [View.readAt_eq_ld, harg1.read_unread, harg2.read_unread, harg7.read_unread, harg8.read_unread, View.ld_unit_zero (S := S4096x256) hz0, View.ld_unit_zero (S := S256x256) hz0, View.ld_unit_zero (S := S1x256) hz0, View.ld_unit_zero (S := S1x1) hz0]

theorem oA2 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : cond0_0 i) (hc1 : ¬cond0_1 i) (x0 : Vec F S4096x256 .f32) (x1 : Vec F S256x256 .f32) :
    out0_A_2 c i arg1 harg1 arg2 harg2 arg3 harg3 arg4 harg4 arg5 harg5 arg6 harg6 arg7 harg7 arg8 harg8 hc0 hc1 x0 x1 = k0_pay7 x0 x1 := by
  unfold out0_A_2
  rw [View.read_writes_eq_canon _ _ _ (cover0_A_2 c i arg1 harg1 arg2 harg2 arg3 harg3 arg4 harg4 arg5 harg5 arg6 harg6 arg7 harg7 arg8 harg8 hc0 hc1 x0 x1)]
  unfold kernelRun0_A
  dsimp only
  try sl_unfold_words
  rw [View.canon_unit_zero (S := S4096x256) hz0]
  try simp only [View.readAt_eq_ld, harg1.read_unread, harg2.read_unread, harg7.read_unread, harg8.read_unread, View.ld_unit_zero (S := S4096x256) hz0, View.ld_unit_zero (S := S256x256) hz0, View.ld_unit_zero (S := S1x256) hz0, View.ld_unit_zero (S := S1x1) hz0]

theorem oA3 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x1 .f32) (harg8 : arg8.IsWhole) (hc0 : cond0_0 i) (hc1 : ¬cond0_1 i) (x0 : Vec F S4096x256 .f32) (x1 : Vec F S256x256 .f32) :
    out0_A_3 c i arg1 harg1 arg2 harg2 arg3 harg3 arg4 harg4 arg5 harg5 arg6 harg6 arg7 harg7 arg8 harg8 hc0 hc1 x0 x1 = k0_pay8 x0 x1 := by
  unfold out0_A_3
  rw [View.read_writes_eq_canon _ _ _ (cover0_A_3 c i arg1 harg1 arg2 harg2 arg3 harg3 arg4 harg4 arg5 harg5 arg6 harg6 arg7 harg7 arg8 harg8 hc0 hc1 x0 x1)]
  unfold kernelRun0_A
  dsimp only
  try sl_unfold_words
  rw [View.canon_unit_zero (S := S1x4096) hz0]
  try simp only [View.readAt_eq_ld, harg1.read_unread, harg2.read_unread, harg7.read_unread, harg8.read_unread, View.ld_unit_zero (S := S4096x256) hz0, View.ld_unit_zero (S := S256x256) hz0, View.ld_unit_zero (S := S1x256) hz0, View.ld_unit_zero (S := S1x1) hz0]

end Cert.KernelIdeal.Val

end
-- ==== Proof.KI.Val0Blk.lean ====
/-
  Region 0's blocks against its arrays: the printed index maps over the eight grid points, the two input blocks
  read by coordinates, and what the first two output buffers hold after every point.
-/
import proofs.«170462_j60730837566028_1_alg».proof.Proof.KI.R0Frame
import proofs.«170462_j60730837566028_1_alg».proof.Proof.KI.Val0Pieces
import proofs.«170462_j60730837566028_1_alg».proof.Proof.Spec
import Idealize.ShloMosaic.Lib.ValueIdx
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat Cfg Window)

/-! ## The specification's row functions only look at one row -/

theorem proj_congr {n n' : ℕ} (x : Fin n → Fin 256 → EReal) (x' : Fin n' → Fin 256 → EReal) (pj pj' : Fin 256 → Fin 256 → EReal)
    (r : Fin n) (r' : Fin n') (hx : ∀ k, x r k = x' r' k) (hp : ∀ k g, pj k g = pj' k g) (f : Fin 256) :
    Cert.Spec.proj x pj r f = Cert.Spec.proj x' pj' r' f := by
  unfold Cert.Spec.proj
  exact Finset.sum_congr rfl fun k _ => by rw [hx k, hp k f]

theorem rowMax_congr {n n' : ℕ} (x : Fin n → Fin 256 → EReal) (x' : Fin n' → Fin 256 → EReal) (pj pj' : Fin 256 → Fin 256 → EReal)
    (r : Fin n) (r' : Fin n') (hx : ∀ k, x r k = x' r' k) (hp : ∀ k g, pj k g = pj' k g) :
    Cert.Spec.rowMax x pj r = Cert.Spec.rowMax x' pj' r' := by
  unfold Cert.Spec.rowMax
  exact congrArg Cert.Spec.maxOver (funext fun f => proj_congr x x' pj pj' r r' hx hp f)

theorem expRow_congr {n n' : ℕ} (x : Fin n → Fin 256 → EReal) (x' : Fin n' → Fin 256 → EReal) (pj pj' : Fin 256 → Fin 256 → EReal)
    (r : Fin n) (r' : Fin n') (hx : ∀ k, x r k = x' r' k) (hp : ∀ k g, pj k g = pj' k g) (f : Fin 256) :
    Cert.Spec.expRow x pj r f = Cert.Spec.expRow x' pj' r' f := by
  unfold Cert.Spec.expRow
  rw [proj_congr x x' pj pj' r r' hx hp f, rowMax_congr x x' pj pj' r r' hx hp]

variable (V : (c : Dev nD) → (b : Ref sig .tc) → Buf (Elt Ideal) ((c : Thread nD τ).loc b))

/-- The printed index maps over the eight grid points: the row-blocked windows move with the point, the others stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem lt_N0 (t : Fin cfg0.N) : t.val < 8 := lt_of_lt_of_eq t.isLt N_0

/-- The two tables by coordinates. -/
abbrev oeOf (c : Dev nD) : Fin 32768 → Fin 256 → EReal := fun a k => (V c main_arg1 : S32768x256.Idx → EReal) (ix2 a k)
abbrev pjOf (c : Dev nD) : Fin 256 → Fin 256 → EReal := fun k g => (V c main_arg2 : S256x256.Idx → EReal) (ix2 k g)

/-- Window 0's block at point `t` is rows `4096 t …` of the table. -/
theorem iblk0_0_apply (c : Dev nD) (t : Fin cfg0.N) (p : Fin 4096) (k : Fin 256) (n : Fin 32768) (hn : n.val = t.val * 4096 + p.val) :
    (iblk0 V c 0 t : Vec Ideal S4096x256 .f32) (ix2 p k) = oeOf V c n k := by
  obtain ⟨e0, e1, -⟩ := idx_facts0 t
  unfold iblk0
  rw [View.read_apply]
  show V c main_arg1 _ = V c main_arg1 _
  congr 1
  funext a; apply Fin.ext
  match a with
  | ⟨0, _⟩ => show win0_0.index t (0 : Fin 2) * 4096 + 1 * p.val = n.val; omega
  | ⟨1, _⟩ => show win0_0.index t (1 : Fin 2) * 256 + 1 * k.val = k.val; omega

/-- Window 1's block is the whole projection. -/
theorem iblk0_1_apply (c : Dev nD) (t : Fin cfg0.N) (k g : Fin 256) :
    (iblk0 V c 1 t : Vec Ideal S256x256 .f32) (ix2 k g) = pjOf V c k g := by
  obtain ⟨-, -, e2, e3, -⟩ := idx_facts0 t
  unfold iblk0
  rw [View.read_apply]
  show V c main_arg2 _ = V c main_arg2 _
  congr 1
  funext a; apply Fin.ext
  match a with
  | ⟨0, _⟩ => show win0_1.index t (0 : Fin 2) * 256 + 1 * k.val = k.val; omega
  | ⟨1, _⟩ => show win0_1.index t (1 : Fin 2) * 256 + 1 * g.val = g.val; omega

/-! ## What the buffers hold after each point, whatever its control case -/

theorem out2_eq_first (c : Dev nD) (t : Fin cfg0.N) (h0 : t.val = 0) : (outsAt0 V c t.val t.isLt).1 = k0_pay7 (iblk0 V c 0 t) (iblk0 V c 1 t) := by
  have h7 : ¬t.val = 7 := by omega
  rw [outsAt0_A V c t h0 h7]
  dsimp only
  exact oA2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h7 ((hcond0_1 t).mp h)) (iblk0 V c 0 t) (iblk0 V c 1 t)

theorem out2_eq_next (c : Dev nD) (t : Fin cfg0.N) (h0 : ¬t.val = 0) : (outsAt0 V c t.val t.isLt).1 = k0_pay7 (iblk0 V c 0 t) (iblk0 V c 1 t) := by
  by_cases h7 : t.val = 7
  · rw [outsAt0_C V c t h0 h7]
    dsimp only
    exact oC2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2
  · rw [outsAt0_B V c t h0 h7]
    dsimp only
    exact oB2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h7 ((hcond0_1 t).mp h)) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2

theorem out2_eq (c : Dev nD) (t : Fin cfg0.N) : (outsAt0 V c t.val t.isLt).1 = k0_pay7 (iblk0 V c 0 t) (iblk0 V c 1 t) := by
  by_cases h0 : t.val = 0
  · exact out2_eq_first V c t h0
  · exact out2_eq_next V c t h0

theorem out3_eq_first (c : Dev nD) (t : Fin cfg0.N) (h0 : t.val = 0) : (outsAt0 V c t.val t.isLt).2.1 = k0_pay8 (iblk0 V c 0 t) (iblk0 V c 1 t) := by
  have h7 : ¬t.val = 7 := by omega
  rw [outsAt0_A V c t h0 h7]
  dsimp only
  exact oA3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h7 ((hcond0_1 t).mp h)) (iblk0 V c 0 t) (iblk0 V c 1 t)

theorem out3_eq_next (c : Dev nD) (t : Fin cfg0.N) (h0 : ¬t.val = 0) : (outsAt0 V c t.val t.isLt).2.1 = k0_pay8 (iblk0 V c 0 t) (iblk0 V c 1 t) := by
  by_cases h7 : t.val = 7
  · rw [outsAt0_C V c t h0 h7]
    dsimp only
    exact oC3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2
  · rw [outsAt0_B V c t h0 h7]
    dsimp only
    exact oB3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h7 ((hcond0_1 t).mp h)) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2

theorem out3_eq (c : Dev nD) (t : Fin cfg0.N) : (outsAt0 V c t.val t.isLt).2.1 = k0_pay8 (iblk0 V c 0 t) (iblk0 V c 1 t) := by
  by_cases h0 : t.val = 0
  · exact out3_eq_first V c t h0
  · exact out3_eq_next V c t h0

/-! ## The two carried buffers after each point, from what the point before left -/

theorem outS_first (c : Dev nD) (t : Fin cfg0.N) (h0 : t.val = 0) : (outsAt0 V c t.val t.isLt).2.2.2.2.1 = k0_pay10 (iblk0 V c 0 t) (iblk0 V c 1 t) (k0_pay3 (F := Ideal)) (k0_pay2 (F := Ideal)) := by
  have h7 : ¬t.val = 7 := by omega
  rw [outsAt0_A V c t h0 h7]
  dsimp only
  exact sA0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h7 ((hcond0_1 t).mp h)) (iblk0 V c 0 t) (iblk0 V c 1 t)

theorem outS_next (c : Dev nD) (t : Fin cfg0.N) (h0 : ¬t.val = 0) : (outsAt0 V c t.val t.isLt).2.2.2.2.1 = k0_pay10 (iblk0 V c 0 t) (iblk0 V c 1 t) (outsAt0 V c (t.val - 1) (Nat.lt_of_le_of_lt (Nat.sub_le _ _) t.isLt)).2.2.2.2.2 (outsAt0 V c (t.val - 1) (Nat.lt_of_le_of_lt (Nat.sub_le _ _) t.isLt)).2.2.2.2.1 := by
  by_cases h7 : t.val = 7
  · rw [outsAt0_C V c t h0 h7]
    dsimp only
    exact sC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2
  · rw [outsAt0_B V c t h0 h7]
    dsimp only
    exact sB0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h7 ((hcond0_1 t).mp h)) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2

theorem outB_first (c : Dev nD) (t : Fin cfg0.N) (h0 : t.val = 0) : (outsAt0 V c t.val t.isLt).2.2.2.2.2 = k0_pay1 (k0_pay9 (iblk0 V c 0 t) (iblk0 V c 1 t) (k0_pay3 (F := Ideal))) := by
  have h7 : ¬t.val = 7 := by omega
  rw [outsAt0_A V c t h0 h7]
  dsimp only
  exact sA1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h7 ((hcond0_1 t).mp h)) (iblk0 V c 0 t) (iblk0 V c 1 t)

theorem outB_next (c : Dev nD) (t : Fin cfg0.N) (h0 : ¬t.val = 0) : (outsAt0 V c t.val t.isLt).2.2.2.2.2 = k0_pay1 (k0_pay9 (iblk0 V c 0 t) (iblk0 V c 1 t) (outsAt0 V c (t.val - 1) (Nat.lt_of_le_of_lt (Nat.sub_le _ _) t.isLt)).2.2.2.2.2) := by
  by_cases h7 : t.val = 7
  · rw [outsAt0_C V c t h0 h7]
    dsimp only
    exact sC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2
  · rw [outsAt0_B V c t h0 h7]
    dsimp only
    exact sB1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h7 ((hcond0_1 t).mp h)) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2

/-! ## The last point's copies into the last two output buffers -/

theorem out4_last (c : Dev nD) (t : Fin cfg0.N) (h0 : ¬t.val = 0) (h7 : t.val = 7) : (outsAt0 V c t.val t.isLt).2.2.1 = k0_pay10 (iblk0 V c 0 t) (iblk0 V c 1 t) (outsAt0 V c (t.val - 1) (Nat.lt_of_le_of_lt (Nat.sub_le _ _) t.isLt)).2.2.2.2.2 (outsAt0 V c (t.val - 1) (Nat.lt_of_le_of_lt (Nat.sub_le _ _) t.isLt)).2.2.2.2.1 := by
  rw [outsAt0_C V c t h0 h7]
  dsimp only
  exact oC4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2

theorem out5_last (c : Dev nD) (t : Fin cfg0.N) (h0 : ¬t.val = 0) (h7 : t.val = 7) : (outsAt0 V c t.val t.isLt).2.2.2.1 = k0_pay1 (k0_pay9 (iblk0 V c 0 t) (iblk0 V c 1 t) (outsAt0 V c (t.val - 1) (Nat.lt_of_le_of_lt (Nat.sub_le _ _) t.isLt)).2.2.2.2.2) := by
  rw [outsAt0_C V c t h0 h7]
  dsimp only
  exact oC5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2

end Cert.KernelIdeal.Val

end
-- ==== Proof.LibColSum.lean ====
/-
  A sum along the FIRST axis of a matrix read at a column.

  A sublane reduction `multi_reduction <add>` of a [K, b] array along its first axis, from the zero word, read at
  column j over the extended reals, is the sum over k of the entries (k, j).
-/
import proofs.«170462_j60730837566028_1_alg».proof.Proof.LibRowSum

namespace Idealize.ShloMosaic.ValueIdx

open Idealize.ShloMosaic

/-- A sum along the first axis of a [K, b] array, from the zero word, read at column `j`: `∑ k, src (k, j)`. The shape
    fact, the format fact and the accumulator's neutrality are whatever proofs the printed operation carries. -/
theorem multiReduction_add_cols_apply {K b : ℕ} (src : FVec Ideal ⟨2, ![K, b]⟩ .f32)
    (hr : (⟨2, ![K, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 hr hφ hacc (ix1 j) = ∑ k : Fin K, src (ix2 k j) :=
  (Ideal.multiReduction_add_single src _ hr hφ hacc (ix1 j)).trans
    (Finset.sum_congr rfl fun k _ => congrArg src (idx2_ext _ k j rfl rfl))

end Idealize.ShloMosaic.ValueIdx
-- ==== Proof.KI.Val0Pay.lean ====
/-
  Region 0's named arithmetic over the extended reals, read at an entry given by its coordinates: the projected
  block, its row maxima, the shifted exponentials, the tile's largest row maximum joined to the running one, and
  the running vector's update.
-/
import proofs.«170462_j60730837566028_1_alg».proof.Proof.Gen.KernelIdeal.Skeleton
import proofs.«170462_j60730837566028_1_alg».proof.Proof.Spec
import proofs.«170462_j60730837566028_1_alg».proof.Proof.LibColumn
import proofs.«170462_j60730837566028_1_alg».proof.Proof.LibRowSum
import proofs.«170462_j60730837566028_1_alg».proof.Proof.LibColSum
import proofs.«170462_j60730837566028_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

/-- The word of minus infinity is the bottom element. -/
theorem ofBits_neg_inf0 : Ideal.ofBits .f32 0xFF800000#32 = (⊥ : EReal) := by simp [Ideal.ofBits, Ideal.ieee]

/-- A maximum along the second axis of an [a, K] array, from minus infinity, read at row `r`. -/
theorem max_rows0 {a K : ℕ} (src : FVec Ideal ⟨2, ![a, K]⟩ .f32)
    (hr : (⟨2, ![a, K]⟩ : Shape).Reduces [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 hr hφ hacc (ix1 r) = Cert.Spec.maxOver fun k : Fin K => src (ix2 r k) := by
  refine (Ideal.multiReduction_maximumf_single src _ hr hφ hacc (ix1 r)).trans ?_
  unfold Cert.Spec.maxOver
  show (Finset.univ : Finset (Fin K)).fold max (Ideal.ofBits .f32 0xFF800000#32) (fun k : Fin K => src (hr.lift (ix1 r) k)) = _
  rw [ofBits_neg_inf0]
  congr 1
  funext k
  exact congrArg src (idx2_ext _ r k rfl rfl)

/-- A maximum along the first axis of a [K, b] array, from minus infinity, read at column `j`. -/
theorem max_cols0 {K b : ℕ} (src : FVec Ideal ⟨2, ![K, b]⟩ .f32)
    (hr : (⟨2, ![K, b]⟩ : Shape).Reduces [0] ⟨1, ![b]⟩) (hφ : FKind.Formats .f32)
    (hacc : (0xFF800000#32 : BitVec 32) = FKind.maximumf.neutral .f32 hφ) (j : Fin b) :
    multiReduction .maximumf [0] ⟨1, ![b]⟩ src 0xFF800000#32 hr hφ hacc (ix1 j) = Cert.Spec.maxOver fun k : Fin K => src (ix2 k j) := by
  refine (Ideal.multiReduction_maximumf_single src _ hr hφ hacc (ix1 j)).trans ?_
  unfold Cert.Spec.maxOver
  show (Finset.univ : Finset (Fin K)).fold max (Ideal.ofBits .f32 0xFF800000#32) (fun k : Fin K => src (hr.lift (ix1 j) k)) = _
  rw [ofBits_neg_inf0]
  congr 1
  funext k
  exact congrArg src (idx2_ext _ k j rfl rfl)

/-- The projection's product is a plain rows-by-columns one. -/
theorem plain0 : Cert.LibDot.Plain dot_S4096x256_S256x256_S4096x256_1_0_0_1_n_n where
  hrank := rfl
  hs := rfl
  hl0 := fun _ _ => rfl
  hl1 := fun j k => dot_S4096x256_S256x256_S4096x256_1_0_0_1_n_n.lhsIdx_val_of_single (cl := 1) rfl j k
  hr0 := fun j k => dot_S4096x256_S256x256_S4096x256_1_0_0_1_n_n.rhsIdx_val_of_single (cr := 0) rfl j k
  hr1 := fun _ _ => rfl

/-- The exponential of an array, at an entry. -/
theorem exp_at {s : Shape} (v : FVec Ideal s .f32) (i : s.Idx) : exp v i = Ideal.exp (v i) := rfl

/-- A block of rows and the projection, by coordinates. -/
abbrev bo (x0 : Vec Ideal S4096x256 .f32) : Fin 4096 → Fin 256 → EReal := fun j k => x0 (ix2 j k)
abbrev pw (x1 : Vec Ideal S256x256 .f32) : Fin 256 → Fin 256 → EReal := fun k g => x1 (ix2 k g)

variable (x0 : Vec Ideal S4096x256 .f32) (x1 : Vec Ideal S256x256 .f32)

/-- The projected block at an entry. -/
theorem k0pay4_apply (j : Fin 4096) (f : Fin 256) : k0_pay4 x0 x1 (ix2 j f) = Cert.Spec.proj (bo x0) (pw x1) j f :=
  Cert.LibDot.matmul_ix2 plain0 none x0 x1 j f

/-- Its row maxima, as a column. -/
theorem k0pay5_apply (j : Fin 4096) (u : Fin 1) : k0_pay5 x0 x1 (ix2 j u) = Cert.Spec.rowMax (bo x0) (pw x1) j := by
  unfold k0_pay5
  refine (shapeCast_a_a1_apply _ _ j u).trans ?_
  refine (max_rows0 _ _ _ _ j).trans ?_
  exact congrArg Cert.Spec.maxOver (funext fun f => k0pay4_apply x0 x1 j f)

/-- The shifted exponentials. -/
theorem k0pay6_apply (j : Fin 4096) (f : Fin 256) : k0_pay6 x0 x1 (ix2 j f) = Cert.Spec.expRow (bo x0) (pw x1) j f := by
  unfold k0_pay6
  show Ideal.exp (k0_pay4 x0 x1 (ix2 j f) - broadcastTo S4096x256 (k0_pay5 x0 x1) broadcasts_S4096x1_S4096x256 (ix2 j f)) = _
  rw [k0pay4_apply, broadcastTo_a1_ab_apply, k0pay5_apply]
  rfl

/-- The stored exponentials: the narrowing changes nothing over the extended reals. -/
theorem k0pay7_apply (j : Fin 4096) (f : Fin 256) : k0_pay7 x0 x1 (ix2 j f) = Cert.Spec.expRow (bo x0) (pw x1) j f :=
  k0pay6_apply x0 x1 j f

/-- The stored row maxima, as a row. -/
theorem k0pay8_apply (u : Fin 1) (j : Fin 4096) : k0_pay8 x0 x1 (ix2 u j) = Cert.Spec.rowMax (bo x0) (pw x1) j := by
  unfold k0_pay8
  exact (transpose_ix2_apply _ _ u j).trans (k0pay5_apply x0 x1 j u)

/-- The new running maximum: the old one joined to the block's largest row maximum. -/
theorem k0pay9_apply (b : Vec Ideal S1x1 .f32) (u v : Fin 1) :
    k0_pay9 x0 x1 b (ix2 u v) = max (b (ix2 u v)) (Cert.Spec.maxOver fun j : Fin 4096 => Cert.Spec.rowMax (bo x0) (pw x1) j) := by
  unfold k0_pay9
  show max (b (ix2 u v)) (shapeCast S1x1 (multiReduction (F := Ideal) .maximumf [0] S1 (k0_pay5 x0 x1) 0xFF800000#32 reduces_S4096x1_S1 (.inl rfl) rfl) shapeCasts_S1_S1x1 (ix2 u v)) = _
  refine congrArg (max (b (ix2 u v))) ?_
  refine (shapeCast_a_1a_apply _ _ u v).trans ?_
  refine (max_cols0 _ _ _ _ v).trans ?_
  exact congrArg Cert.Spec.maxOver (funext fun j => k0pay5_apply x0 x1 j v)

/-- The stored running maximum is the new one. -/
theorem k0pay1_eq {F : FTy → Type} [FloatOps F] (v : FVec F S1x1 .f32) : k0_pay1 v = v := by
  unfold k0_pay1
  exact shapeCast_self _ _

/-- The new running vector: the old one rescaled, plus the block's rows weighted. -/
theorem k0pay10_apply (b : Vec Ideal S1x1 .f32) (s : Vec Ideal S1x256 .f32) (u : Fin 1) (f : Fin 256) :
    k0_pay10 x0 x1 b s (ix2 u f)
      = s (ix2 u f) * Ideal.exp (b (ix2 u (0 : Fin 1)) - k0_pay9 x0 x1 b (ix2 u (0 : Fin 1)))
        + ∑ j : Fin 4096, Cert.Spec.expRow (bo x0) (pw x1) j f
            * Ideal.exp (Cert.Spec.rowMax (bo x0) (pw x1) j - k0_pay9 x0 x1 b (ix2 (0 : Fin 1) (0 : Fin 1))) := by
  unfold k0_pay10
  refine (congrFun (shapeCast_self _ _) _).trans ?_
  show (s (ix2 u f) * broadcastTo S1x256 (exp (subf b (k0_pay9 x0 x1 b))) broadcasts_S1x1_S1x256 (ix2 u f))
      + shapeCast S1x256 (multiReduction (F := Ideal) .add [0] S256 (mulf (k0_pay6 x0 x1) (broadcastTo S4096x256 (exp (subf (k0_pay5 x0 x1) (broadcastTo S4096x1 (k0_pay9 x0 x1 b) broadcasts_S1x1_S4096x1))) broadcasts_S4096x1_S4096x256)) 0x00000000#32 reduces_S4096x256_S256 (.inl rfl) rfl) shapeCasts_S256_S1x256 (ix2 u f) = _
  refine congrArg₂ (· + ·) ?_ ?_
  · refine congrArg (s (ix2 u f) * ·) ?_
    exact broadcastTo_a1_ab_apply _ _ u f
  · refine (shapeCast_a_1a_apply _ _ u f).trans ?_
    refine (multiReduction_add_cols_apply _ _ _ _ f).trans ?_
    refine Finset.sum_congr rfl fun j _ => ?_
    show k0_pay6 x0 x1 (ix2 j f) * broadcastTo S4096x256 (exp (subf (k0_pay5 x0 x1) (broadcastTo S4096x1 (k0_pay9 x0 x1 b) broadcasts_S1x1_S4096x1))) broadcasts_S4096x1_S4096x256 (ix2 j f) = _
    rw [k0pay6_apply, broadcastTo_a1_ab_apply]
    refine congrArg (Cert.Spec.expRow (bo x0) (pw x1) j f * ·) ?_
    refine (exp_at _ _).trans (congrArg Ideal.exp ?_)
    refine (subf_apply _ _ _).trans ?_
    exact congrArg₂ (· - ·) (k0pay5_apply x0 x1 j (0 : Fin 1)) (broadcastTo_1b_ab_apply _ _ j (0 : Fin 1))

end Cert.KernelIdeal.Val

end
-- ==== Proof.KI.Val0Out.lean ====
/-
  Region 0's first two output arrays after the region: every point writes its block back, the blocks tile the
  array, and each block holds the shifted exponentials, respectively the row maxima, of the rows of its tile.
-/
import proofs.«170462_j60730837566028_1_alg».proof.Proof.KI.Val0Blk
import proofs.«170462_j60730837566028_1_alg».proof.Proof.KI.Val0Pay

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat Cfg Window)

variable (V : (c : Dev nD) → (b : Ref sig .tc) → Buf (Elt Ideal) ((c : Thread nD τ).loc b))

/-- What window 2's array ends holding: the shifted exponentials of the projected rows. -/
def G0_2 (c : Dev nD) : S32768x256.Idx → EReal := fun i => Cert.Spec.expRow (oeOf V c) (pjOf V c) (i 0) (i 1)

/-- What window 3's array ends holding: the row maxima of the projected rows. -/
def G0_3 (c : Dev nD) : S1x32768.Idx → EReal := fun i => Cert.Spec.rowMax (oeOf V c) (pjOf V c) (i 1)

/-- What point `t` writes back to window 2's array is block `t` of `G0_2`. -/
theorem flushed0_2_eq (c : Dev nD) (t : Fin cfg0.N) :
    (dat0 (F := Ideal) V c).flushed 2 t = ((cfg0.win 2).blk t).view.read (Elt Ideal) (G0_2 V c) := by
  show (cfg0.win 2).cut (grid0.coords t) ((dat0 V c).after 2 t) = _
  rw [after0_2, out2_eq]
  obtain ⟨-, -, -, -, e4, e5, -⟩ := idx_facts0 t
  have ht := lt_N0 t
  funext j
  obtain ⟨p, q, rfl⟩ : ∃ (p : Fin 4096) (q : Fin 256), j = ix2 p q := ⟨j 0, j 1, eq_ix2 j⟩
  have hn : t.val * 4096 + p.val < 32768 := by have := p.isLt; omega
  show k0_pay7 (iblk0 V c 0 t) (iblk0 V c 1 t) (ix2 p q) = G0_2 V c (((cfg0.win 2).blk t).view.emb (ix2 p q))
  have hemb : ((cfg0.win 2).blk t).view.emb (ix2 p q) = ix2 (⟨t.val * 4096 + p.val, hn⟩ : Fin 32768) q := by
    funext a; apply Fin.ext
    match a with
    | ⟨0, _⟩ => show win0_2.index t (0 : Fin 2) * 4096 + 1 * p.val = t.val * 4096 + p.val; omega
    | ⟨1, _⟩ => show win0_2.index t (1 : Fin 2) * 256 + 1 * q.val = q.val; omega
  rw [hemb]
  refine (k0pay7_apply (iblk0 V c 0 t) (iblk0 V c 1 t) p q).trans ?_
  exact expRow_congr _ (oeOf V c) _ (pjOf V c) p ⟨t.val * 4096 + p.val, hn⟩ (fun k => iblk0_0_apply V c t p k _ rfl) (fun k g => iblk0_1_apply V c t k g) q

/-- What point `t` writes back to window 3's array is block `t` of `G0_3`. -/
theorem flushed0_3_eq (c : Dev nD) (t : Fin cfg0.N) :
    (dat0 (F := Ideal) V c).flushed 3 t = ((cfg0.win 3).blk t).view.read (Elt Ideal) (G0_3 V c) := by
  show (cfg0.win 3).cut (grid0.coords t) ((dat0 V c).after 3 t) = _
  rw [after0_3, out3_eq]
  obtain ⟨-, -, -, -, -, -, e6, e7, -⟩ := idx_facts0 t
  have ht := lt_N0 t
  funext j
  obtain ⟨u, p, rfl⟩ : ∃ (u : Fin 1) (p : Fin 4096), j = ix2 u p := ⟨j 0, j 1, eq_ix2 j⟩
  have hn : t.val * 4096 + p.val < 32768 := by have := p.isLt; omega
  have hu : u.val = 0 := by have := u.isLt; omega
  show k0_pay8 (iblk0 V c 0 t) (iblk0 V c 1 t) (ix2 u p) = G0_3 V c (((cfg0.win 3).blk t).view.emb (ix2 u p))
  have hemb : ((cfg0.win 3).blk t).view.emb (ix2 u p) = ix2 (0 : Fin 1) (⟨t.val * 4096 + p.val, hn⟩ : Fin 32768) := by
    funext a; apply Fin.ext
    match a with
    | ⟨0, _⟩ => show win0_3.index t (0 : Fin 2) * 1 + 1 * u.val = 0; omega
    | ⟨1, _⟩ => show win0_3.index t (1 : Fin 2) * 4096 + 1 * p.val = t.val * 4096 + p.val; omega
  rw [hemb]
  refine (k0pay8_apply (iblk0 V c 0 t) (iblk0 V c 1 t) u p).trans ?_
  exact rowMax_congr _ (oeOf V c) _ (pjOf V c) p ⟨t.val * 4096 + p.val, hn⟩ (fun k => iblk0_0_apply V c t p k _ rfl) (fun k g => iblk0_1_apply V c t k g)

/-- An index of window 2's array is in point `t`'s block iff each coordinate is in the block's range. -/
theorem mem_blk0_2 (t : Fin cfg0.N) (i : S32768x256.Idx) :
    i ∈ ((cfg0.win 2).blk t).view.set ↔ ∀ a : Fin 2, win0_2.index t a * S4096x256.size a ≤ (i a).val ∧ (i a).val < win0_2.index t a * S4096x256.size a + S4096x256.size a := by
  show i ∈ ((View.whole main_v0_0).slice (win0_2.rect t)).set ↔ _
  rw [View.set_slice_whole, Rect.mem_set_unit]
  exact Iff.rfl

theorem mem_blk0_3 (t : Fin cfg0.N) (i : S1x32768.Idx) :
    i ∈ ((cfg0.win 3).blk t).view.set ↔ ∀ a : Fin 2, win0_3.index t a * S1x4096.size a ≤ (i a).val ∧ (i a).val < win0_3.index t a * S1x4096.size a + S1x4096.size a := by
  show i ∈ ((View.whole main_v0_1).slice (win0_3.rect t)).set ↔ _
  rw [View.set_slice_whole, Rect.mem_set_unit]
  exact Iff.rfl

/-- Every index of window 2's array is in the block of the point its row falls in. -/
theorem covered0_2 (i : S32768x256.Idx) : ∃ t : Fin cfg0.N, (cfg0.win 2).flush t = true ∧ i ∈ ((cfg0.win 2).blk t).view.set := by
  have hi0 : (i 0).val < 32768 := (i 0).isLt
  have hi1 : (i 1).val < 256 := (i 1).isLt
  have hN : cfg0.N = 8 := N_0
  obtain ⟨t, ht⟩ : ∃ t : Fin cfg0.N, t.val = (i 0).val / 4096 := ⟨⟨(i 0).val / 4096, by rw [hN]; omega⟩, rfl⟩
  obtain ⟨-, -, -, -, e4, e5, -⟩ := idx_facts0 t
  refine ⟨t, flush0_2 t, ?_⟩
  rw [mem_blk0_2]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 256 ≤ (i 1).val ∧ (i 1).val < win0_2.index t (1 : Fin 2) * 256 + 256; omega

theorem covered0_3 (i : S1x32768.Idx) : ∃ t : Fin cfg0.N, (cfg0.win 3).flush t = true ∧ i ∈ ((cfg0.win 3).blk t).view.set := by
  have hi0 : (i 0).val < 1 := (i 0).isLt
  have hi1 : (i 1).val < 32768 := (i 1).isLt
  have hN : cfg0.N = 8 := N_0
  obtain ⟨t, ht⟩ : ∃ t : Fin cfg0.N, t.val = (i 1).val / 4096 := ⟨⟨(i 1).val / 4096, by rw [hN]; omega⟩, rfl⟩
  obtain ⟨-, -, -, -, -, -, e6, e7, -⟩ := idx_facts0 t
  refine ⟨t, flush0_3 t, ?_⟩
  rw [mem_blk0_3]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 4096 ≤ (i 1).val ∧ (i 1).val < win0_3.index t (1 : Fin 2) * 4096 + 4096; omega

/-- Window 2's array after the region. -/
theorem arr0_2 (c : Dev nD) : (dat0 (F := Ideal) V c).arrAt 2 cfg0.N = G0_2 V c :=
  (dat0 (F := Ideal) V c).arrAt_eq_of_cover 2 (G0_2 V c) (fun t _ => flushed0_2_eq V c t) covered0_2

/-- Window 3's array after the region. -/
theorem arr0_3 (c : Dev nD) : (dat0 (F := Ideal) V c).arrAt 3 cfg0.N = G0_3 V c :=
  (dat0 (F := Ideal) V c).arrAt_eq_of_cover 3 (G0_3 V c) (fun t _ => flushed0_3_eq V c t) covered0_3

end Cert.KernelIdeal.Val

end
-- ==== Proof.KI.Val0Inv.lean ====
/-
  Region 0's two carried buffers after each grid point: the running vector and the running maximum of the
  specification after that many tiles.  One tile's update of each is the body's named arithmetic read at an entry;
  the first point starts from the zero vector and minus infinity; by induction on the point.
-/
import proofs.«170462_j60730837566028_1_alg».proof.Proof.KI.Val0Blk
import proofs.«170462_j60730837566028_1_alg».proof.Proof.KI.Val0Pay

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat Cfg Window)

/-! ## One tile's update -/

/-- The initial running vector is zero. -/
theorem k0pay2_apply (u : Fin 1) (f : Fin 256) : (k0_pay2 (F := Ideal)) (ix2 u f) = 0 := by
  unfold k0_pay2
  refine (congrFun (shapeCast_self _ _) _).trans ?_
  exact Ideal.ofBits_zero_f32

/-- The initial running maximum is minus infinity. -/
theorem k0pay3_apply (u v : Fin 1) : (k0_pay3 (F := Ideal)) (ix2 u v) = ⊥ := by
  unfold k0_pay3
  refine (congrFun (shapeCast_self _ _) _).trans ?_
  exact ofBits_neg_inf0

section Step
variable (x0 : Vec Ideal S4096x256 .f32) (x1 : Vec Ideal S256x256 .f32)
  (oe : Fin 32768 → Fin 256 → EReal) (pj : Fin 256 → Fin 256 → EReal) (i : Fin 8)
  (hx : ∀ j k, x0 (ix2 j k) = oe (Cert.Spec.tileRow i j) k) (hp : ∀ k g, x1 (ix2 k g) = pj k g)
include hx hp

theorem tile_rowMax (j : Fin 4096) : Cert.Spec.rowMax (bo x0) (pw x1) j = Cert.Spec.rowMax oe pj (Cert.Spec.tileRow i j) :=
  rowMax_congr (bo x0) oe (pw x1) pj j (Cert.Spec.tileRow i j) (fun k => hx j k) hp

theorem tile_expRow (j : Fin 4096) (f : Fin 256) : Cert.Spec.expRow (bo x0) (pw x1) j f = Cert.Spec.expRow oe pj (Cert.Spec.tileRow i j) f :=
  expRow_congr (bo x0) oe (pw x1) pj j (Cert.Spec.tileRow i j) (fun k => hx j k) hp f

/-- The new running maximum is the specification's. -/
theorem stepB_eq (b : Vec Ideal S1x1 .f32) (ob : EReal) (hb : b (ix2 (0 : Fin 1) (0 : Fin 1)) = ob) :
    k0_pay9 x0 x1 b (ix2 (0 : Fin 1) (0 : Fin 1)) = Cert.Spec.stepB oe pj i ob := by
  refine (k0pay9_apply x0 x1 b 0 0).trans ?_
  unfold Cert.Spec.stepB Cert.Spec.tileMax
  rw [hb]
  exact congrArg (max ob) (congrArg Cert.Spec.maxOver (funext fun j => tile_rowMax x0 x1 oe pj i hx hp j))

/-- The new running vector is the specification's. -/
theorem stepS_eq (b : Vec Ideal S1x1 .f32) (s : Vec Ideal S1x256 .f32) (ob : EReal) (os : Fin 256 → EReal)
    (hb : b (ix2 (0 : Fin 1) (0 : Fin 1)) = ob) (hs : ∀ f, s (ix2 (0 : Fin 1) f) = os f) (f : Fin 256) :
    k0_pay10 x0 x1 b s (ix2 (0 : Fin 1) f) = Cert.Spec.stepS oe pj i os ob f := by
  refine (k0pay10_apply x0 x1 b s 0 f).trans ?_
  unfold Cert.Spec.stepS
  rw [stepB_eq x0 x1 oe pj i hx hp b ob hb, hs f, hb]
  refine congrArg (os f * Ideal.exp (ob - Cert.Spec.stepB oe pj i ob) + ·) ?_
  exact Finset.sum_congr rfl fun j _ => by rw [tile_expRow x0 x1 oe pj i hx hp j f, tile_rowMax x0 x1 oe pj i hx hp j]

end Step

/-- The specification's running pair after one more tile. -/
theorem acc_succ (oe : Fin 32768 → Fin 256 → EReal) (pj : Fin 256 → Fin 256 → EReal) (k : ℕ) (h : k < 8) :
    Cert.Spec.acc oe pj (k + 1)
      = (Cert.Spec.stepS oe pj ⟨k, h⟩ (Cert.Spec.acc oe pj k).1 (Cert.Spec.acc oe pj k).2, Cert.Spec.stepB oe pj ⟨k, h⟩ (Cert.Spec.acc oe pj k).2) := by
  show (if h : k < 8 then _ else _) = _
  exact dif_pos h

/-! ## The invariant -/

variable (V : (c : Dev nD) → (b : Ref sig .tc) → Buf (Elt Ideal) ((c : Thread nD τ).loc b))

/-- The block loaded at point `t` is tile `t` of the table. -/
theorem blk_tile (c : Dev nD) (t : Fin cfg0.N) (j : Fin 4096) (k : Fin 256) :
    (iblk0 V c 0 t : Vec Ideal S4096x256 .f32) (ix2 j k) = oeOf V c (Cert.Spec.tileRow ⟨t.val, lt_N0 t⟩ j) k :=
  iblk0_0_apply V c t j k (Cert.Spec.tileRow ⟨t.val, lt_N0 t⟩ j) rfl

/-- After point `n` the two carried buffers hold the specification's running pair after `n + 1` tiles. -/
theorem inv0 (c : Dev nD) : ∀ (n : ℕ) (hn : n < cfg0.N),
    (∀ f : Fin 256, (outsAt0 V c n hn).2.2.2.2.1 (ix2 (0 : Fin 1) f) = (Cert.Spec.acc (oeOf V c) (pjOf V c) (n + 1)).1 f)
    ∧ (outsAt0 V c n hn).2.2.2.2.2 (ix2 (0 : Fin 1) (0 : Fin 1)) = (Cert.Spec.acc (oeOf V c) (pjOf V c) (n + 1)).2
  | 0, hn => by
    have h8 : (0 : ℕ) < 8 := by omega
    rw [acc_succ (oeOf V c) (pjOf V c) 0 h8]
    have eS := outS_first V c ⟨0, hn⟩ rfl
    have eB := outB_first V c ⟨0, hn⟩ rfl
    dsimp only at eS eB
    rw [eS, eB, k0pay1_eq]
    refine ⟨fun f => ?_, ?_⟩
    · exact stepS_eq _ _ (oeOf V c) (pjOf V c) ⟨0, h8⟩ (fun j k => blk_tile V c ⟨0, hn⟩ j k) (fun k g => iblk0_1_apply V c ⟨0, hn⟩ k g)
        _ _ ⊥ (fun _ => 0) (k0pay3_apply 0 0) (fun f => k0pay2_apply 0 f) f
    · exact stepB_eq _ _ (oeOf V c) (pjOf V c) ⟨0, h8⟩ (fun j k => blk_tile V c ⟨0, hn⟩ j k) (fun k g => iblk0_1_apply V c ⟨0, hn⟩ k g)
        _ ⊥ (k0pay3_apply 0 0)
  | n + 1, hn => by
    have h8 : n + 1 < 8 := lt_of_lt_of_eq hn N_0
    obtain ⟨ihS, ihB⟩ := inv0 c n (Nat.lt_of_succ_lt hn)
    rw [acc_succ (oeOf V c) (pjOf V c) (n + 1) h8]
    have eS := outS_next V c ⟨n + 1, hn⟩ (Nat.succ_ne_zero n)
    have eB := outB_next V c ⟨n + 1, hn⟩ (Nat.succ_ne_zero n)
    dsimp only at eS eB
    rw [eS, eB, k0pay1_eq]
    refine ⟨fun f => ?_, ?_⟩
    · exact stepS_eq _ _ (oeOf V c) (pjOf V c) ⟨n + 1, h8⟩ (fun j k => blk_tile V c ⟨n + 1, hn⟩ j k) (fun k g => iblk0_1_apply V c ⟨n + 1, hn⟩ k g)
        _ _ _ _ ihB ihS f
    · exact stepB_eq _ _ (oeOf V c) (pjOf V c) ⟨n + 1, h8⟩ (fun j k => blk_tile V c ⟨n + 1, hn⟩ j k) (fun k g => iblk0_1_apply V c ⟨n + 1, hn⟩ k g)
        _ _ ihB

end Cert.KernelIdeal.Val

end
-- ==== Proof.KI.Val0Last.lean ====
/-
  Region 0's last two outputs over the extended reals, as whole arrays.  Windows 4 and 5 are written back once,
  at the last of the eight points, and each is a single block: the whole one-row array.  At that point the body
  leaves in window 4's buffer exactly what it leaves in the first carried buffer, and in window 5's buffer
  what it leaves in the second.  So, given that the carried buffers after point n hold the running vector and
  the running maximum of the accumulation after n + 1 tiles, the two arrays end holding the final ones.
-/
import proofs.«170462_j60730837566028_1_alg».proof.Proof.KI.Val0Blk
import proofs.«170462_j60730837566028_1_alg».proof.Proof.KI.Val0Pieces
import proofs.«170462_j60730837566028_1_alg».proof.Proof.Spec
import Idealize.ShloMosaic.Lib.Pipeline.Value
import Idealize.ShloMosaic.Lib.ValueIdx

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

section Last0
variable (V : (c : Dev nD) → (b : Ref sig .tc) → Buf (Elt Ideal) ((c : Thread nD τ).loc b))

/-- At the last point, window 4's buffer is left holding what the first carried buffer is. -/
theorem out4_eq_carried (c : Dev nD) (t : Fin cfg0.N) (h7 : t.val = 7) :
    (outsAt0 V c t.val t.isLt).2.2.1 = (outsAt0 V c t.val t.isLt).2.2.2.2.1 := by
  have h0 : ¬t.val = 0 := by omega
  rw [outsAt0_C V c t h0 h7]
  dsimp only
  exact (oC4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2).trans
    (sC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2).symm

/-- At the last point, window 5's buffer is left holding what the second carried buffer is. -/
theorem out5_eq_carried (c : Dev nD) (t : Fin cfg0.N) (h7 : t.val = 7) :
    (outsAt0 V c t.val t.isLt).2.2.2.1 = (outsAt0 V c t.val t.isLt).2.2.2.2.2 := by
  have h0 : ¬t.val = 0 := by omega
  rw [outsAt0_C V c t h0 h7]
  dsimp only
  exact (oC5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2).trans
    (sC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk0 V c 0 t) (iblk0 V c 1 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2).symm

/-- Windows 4 and 5 are written back at the last point only. -/
theorem last_of_flush4 (t : Fin cfg0.N) (hf : (cfg0.win 4).flush t = true) : t.val = 7 := by
  have h := (flush0_4 t).1 hf
  have := lt_N0 t
  omega

theorem last_of_flush5 (t : Fin cfg0.N) (hf : (cfg0.win 5).flush t = true) : t.val = 7 := by
  have h := (flush0_5 t).1 hf
  have := lt_N0 t
  omega

/-- What window 4's one-row array ends holding: the final running vector. -/
def G0_4 (c : Dev nD) : S1x256.Idx → EReal := fun i => Cert.Spec.Sfin (oeOf V c) (pjOf V c) (i 1)

/-- What window 5's one-entry array ends holding: the final running maximum. -/
def G0_5 (c : Dev nD) : S1x1.Idx → EReal := fun _ => Cert.Spec.Bfin (oeOf V c) (pjOf V c)

/-- What the last point writes back to window 4's array is `G0_4`. -/
theorem flushed0_4_eq (c : Dev nD)
    (hinv : ∀ (n : ℕ) (hn : n < cfg0.N),
      (∀ f : Fin 256, (outsAt0 V c n hn).2.2.2.2.1 (ix2 (0 : Fin 1) f) = (Cert.Spec.acc (oeOf V c) (pjOf V c) (n + 1)).1 f)
      ∧ (outsAt0 V c n hn).2.2.2.2.2 (ix2 (0 : Fin 1) (0 : Fin 1)) = (Cert.Spec.acc (oeOf V c) (pjOf V c) (n + 1)).2)
    (t : Fin cfg0.N) (hf : (cfg0.win 4).flush t = true) :
    (dat0 (F := Ideal) V c).flushed 4 t = ((cfg0.win 4).blk t).view.read (Elt Ideal) (G0_4 V c) := by
  have h7 : t.val = 7 := last_of_flush4 t hf
  show (cfg0.win 4).cut (grid0.coords t) ((dat0 V c).after 4 t) = _
  rw [after0_4, out4_eq_carried V c t h7]
  obtain ⟨-, -, -, -, -, -, -, -, e8, e9, -, -⟩ := idx_facts0 t
  funext j
  obtain ⟨u, f, rfl⟩ : ∃ (u : Fin 1) (f : Fin 256), j = ix2 u f := ⟨j 0, j 1, eq_ix2 j⟩
  have hu : u = 0 := Fin.ext (by have := u.isLt; omega)
  subst hu
  show (outsAt0 V c t.val t.isLt).2.2.2.2.1 (ix2 (0 : Fin 1) f) = G0_4 V c (((cfg0.win 4).blk t).view.emb (ix2 (0 : Fin 1) f))
  have hemb : ((cfg0.win 4).blk t).view.emb (ix2 (0 : Fin 1) f) = ix2 (0 : Fin 1) f := by
    funext a; apply Fin.ext
    match a with
    | ⟨0, _⟩ => show win0_4.index t (0 : Fin 2) * 1 + 1 * 0 = 0; omega
    | ⟨1, _⟩ => show win0_4.index t (1 : Fin 2) * 256 + 1 * f.val = f.val; omega
  rw [hemb]
  exact ((hinv t.val t.isLt).1 f).trans
    (congrArg (fun k => (Cert.Spec.acc (oeOf V c) (pjOf V c) k).1 f) (by omega : t.val + 1 = 8))

/-- What the last point writes back to window 5's array is `G0_5`. -/
theorem flushed0_5_eq (c : Dev nD)
    (hinv : ∀ (n : ℕ) (hn : n < cfg0.N),
      (∀ f : Fin 256, (outsAt0 V c n hn).2.2.2.2.1 (ix2 (0 : Fin 1) f) = (Cert.Spec.acc (oeOf V c) (pjOf V c) (n + 1)).1 f)
      ∧ (outsAt0 V c n hn).2.2.2.2.2 (ix2 (0 : Fin 1) (0 : Fin 1)) = (Cert.Spec.acc (oeOf V c) (pjOf V c) (n + 1)).2)
    (t : Fin cfg0.N) (hf : (cfg0.win 5).flush t = true) :
    (dat0 (F := Ideal) V c).flushed 5 t = ((cfg0.win 5).blk t).view.read (Elt Ideal) (G0_5 V c) := by
  have h7 : t.val = 7 := last_of_flush5 t hf
  show (cfg0.win 5).cut (grid0.coords t) ((dat0 V c).after 5 t) = _
  rw [after0_5, out5_eq_carried V c t h7]
  funext j
  obtain ⟨u, v, rfl⟩ : ∃ (u : Fin 1) (v : Fin 1), j = ix2 u v := ⟨j 0, j 1, eq_ix2 j⟩
  have hu : u = 0 := Fin.ext (by have := u.isLt; omega)
  have hv : v = 0 := Fin.ext (by have := v.isLt; omega)
  subst hu hv
  show (outsAt0 V c t.val t.isLt).2.2.2.2.2 (ix2 (0 : Fin 1) (0 : Fin 1)) = Cert.Spec.Bfin (oeOf V c) (pjOf V c)
  exact ((hinv t.val t.isLt).2).trans
    (congrArg (fun k => (Cert.Spec.acc (oeOf V c) (pjOf V c) k).2) (by omega : t.val + 1 = 8))

/-- An index of window 4's array is in point `t`'s block iff each coordinate is in the block's range. -/
theorem mem_blk0_4 (t : Fin cfg0.N) (i : S1x256.Idx) :
    i ∈ ((cfg0.win 4).blk t).view.set ↔ ∀ a : Fin 2, win0_4.index t a * S1x256.size a ≤ (i a).val ∧ (i a).val < win0_4.index t a * S1x256.size a + S1x256.size a := by
  show i ∈ ((View.whole main_v0_2).slice (win0_4.rect t)).set ↔ _
  rw [View.set_slice_whole, Rect.mem_set_unit]
  exact Iff.rfl

theorem mem_blk0_5 (t : Fin cfg0.N) (i : S1x1.Idx) :
    i ∈ ((cfg0.win 5).blk t).view.set ↔ ∀ a : Fin 2, win0_5.index t a * S1x1.size a ≤ (i a).val ∧ (i a).val < win0_5.index t a * S1x1.size a + S1x1.size a := by
  show i ∈ ((View.whole main_v0_3).slice (win0_5.rect t)).set ↔ _
  rw [View.set_slice_whole, Rect.mem_set_unit]
  exact Iff.rfl

/-- The last point. -/
def tLast : Fin cfg0.N := ⟨7, by have hN : cfg0.N = 8 := N_0; omega⟩

/-- The last point's block is the whole of window 4's array. -/
theorem covered0_4 (i : S1x256.Idx) : ∃ t : Fin cfg0.N, (cfg0.win 4).flush t = true ∧ i ∈ ((cfg0.win 4).blk t).view.set := by
  have hi0 : (i 0).val < 1 := (i 0).isLt
  have hi1 : (i 1).val < 256 := (i 1).isLt
  obtain ⟨-, -, -, -, -, -, -, -, e8, e9, -, -⟩ := idx_facts0 tLast
  refine ⟨tLast, (flush0_4 tLast).2 rfl, ?_⟩
  rw [mem_blk0_4]
  intro a
  match a with
  | ⟨0, _⟩ => show win0_4.index tLast (0 : Fin 2) * 1 ≤ (i 0).val ∧ (i 0).val < win0_4.index tLast (0 : Fin 2) * 1 + 1; omega
  | ⟨1, _⟩ => show win0_4.index tLast (1 : Fin 2) * 256 ≤ (i 1).val ∧ (i 1).val < win0_4.index tLast (1 : Fin 2) * 256 + 256; omega

/-- The last point's block is the whole of window 5's array. -/
theorem covered0_5 (i : S1x1.Idx) : ∃ t : Fin cfg0.N, (cfg0.win 5).flush t = true ∧ i ∈ ((cfg0.win 5).blk t).view.set := by
  have hi0 : (i 0).val < 1 := (i 0).isLt
  have hi1 : (i 1).val < 1 := (i 1).isLt
  obtain ⟨-, -, -, -, -, -, -, -, -, -, e10, e11⟩ := idx_facts0 tLast
  refine ⟨tLast, (flush0_5 tLast).2 rfl, ?_⟩
  rw [mem_blk0_5]
  intro a
  match a with
  | ⟨0, _⟩ => show win0_5.index tLast (0 : Fin 2) * 1 ≤ (i 0).val ∧ (i 0).val < win0_5.index tLast (0 : Fin 2) * 1 + 1; omega
  | ⟨1, _⟩ => show win0_5.index tLast (1 : Fin 2) * 1 ≤ (i 1).val ∧ (i 1).val < win0_5.index tLast (1 : Fin 2) * 1 + 1; omega

/-- Window 4's array after the region: the final running vector. -/
theorem last0_4 (c : Dev nD)
    (hinv : ∀ (n : ℕ) (hn : n < cfg0.N),
      (∀ f : Fin 256, (outsAt0 V c n hn).2.2.2.2.1 (ix2 (0 : Fin 1) f) = (Cert.Spec.acc (oeOf V c) (pjOf V c) (n + 1)).1 f)
      ∧ (outsAt0 V c n hn).2.2.2.2.2 (ix2 (0 : Fin 1) (0 : Fin 1)) = (Cert.Spec.acc (oeOf V c) (pjOf V c) (n + 1)).2)
    (f : Fin 256) :
    (dat0 (F := Ideal) V c).arrAt 4 cfg0.N (ix2 (0 : Fin 1) f) = Cert.Spec.Sfin (oeOf V c) (pjOf V c) f :=
  congrFun ((dat0 (F := Ideal) V c).arrAt_eq_of_cover 4 (G0_4 V c) (fun t hf => flushed0_4_eq V c hinv t hf) covered0_4) (ix2 (0 : Fin 1) f)

/-- Window 5's array after the region: the final running maximum. -/
theorem last0_5 (c : Dev nD)
    (hinv : ∀ (n : ℕ) (hn : n < cfg0.N),
      (∀ f : Fin 256, (outsAt0 V c n hn).2.2.2.2.1 (ix2 (0 : Fin 1) f) = (Cert.Spec.acc (oeOf V c) (pjOf V c) (n + 1)).1 f)
      ∧ (outsAt0 V c n hn).2.2.2.2.2 (ix2 (0 : Fin 1) (0 : Fin 1)) = (Cert.Spec.acc (oeOf V c) (pjOf V c) (n + 1)).2) :
    (dat0 (F := Ideal) V c).arrAt 5 cfg0.N (ix2 (0 : Fin 1) (0 : Fin 1)) = Cert.Spec.Bfin (oeOf V c) (pjOf V c) :=
  congrFun ((dat0 (F := Ideal) V c).arrAt_eq_of_cover 5 (G0_5 V c) (fun t hf => flushed0_5_eq V c hinv t hf) covered0_5) (ix2 (0 : Fin 1) (0 : Fin 1))

end Last0

end Cert.KernelIdeal.Val
end
-- ==== Proof.KI.Val0Final.lean ====
/-
  Region 0's four output arrays after the region, over the extended reals: the shifted exponentials and the row
  maxima of the projected rows, and the running vector and running maximum after all eight tiles.
-/
import proofs.«170462_j60730837566028_1_alg».proof.Proof.KI.Val0Out
import proofs.«170462_j60730837566028_1_alg».proof.Proof.KI.Val0Inv
import proofs.«170462_j60730837566028_1_alg».proof.Proof.KI.Val0Last

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat Cfg Window)

variable (V : (c : Dev nD) → (b : Ref sig .tc) → Buf (Elt Ideal) ((c : Thread nD τ).loc b))

/-- Window 2's array after the region: the shifted exponentials of the projected rows. -/
theorem final0_2 (c : Dev nD) (r : Fin 32768) (f : Fin 256) :
    (dat0 (F := Ideal) V c).arrAt 2 cfg0.N (ix2 r f)
      = Cert.Spec.expRow (fun (a : Fin 32768) (k : Fin 256) => (V c main_arg1 : S32768x256.Idx → EReal) (ix2 a k))
          (fun (k g : Fin 256) => (V c main_arg2 : S256x256.Idx → EReal) (ix2 k g)) r f :=
  congrFun (arr0_2 V c) (ix2 r f)

/-- Window 3's array after the region: the row maxima of the projected rows. -/
theorem final0_3 (c : Dev nD) (r : Fin 32768) :
    (dat0 (F := Ideal) V c).arrAt 3 cfg0.N (ix2 (0 : Fin 1) r)
      = Cert.Spec.rowMax (fun (a : Fin 32768) (k : Fin 256) => (V c main_arg1 : S32768x256.Idx → EReal) (ix2 a k))
          (fun (k g : Fin 256) => (V c main_arg2 : S256x256.Idx → EReal) (ix2 k g)) r :=
  congrFun (arr0_3 V c) (ix2 (0 : Fin 1) r)

/-- Window 4's array after the region: the running vector after all eight tiles. -/
theorem final0_4 (c : Dev nD) (f : Fin 256) :
    (dat0 (F := Ideal) V c).arrAt 4 cfg0.N (ix2 (0 : Fin 1) f)
      = Cert.Spec.Sfin (fun (a : Fin 32768) (k : Fin 256) => (V c main_arg1 : S32768x256.Idx → EReal) (ix2 a k))
          (fun (k g : Fin 256) => (V c main_arg2 : S256x256.Idx → EReal) (ix2 k g)) f :=
  last0_4 V c (inv0 V c) f

/-- Window 5's array after the region: the running maximum after all eight tiles. -/
theorem final0_5 (c : Dev nD) :
    (dat0 (F := Ideal) V c).arrAt 5 cfg0.N (ix2 (0 : Fin 1) (0 : Fin 1))
      = Cert.Spec.Bfin (fun (a : Fin 32768) (k : Fin 256) => (V c main_arg1 : S32768x256.Idx → EReal) (ix2 a k))
          (fun (k g : Fin 256) => (V c main_arg2 : S256x256.Idx → EReal) (ix2 k g)) :=
  last0_5 V c (inv0 V c)

end Cert.KernelIdeal.Val

end
-- ==== Proof.KI.KerIsSpec.lean ====
import proofs.«170462_j60730837566028_1_alg».proof.Proof.KI.KerCompose
import proofs.«170462_j60730837566028_1_alg».proof.Proof.KI.Val0Final

/-! The result array after the run, entry by entry, is the tiled computation of the specification applied to the
    three argument arrays: the composition of the three regions with what the first region leaves. -/

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

/-- The result array after the run is the tiled computation of the three argument arrays. -/
theorem ker_eq (m : (ℓ : Loc nD τ sig) → Buf (Elt Ideal) ℓ) (ρ : Dev nD → PrngReg) (c : Dev nD) (n : Fin 4096) (mm : Fin 32768) :
    (dat2 (F := Ideal) (V2 m ρ) c).arrAt 5 cfg2.N (ix2 n mm)
      = Cert.Spec.kerOut (fun (a : Fin 4096) (k : Fin 256) => (m ((c : Thread nD τ).loc main_arg0) : S4096x256.Idx → EReal) (ix2 a k))
          (fun (a : Fin 32768) (k : Fin 256) => (m ((c : Thread nD τ).loc main_arg1) : S32768x256.Idx → EReal) (ix2 a k))
          (fun (k g : Fin 256) => (m ((c : Thread nD τ).loc main_arg2) : S256x256.Idx → EReal) (ix2 k g)) n mm :=
  ker_eq_of m ρ c n mm (fun r f => final0_2 (V0 m ρ) c r f) (fun r => final0_3 (V0 m ρ) c r)
    (fun f => final0_4 (V0 m ρ) c f) (final0_5 (V0 m ρ) c)

end Cert.KernelIdeal.Val

end
-- ==== Proof.RefIsSpec.lean ====
/-
  The reference program, read one stage at a time at plain coordinates, is the specification Cert.Spec.refOut.

  With L = se·pj and R = oe·pj, the reference forms the row maxima a and b of L and R (two folds of max from −∞),
  eL = exp(L − a), eR = exp(R − b), the Gram matrix G = eL · eRᵀ, the logits log G + a + b, and then a
  log-softmax along the second coordinate: the row maximum M of the logits (one more fold of max from −∞, and one
  more max with −∞, which changes nothing), the shifted logits, and the log of the sum of their exponentials
  (a sum started from 0).  Each stage below is read at an index built from plain coordinates.
-/
import proofs.«170462_j60730837566028_1_alg».proof.Proof.RefReadP
import proofs.«170462_j60730837566028_1_alg».proof.Proof.Spec
import Idealize.ShloMosaic.PureOps.Reduce

noncomputable section

namespace Cert.RefSpec

open Cert.ReferenceIdeal Cert.ReferenceIdeal.Gen Cert.ReferenceIdeal.ReadP Idealize.ShloMosaic Idealize.ShloMosaic.ValueIdx
open Cert.Spec

/-- Two indices with the same coordinates are equal. -/
local macro "idx_eq" : tactic => `(tactic| (funext a; apply Fin.ext; fin_cases a <;> rfl))

/-! ## Folds of max from −∞ -/

/-- The bit pattern of −∞ is the bottom element. -/
theorem ofBits_neg_inf : Ideal.ofBits .f32 0xFF800000#32 = (⊥ : EReal) := by simp [Ideal.ofBits, Ideal.ieee]

/-- A reduced row index r with column k put back is (r, k). -/
theorem lift_row {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- From −∞ a reduction with a maximum body along the rows of a table is, at row r, the maximum of that row. -/
theorem reduce_max_rows {m n : Nat} (x : FVec Ideal ⟨2, ![m, n]⟩ .f32)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (r : Fin m) :
    Host.reduce FloatOps.maximumf x (constant (⟨0, ![]⟩ : Shape) .f32 0xFF800000#32) h' hu (ix1 r)
      = maxOver fun k : Fin n => x (ix2 r k) := by
  rw [Host.reduce_eq_fold_single FloatOps.maximumf x _ h' h hu]
  have hb : (constant (⟨0, ![]⟩ : Shape) .f32 0xFF800000#32 : FVec Ideal _ .f32) (Shape.Idx.first hu) = (⊥ : EReal) :=
    ofBits_neg_inf
  rw [hb]
  have hf : (x ∘ h.lift (ix1 r)) = fun k : Fin n => x (ix2 r k) := funext fun k => congrArg x (lift_row h r k)
  unfold maxOver
  exact congrArg (fun f => Finset.fold max (⊥ : EReal) f (Finset.univ : Finset (Fin n))) hf

/-! ## The stages -/

section Stages

variable (x0 : (⟨S4096x256, .f32⟩ : BufTy).Contents (Elt Ideal)) (x1 : (⟨S32768x256, .f32⟩ : BufTy).Contents (Elt Ideal))
  (x2 : (⟨S256x256, .f32⟩ : BufTy).Contents (Elt Ideal))

local notation "SE" => (fun (a : Fin 4096) (k : Fin 256) => x0 (ValueIdx.ix2 a k))
local notation "OE" => (fun (a : Fin 32768) (k : Fin 256) => x1 (ValueIdx.ix2 a k))
local notation "PJ" => (fun (a : Fin 256) (k : Fin 256) => x2 (ValueIdx.ix2 a k))

/-- L = se·pj. -/
theorem v0_at (n : Fin 4096) (f : Fin 256) : val_main_v0 (F := Ideal) x0 x2 (ix2 n f) = proj SE PJ n f := by
  rw [val_main_v0_apply]
  unfold proj
  refine Finset.sum_congr rfl fun k _ => ?_
  have el : lidx_main_v0 (ix2 n f) k = ix2 n k := by idx_eq
  have er : ridx_main_v0 (ix2 n f) k = ix2 k f := by idx_eq
  rw [el, er]

/-- R = oe·pj. -/
theorem v1_at (r : Fin 32768) (f : Fin 256) : val_main_v1 (F := Ideal) x1 x2 (ix2 r f) = proj OE PJ r f := by
  rw [val_main_v1_apply]
  unfold proj
  refine Finset.sum_congr rfl fun k _ => ?_
  have el : lidx_main_v1 (ix2 r f) k = ix2 r k := by idx_eq
  have er : ridx_main_v1 (ix2 r f) k = ix2 k f := by idx_eq
  rw [el, er]

/-- a = the row maxima of L. -/
theorem v2_at (n : Fin 4096) : val_main_v2 (F := Ideal) x0 x2 (ix1 n) = rowMax SE PJ n := by
  unfold val_main_v2 val_main_cst
  rw [reduce_max_rows (val_main_v0 (F := Ideal) x0 x2) reducesTo_S4096x256_S4096_d1 (by decide) h_S_ n]
  unfold rowMax
  exact congrArg maxOver (funext fun f => v0_at x0 x2 n f)

/-- b = the row maxima of R. -/
theorem v4_at (r : Fin 32768) : val_main_v4 (F := Ideal) x1 x2 (ix1 r) = rowMax OE PJ r := by
  unfold val_main_v4 val_main_cst_0
  rw [reduce_max_rows (val_main_v1 (F := Ideal) x1 x2) reducesTo_S32768x256_S32768_d1 (by decide) h_S_ r]
  unfold rowMax
  exact congrArg maxOver (funext fun f => v1_at x1 x2 r f)

/-- eL = exp(L − a). -/
theorem v8_at (n : Fin 4096) (f : Fin 256) : val_main_v8 (F := Ideal) x0 x2 (ix2 n f) = expRow SE PJ n f := by
  rw [val_main_v8_apply, val_main_v7_apply, val_main_v6_apply, val_main_v3_apply]
  have e : idx_main_v3 (idx_main_v6 (ix2 n f)) = ix1 n := by idx_eq
  rw [e, v0_at, v2_at]
  rfl

/-- eR = exp(R − b). -/
theorem v11_at (r : Fin 32768) (f : Fin 256) : val_main_v11 (F := Ideal) x1 x2 (ix2 r f) = expRow OE PJ r f := by
  rw [val_main_v11_apply, val_main_v10_apply, val_main_v9_apply, val_main_v5_apply]
  have e : idx_main_v5 (idx_main_v9 (ix2 r f)) = ix1 r := by idx_eq
  rw [e, v1_at, v4_at]
  rfl

/-- eRᵀ. -/
theorem v12_at (f : Fin 256) (r : Fin 32768) : val_main_v12 (F := Ideal) x1 x2 (ix2 f r) = expRow OE PJ r f := by
  rw [val_main_v12_apply]
  have e : idx_main_v12 (ix2 f r) = ix2 r f := by idx_eq
  rw [e, v11_at]

/-- G = eL · eRᵀ. -/
theorem v13_at (n : Fin 4096) (r : Fin 32768) : val_main_v13 (F := Ideal) x0 x1 x2 (ix2 n r) = gram SE OE PJ n r := by
  rw [val_main_v13_apply]
  unfold gram
  refine Finset.sum_congr rfl fun k _ => ?_
  have el : lidx_main_v13 (ix2 n r) k = ix2 n k := by idx_eq
  have er : ridx_main_v13 (ix2 n r) k = ix2 k r := by idx_eq
  rw [el, er, v8_at, v12_at]

/-- The logits (log G + a) + b. -/
theorem v19_at (n : Fin 4096) (r : Fin 32768) : val_main_v19 (F := Ideal) x0 x1 x2 (ix2 n r) = logits SE OE PJ n r := by
  rw [val_main_v19_apply, val_main_v16_apply, val_main_v14_apply, val_main_v15_apply, val_main_v3_apply,
    val_main_v18_apply, val_main_v17_apply, val_main_v5_apply]
  have ea : idx_main_v3 (idx_main_v15 (ix2 n r)) = ix1 n := by idx_eq
  have eb : idx_main_v5 (idx_main_v17 (idx_main_v18 (ix2 n r))) = ix1 r := by idx_eq
  rw [ea, eb, v13_at, v2_at, v4_at]
  rfl

/-- The row maxima of the logits. -/
theorem c0_at (n : Fin 4096) :
    val_main_call0_v0 (F := Ideal) x0 x1 x2 (ix1 n) = maxOver fun r : Fin 32768 => logits SE OE PJ n r := by
  unfold val_main_call0_v0 val_main_call0_cst
  rw [reduce_max_rows (val_main_v19 (F := Ideal) x0 x1 x2) reducesTo_S4096x32768_S4096_d1 (by decide) h_S_ n]
  exact congrArg maxOver (funext fun r => v19_at x0 x1 x2 n r)

/-- One more maximum with −∞ changes nothing. -/
theorem c2_at (n : Fin 4096) :
    val_main_call0_v2 (F := Ideal) x0 x1 x2 (ix1 n) = maxOver fun r : Fin 32768 => logits SE OE PJ n r := by
  rw [val_main_call0_v2_apply, val_main_call0_v1_apply, val_main_call0_cst_0_apply, c0_at]
  show max (Ideal.ofBits .f32 0xFF800000#32) _ = _
  rw [ofBits_neg_inf]
  exact max_eq_right bot_le

/-- The shifted logits. -/
theorem c5_at (n : Fin 4096) (r : Fin 32768) :
    val_main_call0_v5 (F := Ideal) x0 x1 x2 (ix2 n r)
      = logits SE OE PJ n r - maxOver fun r' : Fin 32768 => logits SE OE PJ n r' := by
  rw [val_main_call0_v5_apply, val_main_call0_v4_apply, val_main_call0_v3_apply]
  have e : idx_main_call0_v3 (idx_main_call0_v4 (ix2 n r)) = ix1 n := by idx_eq
  rw [e, v19_at, c2_at]
  rfl

/-- The sum of the exponentials of the shifted logits, started from 0. -/
theorem c7_at (n : Fin 4096) :
    val_main_call0_v7 (F := Ideal) x0 x1 x2 (ix1 n)
      = ∑ r : Fin 32768, Ideal.exp (logits SE OE PJ n r - maxOver fun r' : Fin 32768 => logits SE OE PJ n r') := by
  rw [val_main_call0_v7_apply, val_main_call0_cst_1_apply]
  show Ideal.ofBits .f32 0x00000000#32 + _ = _
  rw [Ideal.ofBits_zero_f32, zero_add]
  refine Finset.sum_congr rfl fun k _ => ?_
  have e : idx_main_call0_v7 (ix1 n) k = ix2 n k := by idx_eq
  rw [e, val_main_call0_v6_apply, c5_at]
  rfl

/-- The result: the log-softmax of the logits. -/
theorem v20_at (n : Fin 4096) (r : Fin 32768) :
    val_main_v20 (F := Ideal) x0 x1 x2 (ix2 n r) = refOut SE OE PJ n r := by
  rw [val_main_v20_apply, val_main_call0_v10_apply, val_main_call0_v9_apply, val_main_call0_v8_apply]
  have e : idx_main_call0_v8 (idx_main_call0_v10 (ix2 n r)) = ix1 n := by idx_eq
  rw [e, c5_at, c7_at]
  unfold refOut
  simp only [Ideal.subf_def, Ideal.hostUnary_log_def]

end Stages

/-- The reference's result, read at plain coordinates, is the specification. -/
theorem ref_eq (x0 : FVec Ideal S4096x256 .f32) (x1 : FVec Ideal S32768x256 .f32) (x2 : FVec Ideal S256x256 .f32)
    (n : Fin 4096) (mm : Fin 32768) :
    val_main_v20 (F := Ideal) x0 x1 x2 (ValueIdx.ix2 n mm)
      = Cert.Spec.refOut (fun a k => x0 (ValueIdx.ix2 a k)) (fun a k => x1 (ValueIdx.ix2 a k))
          (fun a k => x2 (ValueIdx.ix2 a k)) n mm :=
  v20_at x0 x1 x2 n mm

end Cert.RefSpec

end
-- ==== Proof.RefRes.lean ====
/-
  The reference's result buffer, as its run states it, is the specification of the argument buffers' contents:
  the run's term is the last stage of the reference read one operation at a time, and that stage is the specification.
-/
import proofs.«170462_j60730837566028_1_alg».proof.Proof.RefIsSpec

noncomputable section

namespace Cert.RefSpec

open Cert.ReferenceIdeal Cert.ReferenceIdeal.Gen Cert.ReferenceIdeal.ReadP Idealize.ShloMosaic Idealize.ShloMosaic.ValueIdx
open Idealize.ShloMosaic.TcCoe Idealize.SL.Sem

/-- The reference's result buffer, as the run states it, read at plain coordinates: the specification of the
    argument buffers' launch contents. -/
theorem res_eq (m : (ℓ : Loc nD τ sig) → Buf (Elt Ideal) ℓ) (c : Dev nD) (n : Fin 4096) (mm : Fin 32768) :
    Cert.ReferenceIdeal.ValueP.res_main_v20 (F := Ideal) m c (ValueIdx.ix2 n mm)
      = Cert.Spec.refOut (fun a k => m ((c.tc : Thread nD τ).loc main_arg0) (ValueIdx.ix2 a k))
          (fun a k => m ((c.tc : Thread nD τ).loc main_arg1) (ValueIdx.ix2 a k))
          (fun a k => m ((c.tc : Thread nD τ).loc main_arg2) (ValueIdx.ix2 a k)) n mm := by
  rw [val_main_v20_eq]
  exact ref_eq _ _ _ n mm

end Cert.RefSpec

end
-- ==== Proof.SpecReal.lean ====
/-
  The closing identity over the reals.  For positive G and any reals a, B, mx, with lg m = log(G m) + a + b m,

      (lg m - mx) - log(Σ_m' exp(lg m' - mx)) = ((log(G m) + b m) - B) - log(Σ_m' G m' · exp(b m' - B)),

  since exp(lg m' - mx) = exp((a + B) - mx) · (G m' · exp(b m' - B)) and the logarithm of a product of positive
  numbers is the sum of the logarithms.  Also the rescaling of a weighted sum of exponentials.
-/
import Mathlib.Analysis.SpecialFunctions.Log.Basic
import Mathlib.Algebra.BigOperators.Ring.Finset

namespace Cert.SpecReal

/-- exp(log G + a + b - mx) = exp((a + B) - mx) · (G · exp(b - B)) for positive G. -/
theorem exp_logit (G a b B mx : ℝ) (hG : 0 < G) :
    Real.exp (((Real.log G + a) + b) - mx) = Real.exp ((a + B) - mx) * (G * Real.exp (b - B)) := by
  have h : ((Real.log G + a) + b) - mx = Real.log G + (((a + B) - mx) + (b - B)) := by ring
  rw [h, Real.exp_add, Real.exp_log hG, Real.exp_add]; ring

/-- The closing identity. -/
theorem close_real {J : Type*} [Fintype J] [Nonempty J] (G b : J → ℝ) (hG : ∀ j, 0 < G j) (a B mx : ℝ) (m : J) :
    ((((Real.log (G m) + a) + b m) - mx) - Real.log (∑ m', Real.exp (((Real.log (G m') + a) + b m') - mx)))
      = (((Real.log (G m) + b m) - B) - Real.log (∑ m', G m' * Real.exp (b m' - B))) := by
  have hpos : 0 < ∑ m', G m' * Real.exp (b m' - B) :=
    Finset.sum_pos (fun j _ => mul_pos (hG j) (Real.exp_pos _)) Finset.univ_nonempty
  have hsum : ∑ m', Real.exp (((Real.log (G m') + a) + b m') - mx)
      = Real.exp ((a + B) - mx) * ∑ m', G m' * Real.exp (b m' - B) := by
    rw [Finset.mul_sum]; exact Finset.sum_congr rfl fun j _ => exp_logit (G j) a (b j) B mx (hG j)
  rw [hsum, Real.log_mul (Real.exp_pos _).ne' hpos.ne', Real.log_exp]; ring

/-- Rescaling a weighted sum of exponentials from the shift B to the shift B'. -/
theorem rescale {J : Type*} (s : Finset J) (x b : J → ℝ) (B B' : ℝ) :
    (∑ j ∈ s, x j * Real.exp (b j - B)) * Real.exp (B - B') = ∑ j ∈ s, x j * Real.exp (b j - B') := by
  rw [Finset.sum_mul]
  refine Finset.sum_congr rfl fun j _ => ?_
  rw [mul_assoc, ← Real.exp_add]; congr 2; ring

end Cert.SpecReal
-- ==== Proof.LibSoftmaxShift.lean ====
/-
  A softmax-weighted average does not depend on the shift.  For real logits `e j` and real values `w j` over a
  nonempty finite index set, and any two real shifts `m`, `M`,

      (Σ_j exp(e j − m) · w j) / (Σ_j exp(e j − m))  =  Σ_j (exp(e j − M) / Σ_k exp(e k − M)) · w j ,

  since exp(e j − m) = exp(M − m) · exp(e j − M) and the common positive factor cancels.  Stated over the reals and then
  over the extended reals for real-valued data (the exponential, the quotient and the sums of the ideal float
  instance), with two companions: a sum over `a·b` consecutive indices taken `b` at a time, and the maximum of a
  nonempty finite family of reals folded from −∞, which is a real.
-/
import Idealize.ShloMosaic.PureOps.Ideal.Laws

namespace Cert.LibSoftmaxShift

open Idealize.ShloMosaic

/-! ## Over the reals -/

theorem shift_real {J : Type*} [Fintype J] [Nonempty J] (e w : J → ℝ) (m M : ℝ) :
    (∑ j, Real.exp (e j - m) * w j) / (∑ j, Real.exp (e j - m))
      = ∑ j, Real.exp (e j - M) / (∑ k, Real.exp (e k - M)) * w j := by
  have hS : 0 < ∑ k, Real.exp (e k - M) := Finset.sum_pos (fun j _ => Real.exp_pos _) Finset.univ_nonempty
  have hκ : Real.exp (M - m) ≠ 0 := (Real.exp_pos _).ne'
  have key : ∀ j, Real.exp (e j - m) = Real.exp (M - m) * Real.exp (e j - M) := fun j => by
    rw [← Real.exp_add]; congr 1; ring
  have hnum : ∑ j, Real.exp (e j - m) * w j = Real.exp (M - m) * ∑ j, Real.exp (e j - M) * w j := by
    rw [Finset.mul_sum]; exact Finset.sum_congr rfl fun j _ => by rw [key j, mul_assoc]
  have hden : ∑ j, Real.exp (e j - m) = Real.exp (M - m) * ∑ j, Real.exp (e j - M) := by
    rw [Finset.mul_sum]; exact Finset.sum_congr rfl fun j _ => key j
  rw [hnum, hden, mul_div_mul_left _ _ hκ, Finset.sum_div]
  exact Finset.sum_congr rfl fun j _ => by rw [div_mul_eq_mul_div]

/-! ## Reals inside the extended reals -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe_coe (x y : ℝ) (hy : y ≠ 0) : Ideal.div (x : EReal) (y : EReal) = ((x / y : ℝ) : EReal) := by
  rw [Ideal.div_coe hy, ← EReal.coe_mul, mul_one_div]

theorem exp_sub_coe (x y : ℝ) : Ideal.exp ((x : EReal) - (y : EReal)) = ((Real.exp (x - y) : ℝ) : EReal) := by
  rw [← EReal.coe_sub, Ideal.exp_coe]

/-- The weighted average over the extended reals, for real data: the shift `m` against any real shift `Mx`, the
    second normalizer written from zero as a host sum is. -/
theorem shift_ereal {J : Type*} [Fintype J] [Nonempty J] (e w : J → ℝ) (m : ℝ) (Mx : EReal) (hM : ∃ r : ℝ, Mx = (r : EReal)) :
    Ideal.div (∑ j, Ideal.exp ((e j : EReal) - (m : EReal)) * (w j : EReal)) (∑ j, Ideal.exp ((e j : EReal) - (m : EReal)))
      = ∑ j, Ideal.div (Ideal.exp ((e j : EReal) - Mx)) (0 + ∑ k, Ideal.exp ((e k : EReal) - Mx)) * (w j : EReal) := by
  obtain ⟨M, rfl⟩ := hM
  have hS : ∀ μ : ℝ, (∑ k, Real.exp (e k - μ)) ≠ 0 := fun μ =>
    (Finset.sum_pos (fun j _ => Real.exp_pos _) Finset.univ_nonempty).ne'
  simp only [exp_sub_coe, ← EReal.coe_mul, coe_sum, zero_add]
  rw [div_coe_coe _ _ (hS m)]
  have : ∀ j, Ideal.div ((Real.exp (e j - M) : ℝ) : EReal) ((∑ k, Real.exp (e k - M) : ℝ) : EReal) * (w j : EReal)
      = ((Real.exp (e j - M) / (∑ k, Real.exp (e k - M)) * w j : ℝ) : EReal) := fun j => by
    rw [div_coe_coe _ _ (hS M), ← EReal.coe_mul]
  simp only [this, coe_sum]
  exact congrArg _ (shift_real e w m M)

/-! ## A maximum folded from −∞ over real entries -/

theorem fold_max_bot_real {ι : Type*} (s : Finset ι) (hs : s.Nonempty) (f : ι → ℝ) :
    ∃ r : ℝ, s.fold max (⊥ : EReal) (fun i => (f i : EReal)) = (r : EReal) := by
  classical
  induction s using Finset.induction_on with
  | empty => exact absurd hs Finset.not_nonempty_empty
  | insert a s ha ih =>
    rw [Finset.fold_insert ha]
    rcases s.eq_empty_or_nonempty with rfl | hne
    · exact ⟨f a, by simp⟩
    · obtain ⟨r, hr⟩ := ih hne
      exact ⟨max (f a) r, by rw [hr]; exact (EReal.coe_strictMono.monotone.map_max).symm⟩

/-! ## A sum taken in consecutive runs -/

theorem sum_runs {M : Type*} [AddCommMonoid M] (b : ℕ) (f : ℕ → M) : ∀ a : ℕ,
    ∑ k ∈ Finset.range a, ∑ j ∈ Finset.range b, f (b * k + j) = ∑ n ∈ Finset.range (a * b), f n
  | 0 => by simp
  | a + 1 => by
    rw [Finset.sum_range_succ, sum_runs b f a, Nat.succ_mul, Finset.sum_range_add, Nat.mul_comm a b]

end Cert.LibSoftmaxShift
-- ==== Proof.LibSumBlocks.lean ====
/-
  A sum over an index range cut into equal consecutive blocks: the sum over `Fin N`, `N = a·b`, is the sum
  over the `a` blocks of the sums over the `b` positions inside each, position `k` of block `t` being the index
  `t·b + k`. In any commutative additive monoid (the extended reals among them), so no finiteness is asked.
-/
import Mathlib

namespace Cert.LibSumBlocks

/-- Position `k` of block `t` lies inside the range. -/
theorem block_lt {a b : ℕ} (t : Fin a) (k : Fin b) : t.val * b + k.val < a * b := by
  have h1 : t.val + 1 ≤ a := t.isLt
  have h2 : k.val < b := k.isLt
  calc t.val * b + k.val < t.val * b + b := by omega
    _ = (t.val + 1) * b := by ring
    _ ≤ a * b := Nat.mul_le_mul_right b h1

/-- The sum over `Fin N`, `N = a·b`, block by block. -/
theorem sum_blocks {M : Type*} [AddCommMonoid M] (a b N : ℕ) (h : N = a * b) (f : Fin N → M) :
    ∑ n : Fin N, f n = ∑ t : Fin a, ∑ k : Fin b, f ⟨t.val * b + k.val, h ▸ block_lt t k⟩ := by
  subst h
  rw [← Equiv.sum_comp finProdFinEquiv f, Fintype.sum_prod_type]
  refine Finset.sum_congr rfl fun t _ => Finset.sum_congr rfl fun k _ => ?_
  congr 1
  apply Fin.ext
  simp only [finProdFinEquiv_apply_val]
  ring

end Cert.LibSumBlocks
-- ==== Proof.SpecAcc.lean ====
/-
  The accumulation invariant of the tiled computation, for real data.

  Suppose every eR m f = exp(R m f - b m) and every row maximum b m is a real.  After the first k ≥ 1 tiles the
  running maximum is a real B, and the running vector is

      S f = Σ_{tiles i < k} Σ_j eR (row i j) f · exp(b (row i j) - B).

  The first tile starts from S = 0 and B = -∞: -∞ minus a real is -∞, exp(-∞) = 0, and 0 · 0 = 0.  A later tile
  rescales the old sum by exp(B - B'), which moves every term from the shift B to the shift B'.  After all eight
  tiles the sum runs over all 32768 rows.
-/
import proofs.«170462_j60730837566028_1_alg».proof.Proof.Spec
import proofs.«170462_j60730837566028_1_alg».proof.Proof.SpecReal
import proofs.«170462_j60730837566028_1_alg».proof.Proof.LibSoftmaxShift
import proofs.«170462_j60730837566028_1_alg».proof.Proof.LibSumBlocks

namespace Cert.Spec

open Idealize.ShloMosaic Cert.LibSoftmaxShift

/-- One tile's real contribution at the shift B. -/
noncomputable def tileSum (eR : Fin 32768 → Fin 256 → ℝ) (b : Fin 32768 → ℝ) (f : Fin 256) (B : ℝ) (i : Fin 8) : ℝ :=
  ∑ j : Fin 4096, eR (tileRow i j) f * Real.exp (b (tileRow i j) - B)

theorem tileSum_rescale (eR : Fin 32768 → Fin 256 → ℝ) (b : Fin 32768 → ℝ) (f : Fin 256) (B B' : ℝ) (i : Fin 8) :
    tileSum eR b f B i * Real.exp (B - B') = tileSum eR b f B' i :=
  Cert.SpecReal.rescale Finset.univ (fun j => eR (tileRow i j) f) (fun j => b (tileRow i j)) B B'

section
variable (oe : Fin 32768 → Fin 256 → EReal) (pj : Fin 256 → Fin 256 → EReal)
  (eR : Fin 32768 → Fin 256 → ℝ) (b : Fin 32768 → ℝ)
  (he : ∀ m f, expRow oe pj m f = (eR m f : EReal)) (hb : ∀ m, rowMax oe pj m = (b m : EReal))

include hb in
/-- A tile's maximum of real row maxima is a real. -/
theorem tileMax_real (i : Fin 8) : ∃ t : ℝ, tileMax oe pj i = (t : EReal) := by
  simp only [tileMax, maxOver, hb]
  exact fold_max_bot_real _ Finset.univ_nonempty _

include he hb in
/-- The tile's weighted rows at a real shift. -/
theorem tile_term (i : Fin 8) (f : Fin 256) (B' : ℝ) :
    ∑ j : Fin 4096, expRow oe pj (tileRow i j) f * Ideal.exp (rowMax oe pj (tileRow i j) - (B' : EReal))
      = ((tileSum eR b f B' i : ℝ) : EReal) := by
  simp only [he, hb, exp_sub_coe, ← EReal.coe_mul, coe_sum, tileSum]

include he hb in
/-- The first tile, from S = 0 and B = -∞. -/
theorem step_bot (i : Fin 8) (oldS : Fin 256 → EReal) (hS : ∀ f, oldS f = 0) :
    ∃ B' : ℝ, stepB oe pj i ⊥ = (B' : EReal)
      ∧ ∀ f, stepS oe pj i oldS ⊥ f = ((tileSum eR b f B' i : ℝ) : EReal) := by
  obtain ⟨t, ht⟩ := tileMax_real oe pj b hb i
  have hB : stepB oe pj i ⊥ = (t : EReal) := by rw [stepB, ht, max_bot_left]
  refine ⟨t, hB, fun f => ?_⟩
  rw [stepS, hB, hS f, zero_mul, zero_add]
  exact tile_term oe pj eR b he hb i f t

include he hb in
/-- A later tile, from a real B and a real running sum over the tiles in s. -/
theorem step_real (i : Fin 8) (oldS : Fin 256 → EReal) (B : ℝ) (s : Finset (Fin 8)) (hi : i ∉ s)
    (hS : ∀ f, oldS f = ((∑ i' ∈ s, tileSum eR b f B i' : ℝ) : EReal)) :
    ∃ B' : ℝ, stepB oe pj i (B : EReal) = (B' : EReal)
      ∧ ∀ f, stepS oe pj i oldS (B : EReal) f = ((∑ i' ∈ insert i s, tileSum eR b f B' i' : ℝ) : EReal) := by
  obtain ⟨t, ht⟩ := tileMax_real oe pj b hb i
  have hB : stepB oe pj i (B : EReal) = ((max B t : ℝ) : EReal) := by
    rw [stepB, ht]; exact (EReal.coe_strictMono.monotone.map_max).symm
  refine ⟨max B t, hB, fun f => ?_⟩
  rw [stepS, hB, hS f, tile_term oe pj eR b he hb i f (max B t), exp_sub_coe, ← EReal.coe_mul, ← EReal.coe_add,
    Finset.sum_insert hi, Finset.sum_mul, add_comm]
  congr 2
  exact Finset.sum_congr rfl fun i' _ => tileSum_rescale eR b f B (max B t) i'

theorem filter_succ (k : ℕ) (h : k < 8) :
    (Finset.univ.filter fun i : Fin 8 => i.val < k + 1) = insert ⟨k, h⟩ (Finset.univ.filter fun i : Fin 8 => i.val < k) := by
  ext i
  simp only [Finset.mem_filter, Finset.mem_univ, true_and, Finset.mem_insert, Fin.ext_iff]
  omega

theorem not_mem_filter (k : ℕ) (h : k < 8) : (⟨k, h⟩ : Fin 8) ∉ (Finset.univ.filter fun i : Fin 8 => i.val < k) := by
  simp

include he hb in
/-- The invariant after k + 1 tiles. -/
theorem acc_inv : ∀ (k : ℕ), k < 8 → ∃ B : ℝ, (acc oe pj (k + 1)).2 = (B : EReal)
    ∧ ∀ f, (acc oe pj (k + 1)).1 f
        = ((∑ i ∈ Finset.univ.filter (fun i : Fin 8 => i.val < k + 1), tileSum eR b f B i : ℝ) : EReal)
  | 0, h => by
    obtain ⟨B', hB', hS'⟩ := step_bot oe pj eR b he hb ⟨0, h⟩ (fun _ => 0) (fun _ => rfl)
    refine ⟨B', ?_, fun f => ?_⟩
    · simp only [acc, dif_pos h]; exact hB'
    · simp only [acc, dif_pos h]
      rw [hS' f, filter_succ 0 h]
      simp
  | k + 1, h => by
    have hk : k < 8 := by omega
    obtain ⟨B, hB, hS⟩ := acc_inv k hk
    obtain ⟨B', hB', hS'⟩ := step_real oe pj eR b he hb ⟨k + 1, h⟩ (acc oe pj (k + 1)).1 B _ (not_mem_filter (k + 1) h) hS
    refine ⟨B', ?_, fun f => ?_⟩
    · rw [acc, dif_pos h, hB]; exact hB'
    · rw [acc, dif_pos h, hB]
      exact (hS' f).trans (by rw [filter_succ (k + 1) h])

include he hb in
/-- After all eight tiles: a real B, and S f = Σ over all rows of eR m f · exp(b m - B). -/
theorem fin_eq : ∃ B : ℝ, Bfin oe pj = (B : EReal)
    ∧ ∀ f, Sfin oe pj f = ((∑ m : Fin 32768, eR m f * Real.exp (b m - B) : ℝ) : EReal) := by
  obtain ⟨B, hB, hS⟩ := acc_inv oe pj eR b he hb 7 (by norm_num)
  refine ⟨B, hB, fun f => ?_⟩
  have hall : (Finset.univ.filter fun i : Fin 8 => i.val < 7 + 1) = Finset.univ :=
    Finset.filter_true_of_mem fun i _ => i.isLt
  rw [Sfin, hS f, hall, Cert.LibSumBlocks.sum_blocks 8 4096 32768 rfl]
  rfl

end

end Cert.Spec
-- ==== Proof.SpecLaw.lean ====
/-
  The tiled computation equals the reference, for real data.

  Real inputs make every projected entry a real, every row maximum a real, every eL n f and eR m f a positive
  real, and G n m = Σ_f eL n f · eR m f a positive real, so log(G n m) is the real logarithm.  The logits are then
  reals lg m = log(G m) + a + b m and their maximum mx is a real.  The tiled side ends with a real B and
  S f = Σ_m eR m f · exp(b m - B), so Σ_f eL n f · S f = Σ_m G n m · exp(b m - B), a positive real.  Both sides are
  then reals, equal by the closing identity.
-/
import proofs.«170462_j60730837566028_1_alg».proof.Proof.SpecAcc

namespace Cert.Spec

open Idealize.ShloMosaic Cert.LibSoftmaxShift

section
variable {n : ℕ} (x : Fin n → Fin 256 → EReal) (pj : Fin 256 → Fin 256 → EReal)
  (hx : ∀ r k, ∃ y : ℝ, x r k = (y : EReal)) (hp : ∀ k f, ∃ y : ℝ, pj k f = (y : EReal))

include hx hp in
/-- A projected entry of real tables is a real. -/
theorem proj_real (r : Fin n) (f : Fin 256) : ∃ y : ℝ, proj x pj r f = (y : EReal) := by
  choose xr hxr using hx
  choose pr hpr using hp
  exact ⟨∑ k, xr r k * pr k f, by simp only [proj, hxr, hpr, ← EReal.coe_mul, coe_sum]⟩

include hx hp in
/-- A row maximum of a projected real table is a real. -/
theorem rowMax_real (r : Fin n) : ∃ y : ℝ, rowMax x pj r = (y : EReal) := by
  choose q hq using fun f => proj_real x pj hx hp r f
  simp only [rowMax, maxOver, hq]
  exact fold_max_bot_real _ Finset.univ_nonempty _

include hx hp in
/-- exp(entry - row maximum) is a positive real. -/
theorem expRow_real (r : Fin n) (f : Fin 256) : ∃ y : ℝ, 0 < y ∧ expRow x pj r f = (y : EReal) := by
  obtain ⟨q, hq⟩ := proj_real x pj hx hp r f
  obtain ⟨a, ha⟩ := rowMax_real x pj hx hp r
  exact ⟨Real.exp (q - a), Real.exp_pos _, by rw [expRow, hq, ha, exp_sub_coe]⟩

end

/-- The logarithm of a positive real. -/
theorem log_pos_coe (r : ℝ) (hr : 0 < r) : Ideal.log (r : EReal) = ((Real.log r : ℝ) : EReal) := by
  rw [Ideal.log_coe, if_neg (not_le.mpr hr)]

/-- Σ_f eL f · Σ_m eR m f · w m = Σ_m (Σ_f eL f · eR m f) · w m. -/
theorem sum_swap {F M : Type*} [Fintype F] [Fintype M] (eL : F → ℝ) (eR : M → F → ℝ) (w : M → ℝ) :
    ∑ f, eL f * ∑ m, eR m f * w m = ∑ m, (∑ f, eL f * eR m f) * w m := by
  simp only [Finset.mul_sum, Finset.sum_mul]
  rw [Finset.sum_comm]
  exact Finset.sum_congr rfl fun m _ => Finset.sum_congr rfl fun f _ => by ring

theorem kerOut_eq_refOut
    (se : Fin 4096 → Fin 256 → EReal) (oe : Fin 32768 → Fin 256 → EReal) (pj : Fin 256 → Fin 256 → EReal)
    (hse : ∀ n k, ∃ r : ℝ, se n k = (r : EReal)) (hoe : ∀ m k, ∃ r : ℝ, oe m k = (r : EReal))
    (hpj : ∀ k f, ∃ r : ℝ, pj k f = (r : EReal))
    (n : Fin 4096) (m : Fin 32768) : kerOut se oe pj n m = refOut se oe pj n m := by
  haveI : Nonempty (Fin 32768) := ⟨m⟩
  choose eL heLpos heL using fun n f => expRow_real se pj hse hpj n f
  choose eR heRpos heR using fun m f => expRow_real oe pj hoe hpj m f
  choose a ha using fun n => rowMax_real se pj hse hpj n
  choose b hb using fun m => rowMax_real oe pj hoe hpj m
  obtain ⟨B, hB, hS⟩ := fin_eq oe pj eR b heR hb
  -- G n m' is a positive real
  have hGpos : ∀ m', 0 < ∑ f, eL n f * eR m' f := fun m' =>
    Finset.sum_pos (fun f _ => mul_pos (heLpos n f) (heRpos m' f)) Finset.univ_nonempty
  have hlogG : ∀ m', Ideal.log (gram se oe pj n m') = ((Real.log (∑ f, eL n f * eR m' f) : ℝ) : EReal) := fun m' => by
    have : gram se oe pj n m' = ((∑ f, eL n f * eR m' f : ℝ) : EReal) := by
      simp only [gram, heL, heR, ← EReal.coe_mul, coe_sum]
    rw [this, log_pos_coe _ (hGpos m')]
  -- the logits and their maximum are reals
  have hlg : ∀ m', logits se oe pj n m'
      = ((((Real.log (∑ f, eL n f * eR m' f) + a n) + b m' : ℝ)) : EReal) := fun m' => by
    rw [logits, hlogG, ha, hb, ← EReal.coe_add, ← EReal.coe_add]
  obtain ⟨mx, hmx⟩ : ∃ mx : ℝ, (maxOver fun m' : Fin 32768 => logits se oe pj n m') = (mx : EReal) := by
    simp only [maxOver, hlg]
    exact fold_max_bot_real _ Finset.univ_nonempty _
  -- the reference
  have hden : ∀ μ : ℝ, 0 < ∑ m', Real.exp (((Real.log (∑ f, eL n f * eR m' f) + a n) + b m') - μ) := fun μ =>
    Finset.sum_pos (fun _ _ => Real.exp_pos _) Finset.univ_nonempty
  have href : refOut se oe pj n m
      = (((((Real.log (∑ f, eL n f * eR m f) + a n) + b m) - mx)
          - Real.log (∑ m', Real.exp (((Real.log (∑ f, eL n f * eR m' f) + a n) + b m') - mx)) : ℝ) : EReal) := by
    rw [refOut, hmx]
    simp only [hlg, exp_sub_coe, coe_sum]
    rw [log_pos_coe _ (hden mx), ← EReal.coe_sub, ← EReal.coe_sub]
  -- the tiled side
  have hdsum : ∑ f : Fin 256, expRow se pj n f * Sfin oe pj f
      = ((∑ m', (∑ f, eL n f * eR m' f) * Real.exp (b m' - B) : ℝ) : EReal) := by
    simp only [heL, hS, ← EReal.coe_mul, coe_sum]
    rw [sum_swap]
  have hdpos : 0 < ∑ m', (∑ f, eL n f * eR m' f) * Real.exp (b m' - B) :=
    Finset.sum_pos (fun m' _ => mul_pos (hGpos m') (Real.exp_pos _)) Finset.univ_nonempty
  have hker : kerOut se oe pj n m
      = ((((Real.log (∑ f, eL n f * eR m f) + b m) - B)
          - Real.log (∑ m', (∑ f, eL n f * eR m' f) * Real.exp (b m' - B)) : ℝ) : EReal) := by
    rw [kerOut, dvec, hdsum, log_pos_coe _ hdpos, hlogG, hb, hB, ← EReal.coe_add, ← EReal.coe_sub, ← EReal.coe_sub]
  rw [hker, href]
  exact congrArg _ (Cert.SpecReal.close_real (fun m' => ∑ f, eL n f * eR m' f) b hGpos (a n) B mx m).symm

end Cert.Spec
-- ==== Proof.Finite.lean ====
/-
  Finiteness from the precondition.  The precondition says, of each of the three argument arrays, that the
  conjunction over all entries x of |x| < +∞ is true.  Over the extended reals |x| = max x (-x), the word
  0x7F800000 denotes +∞, and max x (-x) < +∞ excludes both infinities: every entry is a real.
-/
import proofs.«170462_j60730837566028_1_alg».proof.Defs
import proofs.«170462_j60730837566028_1_alg».proof.Proof.Gen.Pre_finite_inputs
import Idealize.ShloMosaic.Lib.ReduceAll
import Idealize.ShloMosaic.Lib.ValueIdx
import Idealize.ShloMosaic.PureOps.Ideal.Laws

namespace Cert.Finite

open Idealize.ShloMosaic Idealize.SL.Sem

instance : Subsingleton Cert.Pre_finite_inputs.S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- max x (-x) < +∞ makes x a real. -/
theorem real_of_abs_lt_top (x : EReal) (h : max x (-x) < ⊤) : ∃ r : ℝ, x = (r : EReal) := by
  induction x using EReal.rec with
  | bot => simp at h
  | coe r => exact ⟨r, rfl⟩
  | top => simp at h

/-- A truth value's word is 1 only when it is true. -/
theorem ofBool_eq_one (b : Bool) : BitVec.ofBool b = 1#1 ↔ b = true := by cases b <;> decide

/-- One entry's test, read back. -/
theorem real_of_test (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [inf_word] at h
  have h' : BitVec.ofBool (decide (max x (-x) < (⊤ : EReal))) = 1#1 := h
  exact real_of_abs_lt_top x (of_decide_eq_true ((ofBool_eq_one _).1 h'))

/-- One array's jnp.all, read back. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu ValueIdx.ix0 = 1#1) (i : s.Idx) :
    ∃ r : ℝ, x i = (r : EReal) := by
  have h1 := Host.reduce_andi_all _ _ hr hu ValueIdx.ix0 e i
  exact real_of_test (x i) h1

theorem real_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) := by
  have h0 := congrFun (h c) ValueIdx.ix0
  dsimp only [Cert.Pre_finite_inputs.fn] at h0
  obtain ⟨h01, h2⟩ := IntOp.andi_eq_one.1 h0
  obtain ⟨h0', h1⟩ := IntOp.andi_eq_one.1 h01
  exact ⟨all_real _ _ _ _ h0', all_real _ _ _ _ h1, all_real _ _ _ _ h2⟩

end Cert.Finite
-- ==== Proof.Algebraic.lean ====
/-
  The two idealized programs agree.  The tiled program's result array is, entry by entry, the tiled formula of the
  three argument arrays; the reference's result is the log-softmax formula of the same arrays; under the
  precondition every argument entry is a real number, and for real data the two formulas are one function
  (an online accumulation of Σ exp is the plain sum rescaled, and log turns the product into a sum).
-/
import proofs.«170462_j60730837566028_1_alg».proof.Defs
import proofs.«170462_j60730837566028_1_alg».proof.Proof.KI.KerIsSpec
import proofs.«170462_j60730837566028_1_alg».proof.Proof.RefRes
import proofs.«170462_j60730837566028_1_alg».proof.Proof.SpecLaw
import proofs.«170462_j60730837566028_1_alg».proof.Proof.Finite

noncomputable section

namespace Cert.Proof.Alg

open Idealize.ShloMosaic Idealize.ShloMosaic.TcCoe Idealize.SL.Sem Idealize.ShloMosaic.ValueIdx

theorem algebraic [hKernelIdeal : Cert.KernelIdeal.Facts] [hReferenceIdeal : Cert.ReferenceIdeal.Facts] [hPre_finite_inputs : Cert.Pre_finite_inputs.Facts] :
    Cert.algebraic_KernelIdeal_ReferenceIdeal := by
  intro m ρ m' ρ' hpre hagree
  refine ⟨fun c => (Cert.KernelIdeal.Fr.dat2 (F := Ideal) (Cert.KernelIdeal.Fr.V2 m ρ) c).arrAt 5 Cert.KernelIdeal.cfg2.N,
    Cert.KernelIdeal.Fr.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  funext i
  obtain ⟨n, mm, rfl⟩ : ∃ (n : Fin 4096) (mm : Fin 32768), i = ix2 n mm := ⟨i 0, i 1, eq_ix2 i⟩
  obtain ⟨h0, h1, h2⟩ := Cert.Finite.real_of_pre m hpre c
  refine Eq.trans ?_ (Cert.KernelIdeal.Val.ker_eq m ρ c n mm).symm
  rw [Cert.Spec.kerOut_eq_refOut _ _ _ (fun a k => h0 _) (fun a k => h1 _) (fun k g => h2 _)]
  rw [Cert.RefSpec.res_eq m' c n mm, (hagree c).1, (hagree c).2.1, (hagree c).2.2]

end Cert.Proof.Alg

end
-- ==== Proof.lean ====
/-
  The certificate: a tiled three-pass computation of a log-softmax over logits
  logits n m = log(Σ_f exp(L n f - a n) · exp(R m f - b m)) + a n + b m  (L, R two projections, a, b their row maxima)
  against the plain formula.  Three frames (each program runs to the end, faults nowhere and leaves its arguments
  unchanged), a trivial idealization conjunct, and the agreement of the two idealized programs on the extended
  reals for finite inputs.  The pieces: Proof/K and Proof/KI (the tiled program's three regions, word-level and
  idealized: each region's body run once per control case, the proof data point by point, the regions in order),
  Proof/KI/Val* (what each region's arrays hold, entry by entry), Proof/Spec* (both formulas and the law that joins
  them), Proof/Ref* (the reference's run read back one operation at a time), Proof/Finite (the precondition read
  as "every entry is a real"), Proof/Frames and Proof/Algebraic (the claims).
-/
import proofs.«170462_j60730837566028_1_alg».proof.Defs
import proofs.«170462_j60730837566028_1_alg».proof.Proof.Gen.Kernel
import proofs.«170462_j60730837566028_1_alg».proof.Proof.Gen.KernelIdeal
import proofs.«170462_j60730837566028_1_alg».proof.Proof.Gen.ReferenceIdeal
import proofs.«170462_j60730837566028_1_alg».proof.Proof.Gen.Pre_finite_inputs
import proofs.«170462_j60730837566028_1_alg».proof.Proof.Frames
import proofs.«170462_j60730837566028_1_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_k, Frames.frame_ki, Frames.frame_ri, trivial, Alg.algebraic⟩

end Cert.Proof

end
